-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x978 : Shape := ⟨2, ![1024, 978]⟩
abbrev S2x20480000 : Shape := ⟨2, ![2, 20480000]⟩
abbrev S1024x4 : Shape := ⟨2, ![1024, 4]⟩
abbrev S_ : Shape := ⟨0, ![]⟩
abbrev S978x2048 : Shape := ⟨2, ![978, 2048]⟩
abbrev S2048 : Shape := ⟨1, ![2048]⟩
abbrev S2048x100 : Shape := ⟨2, ![2048, 100]⟩
abbrev S100 : Shape := ⟨1, ![100]⟩
abbrev S5x4 : Shape := ⟨2, ![5, 4]⟩
abbrev S4 : Shape := ⟨1, ![4]⟩
abbrev S4x2 : Shape := ⟨2, ![4, 2]⟩
abbrev S2 : Shape := ⟨1, ![2]⟩

class Facts : Prop where
  bcast_S_S1024x978 : S_.BroadcastsInDim S1024x978 (![] : Fin 0 → Fin S1024x978.rank)
  reducesTo_S1024x978_S_d0_1 : S1024x978.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_
  reducesTo_S_S_d : S_.ReducesTo [] S_
  bcast_S_S978x2048 : S_.BroadcastsInDim S978x2048 (![] : Fin 0 → Fin S978x2048.rank)
  reducesTo_S978x2048_S_d0_1 : S978x2048.ReducesTo [0, 1] S_
  bcast_S_S2048 : S_.BroadcastsInDim S2048 (![] : Fin 0 → Fin S2048.rank)
  reducesTo_S2048_S_d0 : S2048.ReducesTo [0] S_
  bcast_S_S2048x100 : S_.BroadcastsInDim S2048x100 (![] : Fin 0 → Fin S2048x100.rank)
  reducesTo_S2048x100_S_d0_1 : S2048x100.ReducesTo [0, 1] S_
  bcast_S_S100 : S_.BroadcastsInDim S100 (![] : Fin 0 → Fin S100.rank)
  reducesTo_S100_S_d0 : S100.ReducesTo [0] S_
  bcast_S_S5x4 : S_.BroadcastsInDim S5x4 (![] : Fin 0 → Fin S5x4.rank)
  reducesTo_S5x4_S_d0_1 : S5x4.ReducesTo [0, 1] S_
  bcast_S_S4 : S_.BroadcastsInDim S4 (![] : Fin 0 → Fin S4.rank)
  reducesTo_S4_S_d0 : S4.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S4x2 .f32) (main_arg13 : FVec F S2 .f32) (main_v46 : IVec S_ 1) (main_v49 : IVec S4 1) (main_c_19 : IVec S_ 1) : IVec S_ 1 :=
  let main_v50 : IVec S_ 1 := (fun x v => Host.reduce IntOp.andi x v reducesTo_S4_S_d0 h_S_) main_v49 main_c_19
  let main_v51 : IVec S_ 1 := andi main_v46 main_v50
  let main_v52 : FVec F S4x2 .f32 := Host.absf main_arg12
  let main_cst_20 : FVec F S_ .f32 := constant S_ .f32 0x7F800000#32
  let main_v53 : FVec F S4x2 .f32 := broadcastInDim S4x2 ![] bcast_S_S4x2 main_cst_20
  let main_v54 : IVec S4x2 1 := cmpf .olt main_v52 main_v53
  let main_c_21 : IVec S_ 1 := constantI S_ 1 1#1
  let main_v55 : IVec S_ 1 := (fun x v => Host.reduce IntOp.andi x v reducesTo_S4x2_S_d0_1 h_S_) main_v54 main_c_21
  let main_v56 : IVec S_ 1 := andi main_v51 main_v55
  let main_v57 : FVec F S2 .f32 := Host.absf main_arg13
  let main_cst_22 : FVec F S_ .f32 := constant S_ .f32 0x7F800000#32
  let main_v58 : FVec F S2 .f32 := broadcastInDim S2 ![] bcast_S_S2 main_cst_22
  let main_v59 : IVec S2 1 := cmpf .olt main_v57 main_v58
  let main_c_23 : IVec S_ 1 := constantI S_ 1 1#1
  let main_v60 : IVec S_ 1 := (fun x v => Host.reduce IntOp.andi x v reducesTo_S2_S_d0 h_S_) main_v59 main_c_23
  let main_v61 : IVec S_ 1 := andi main_v56 main_v60
  main_v61

def fn_part2 {F : FTy → Type} [FloatOps F] (main_arg9 : FVec F S100 .f32) (main_arg10 : FVec F S5x4 .f32) (main_arg11 : FVec F S4 .f32) (main_arg12 : FVec F S4x2 .f32) (main_arg13 : FVec F S2 .f32) (main_v31 : IVec S_ 1) (main_v32 : FVec F S2048x100 .f32) (main_cst_12 : FVec F S_ .f32) : IVec S_ 1 :=
  let main_v33 : FVec F S2048x100 .f32 := broadcastInDim S2048x100 ![] bcast_S_S2048x100 main_cst_12
  let main_v34 : IVec S2048x100 1 := cmpf .olt main_v32 main_v33
  let main_c_13 : IVec S_ 1 := constantI S_ 1 1#1
  let main_v35 : IVec S_ 1 := (fun x v => Host.reduce IntOp.andi x v reducesTo_S2048x100_S_d0_1 h_S_) main_v34 main_c_13
  let main_v36 : IVec S_ 1 := andi main_v31 main_v35
  let main_v37 : FVec F S100 .f32 := Host.absf main_arg9
  let main_cst_14 : FVec F S_ .f32 := constant S_ .f32 0x7F800000#32
  let main_v38 : FVec F S100 .f32 := broadcastInDim S100 ![] bcast_S_S100 main_cst_14
  let main_v39 : IVec S100 1 := cmpf .olt main_v37 main_v38
  let main_c_15 : IVec S_ 1 := constantI S_ 1 1#1
  let main_v40 : IVec S_ 1 := (fun x v => Host.reduce IntOp.andi x v reducesTo_S100_S_d0 h_S_) main_v39 main_c_15
  let main_v41 : IVec S_ 1 := andi main_v36 main_v40
  let main_v42 : FVec F S5x4 .f32 := Host.absf main_arg10
  let main_cst_16 : FVec F S_ .f32 := constant S_ .f32 0x7F800000#32
  let main_v43 : FVec F S5x4 .f32 := broadcastInDim S5x4 ![] bcast_S_S5x4 main_cst_16
  let main_v44 : IVec S5x4 1 := cmpf .olt main_v42 main_v43
  let main_c_17 : IVec S_ 1 := constantI S_ 1 1#1
  let main_v45 : IVec S_ 1 := (fun x v => Host.reduce IntOp.andi x v reducesTo_S5x4_S_d0_1 h_S_) main_v44 main_c_17
  let main_v46 : IVec S_ 1 := andi main_v41 main_v45
  let main_v47 : FVec F S4 .f32 := Host.absf main_arg11
  let main_cst_18 : FVec F S_ .f32 := constant S_ .f32 0x7F800000#32
  let main_v48 : FVec F S4 .f32 := broadcastInDim S4 ![] bcast_S_S4 main_cst_18
  let main_v49 : IVec S4 1 := cmpf .olt main_v47 main_v48
  let main_c_19 : IVec S_ 1 := constantI S_ 1 1#1
  fn_part3 (F := F) main_arg12 main_arg13 main_v46 main_v49 main_c_19

def fn_part1 {F : FTy → Type} [FloatOps F] (main_arg5 : FVec F S_ .f32) (main_arg6 : FVec F S978x2048 .f32) (main_arg7 : FVec F S2048 .f32) (main_arg8 : FVec F S2048x100 .f32) (main_arg9 : FVec F S100 .f32) (main_arg10 : FVec F S5x4 .f32) (main_arg11 : FVec F S4 .f32) (main_arg12 : FVec F S4x2 .f32) (main_arg13 : FVec F S2 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg5
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S978x2048 .f32 := Host.absf main_arg6
  let main_cst_8 : FVec F S_ .f32 := constant S_ .f32 0x7F800000#32
  let main_v23 : FVec F S978x2048 .f32 := broadcastInDim S978x2048 ![] bcast_S_S978x2048 main_cst_8
  let main_v24 : IVec S978x2048 1 := cmpf .olt main_v22 main_v23
  let main_c_9 : IVec S_ 1 := constantI S_ 1 1#1
  let main_v25 : IVec S_ 1 := (fun x v => Host.reduce IntOp.andi x v reducesTo_S978x2048_S_d0_1 h_S_) main_v24 main_c_9
  let main_v26 : IVec S_ 1 := andi main_v21 main_v25
  let main_v27 : FVec F S2048 .f32 := Host.absf main_arg7
  let main_cst_10 : FVec F S_ .f32 := constant S_ .f32 0x7F800000#32
  let main_v28 : FVec F S2048 .f32 := broadcastInDim S2048 ![] bcast_S_S2048 main_cst_10
  let main_v29 : IVec S2048 1 := cmpf .olt main_v27 main_v28
  let main_c_11 : IVec S_ 1 := constantI S_ 1 1#1
  let main_v30 : IVec S_ 1 := (fun x v => Host.reduce IntOp.andi x v reducesTo_S2048_S_d0 h_S_) main_v29 main_c_11
  let main_v31 : IVec S_ 1 := andi main_v26 main_v30
  let main_v32 : FVec F S2048x100 .f32 := Host.absf main_arg8
  let main_cst_12 : FVec F S_ .f32 := constant S_ .f32 0x7F800000#32
  fn_part2 (F := F) main_arg9 main_arg10 main_arg11 main_arg12 main_arg13 main_v31 main_v32 main_cst_12

def fn {F : FTy → Type} [FloatOps F] (main_arg0 : FVec F S1024x978 .f32) (main_arg1 : FVec F S1024x978 .f32) (main_arg2 : IVec S2x20480000 32) (main_arg3 : FVec F S1024x4 .f32) (main_arg4 : FVec F S_ .f32) (main_arg5 : FVec F S_ .f32) (main_arg6 : FVec F S978x2048 .f32) (main_arg7 : FVec F S2048 .f32) (main_arg8 : FVec F S2048x100 .f32) (main_arg9 : FVec F S100 .f32) (main_arg10 : FVec F S5x4 .f32) (main_arg11 : FVec F S4 .f32) (main_arg12 : FVec F S4x2 .f32) (main_arg13 : FVec F S2 .f32) : IVec S_ 1 :=
  let main_v0 : FVec F S1024x978 .f32 := Host.absf main_arg0
  let main_cst : FVec F S_ .f32 := constant S_ .f32 0x7F800000#32
  let main_v1 : FVec F S1024x978 .f32 := broadcastInDim S1024x978 ![] bcast_S_S1024x978 main_cst
  let main_v2 : IVec S1024x978 1 := cmpf .olt main_v0 main_v1
  let main_c : IVec S_ 1 := constantI S_ 1 1#1
  let main_v3 : IVec S_ 1 := (fun x v => Host.reduce IntOp.andi x v reducesTo_S1024x978_S_d0_1 h_S_) main_v2 main_c
  let main_v4 : FVec F S1024x978 .f32 := Host.absf main_arg1
  let main_cst_0 : FVec F S_ .f32 := constant S_ .f32 0x7F800000#32
  let main_v5 : FVec F S1024x978 .f32 := broadcastInDim S1024x978 ![] bcast_S_S1024x978 main_cst_0
  let main_v6 : IVec S1024x978 1 := cmpf .olt main_v4 main_v5
  let main_c_1 : IVec S_ 1 := constantI S_ 1 1#1
  let main_v7 : IVec S_ 1 := (fun x v => Host.reduce IntOp.andi x v reducesTo_S1024x978_S_d0_1 h_S_) main_v6 main_c_1
  let main_v8 : IVec S_ 1 := andi main_v3 main_v7
  let main_v9 : FVec F S1024x4 .f32 := Host.absf main_arg3
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg5 main_arg6 main_arg7 main_arg8 main_arg9 main_arg10 main_arg11 main_arg12 main_arg13 main_v13 main_v15 main_c_5
-- ==== Kernel.lean ====
abbrev S1024x978 : Shape := ⟨2, ![1024, 978]⟩
abbrev S2x20480000 : Shape := ⟨2, ![2, 20480000]⟩
abbrev S1024x4 : Shape := ⟨2, ![1024, 4]⟩
abbrev S_ : Shape := ⟨0, ![]⟩
abbrev S978x2048 : Shape := ⟨2, ![978, 2048]⟩
abbrev S2048 : Shape := ⟨1, ![2048]⟩
abbrev S2048x100 : Shape := ⟨2, ![2048, 100]⟩
abbrev S100 : Shape := ⟨1, ![100]⟩
abbrev S5x4 : Shape := ⟨2, ![5, 4]⟩
abbrev S4 : Shape := ⟨1, ![4]⟩
abbrev S4x2 : Shape := ⟨2, ![4, 2]⟩
abbrev S2 : Shape := ⟨1, ![2]⟩
abbrev S1001472 : Shape := ⟨1, ![1001472]⟩
abbrev S1001472x1 : Shape := ⟨2, ![1001472, 1]⟩
abbrev S1001472x2 : Shape := ⟨2, ![1001472, 2]⟩
abbrev S1x20480000 : Shape := ⟨2, ![1, 20480000]⟩
abbrev S20480000 : Shape := ⟨1, ![20480000]⟩
abbrev S20480000x1 : Shape := ⟨2, ![20480000, 1]⟩
abbrev S20480000x2 : Shape := ⟨2, ![20480000, 2]⟩
abbrev S1x1024x978 : Shape := ⟨3, ![1, 1024, 978]⟩
abbrev S2x1024x978 : Shape := ⟨3, ![2, 1024, 978]⟩
abbrev S1024x2 : Shape := ⟨2, ![1024, 2]⟩
abbrev S2x128x978 : Shape := ⟨3, ![2, 128, 978]⟩
abbrev S128x4 : Shape := ⟨2, ![128, 4]⟩
abbrev S128x2 : Shape := ⟨2, ![128, 2]⟩
abbrev S256x978 : Shape := ⟨2, ![256, 978]⟩
abbrev S256x2048 : Shape := ⟨2, ![256, 2048]⟩
abbrev S1x2048 : Shape := ⟨2, ![1, 2048]⟩
abbrev S256x100 : Shape := ⟨2, ![256, 100]⟩
abbrev S1x100 : Shape := ⟨2, ![1, 100]⟩
abbrev S128x100 : Shape := ⟨2, ![128, 100]⟩
abbrev S128 : Shape := ⟨1, ![128]⟩
abbrev S128x1 : Shape := ⟨2, ![128, 1]⟩
abbrev S1x4 : Shape := ⟨2, ![1, 4]⟩
abbrev S1x2 : Shape := ⟨2, ![1, 2]⟩

abbrev nBuf : Space → Nat
  | .hbm => 52
  | .vmem => 14
  | .smem => 0
  | _ => 0

abbrev bufTy : (tb : Table) → Fin (tcTables nBuf tb) → BufTy
  | .hbm, ⟨0, _⟩ => ⟨S1024x978, .f32⟩
  | .hbm, ⟨1, _⟩ => ⟨S1024x978, .f32⟩
  | .hbm, ⟨2, _⟩ => ⟨S2x20480000, .i32⟩
  | .hbm, ⟨3, _⟩ => ⟨S1024x4, .f32⟩
  | .hbm, ⟨4, _⟩ => ⟨S_, .f32⟩
  | .hbm, ⟨5, _⟩ => ⟨S_, .f32⟩
  | .hbm, ⟨6, _⟩ => ⟨S978x2048, .f32⟩
  | .hbm, ⟨7, _⟩ => ⟨S2048, .f32⟩
  | .hbm, ⟨8, _⟩ => ⟨S2048x100, .f32⟩
  | .hbm, ⟨9, _⟩ => ⟨S100, .f32⟩
  | .hbm, ⟨10, _⟩ => ⟨S5x4, .f32⟩
  | .hbm, ⟨11, _⟩ => ⟨S4, .f32⟩
  | .hbm, ⟨12, _⟩ => ⟨S4x2, .f32⟩
  | .hbm, ⟨13, _⟩ => ⟨S2, .f32⟩
  | .hbm, ⟨14, _⟩ => ⟨S1001472, .f32⟩
  | .hbm, ⟨15, _⟩ => ⟨S1001472, .f32⟩
  | .hbm, ⟨16, _⟩ => ⟨S1001472x1, .f32⟩
  | .hbm, ⟨17, _⟩ => ⟨S1001472x1, .f32⟩
  | .hbm, ⟨18, _⟩ => ⟨S1001472x2, .f32⟩
  | .hbm, ⟨19, _⟩ => ⟨S1x20480000, .i32⟩
  | .hbm, ⟨20, _⟩ => ⟨S20480000, .i32⟩
  | .hbm, ⟨21, _⟩ => ⟨S1x20480000, .i32⟩
  | .hbm, ⟨22, _⟩ => ⟨S20480000, .i32⟩
  | .hbm, ⟨23, _⟩ => ⟨S_, .i32⟩
  | .hbm, ⟨24, _⟩ => ⟨S20480000, .i32⟩
  | .hbm, ⟨25, _⟩ => ⟨S20480000, .i1⟩
  | .hbm, ⟨26, _⟩ => ⟨S_, .i32⟩
  | .hbm, ⟨27, _⟩ => ⟨S20480000, .i32⟩
  | .hbm, ⟨28, _⟩ => ⟨S20480000, .i32⟩
  | .hbm, ⟨29, _⟩ => ⟨S20480000, .i32⟩
  | .hbm, ⟨30, _⟩ => ⟨S20480000x1, .i32⟩
  | .hbm, ⟨31, _⟩ => ⟨S20480000x2, .f32⟩
  | .hbm, ⟨32, _⟩ => ⟨S_, .f32⟩
  | .hbm, ⟨33, _⟩ => ⟨S1001472x2, .f32⟩
  | .hbm, ⟨34, _⟩ => ⟨S20480000x1, .i32⟩
  | .hbm, ⟨35, _⟩ => ⟨S1001472x2, .f32⟩
  | .hbm, ⟨36, _⟩ => ⟨S1001472x2, .f32⟩
  | .hbm, ⟨37, _⟩ => ⟨S1001472x2, .f32⟩
  | .hbm, ⟨38, _⟩ => ⟨S1001472x2, .f32⟩
  | .hbm, ⟨39, _⟩ => ⟨S1001472x2, .f32⟩
  | .hbm, ⟨40, _⟩ => ⟨S1001472x1, .f32⟩
  | .hbm, ⟨41, _⟩ => ⟨S1001472, .f32⟩
  | .hbm, ⟨42, _⟩ => ⟨S1024x978, .f32⟩
  | .hbm, ⟨43, _⟩ => ⟨S1001472x1, .f32⟩
  | .hbm, ⟨44, _⟩ => ⟨S1001472, .f32⟩
  | .hbm, ⟨45, _⟩ => ⟨S1024x978, .f32⟩
  | .hbm, ⟨46, _⟩ => ⟨S1x1024x978, .f32⟩
  | .hbm, ⟨47, _⟩ => ⟨S1x1024x978, .f32⟩
  | .hbm, ⟨48, _⟩ => ⟨S2x1024x978, .f32⟩
  | .hbm, ⟨49, _⟩ => ⟨S978x2048, .bf16⟩
  | .hbm, ⟨50, _⟩ => ⟨S2048x100, .bf16⟩
  | .hbm, ⟨51, _⟩ => ⟨S1024x2, .f32⟩
  | .local _ .vmem, ⟨0, _⟩ => ⟨S2x128x978, .f32⟩
  | .local _ .vmem, ⟨1, _⟩ => ⟨S2x128x978, .f32⟩
  | .local _ .vmem, ⟨2, _⟩ => ⟨S128x4, .f32⟩
  | .local _ .vmem, ⟨3, _⟩ => ⟨S128x4, .f32⟩
  | .local _ .vmem, ⟨4, _⟩ => ⟨S978x2048, .bf16⟩
  | .local _ .vmem, ⟨5, _⟩ => ⟨S2048, .f32⟩
  | .local _ .vmem, ⟨6, _⟩ => ⟨S2048x100, .bf16⟩
  | .local _ .vmem, ⟨7, _⟩ => ⟨S100, .f32⟩
  | .local _ .vmem, ⟨8, _⟩ => ⟨S5x4, .f32⟩
  | .local _ .vmem, ⟨9, _⟩ => ⟨S4, .f32⟩
  | .local _ .vmem, ⟨10, _⟩ => ⟨S4x2, .f32⟩
  | .local _ .vmem, ⟨11, _⟩ => ⟨S2, .f32⟩
  | .local _ .vmem, ⟨12, _⟩ => ⟨S128x2, .f32⟩
  | .local _ .vmem, ⟨13, _⟩ => ⟨S128x2, .f32⟩
  | _, _ => ⟨S1024x978, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x128x978 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S978x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x100 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1024x978_S1001472 : S1024x978.ShapeCasts S1001472
  bcast_S1001472_S1001472x1_0 : S1001472.BroadcastsInDim S1001472x1 (![0] : Fin 1 → Fin S1001472x1.rank)
  concatenates_S1001472x1_S1001472x1_S1001472x2_d1 : Shape.Concatenates [S1001472x1, S1001472x1] S1001472x2 1
  slices_S2x20480000_S1x20480000_0_0 : S2x20480000.Slices ![0, 0] S1x20480000
  shapeCasts_S1x20480000_S20480000 : S1x20480000.ShapeCasts S20480000
  slices_S2x20480000_S1x20480000_1_0 : S2x20480000.Slices ![1, 0] S1x20480000
  bcast_S_S20480000 : S_.BroadcastsInDim S20480000 (![] : Fin 0 → Fin S20480000.rank)
  bcast_S20480000_S20480000x1_0 : S20480000.BroadcastsInDim S20480000x1 (![0] : Fin 1 → Fin S20480000x1.rank)
  bcast_S_S1001472x2 : S_.BroadcastsInDim S1001472x2 (![] : Fin 0 → Fin S1001472x2.rank)
  slices_S1001472x2_S1001472x1_0_0 : S1001472x2.Slices ![0, 0] S1001472x1
  shapeCasts_S1001472x1_S1001472 : S1001472x1.ShapeCasts S1001472
  shapeCasts_S1001472_S1024x978 : S1001472.ShapeCasts S1024x978
  slices_S1001472x2_S1001472x1_0_1 : S1001472x2.Slices ![0, 1] S1001472x1
  bcast_S1024x978_S1x1024x978_1_2 : S1024x978.BroadcastsInDim S1x1024x978 (![1, 2] : Fin 2 → Fin S1x1024x978.rank)
  concatenates_S1x1024x978_S1x1024x978_S2x1024x978_d0 : Shape.Concatenates [S1x1024x978, S1x1024x978] S2x1024x978 0
  bitsLt_bf16_f32 : FTy.bits .bf16 < FTy.bits .f32
  inb_S2x128x978_S2x128x978_0_0_0 : ∀ a, (![0, 0, 0] : Fin 3 → Nat) a + S2x128x978.size a ≤ S2x128x978.size a
  h_S2x128x978 : 0 < S2x128x978.numel
  shapeCasts_S2x128x978_S2x128x978 : S2x128x978.ShapeCasts S2x128x978
  shapeCasts_S2x128x978_S256x978 : S2x128x978.ShapeCasts S256x978
  inb_S978x2048_S978x2048_0_0 : ∀ a, (![0, 0] : Fin 2 → Nat) a + S978x2048.size a ≤ S978x2048.size a
  h_S978x2048 : 0 < S978x2048.numel
  shapeCasts_S978x2048_S978x2048 : S978x2048.ShapeCasts S978x2048
  inb_S2048_S2048_0 : ∀ a, (![0] : Fin 1 → Nat) a + S2048.size a ≤ S2048.size a
  h_S2048 : 0 < S2048.numel
  inb_S2048x100_S2048x100_0_0 : ∀ a, (![0, 0] : Fin 2 → Nat) a + S2048x100.size a ≤ S2048x100.size a
  h_S2048x100 : 0 < S2048x100.numel
  shapeCasts_S2048x100_S2048x100 : S2048x100.ShapeCasts S2048x100
  inb_S100_S100_0 : ∀ a, (![0] : Fin 1 → Nat) a + S100.size a ≤ S100.size a
  h_S100 : 0 < S100.numel
  shapeCasts_S2048_S1x2048 : S2048.ShapeCasts S1x2048
  broadcasts_S1x2048_S256x2048 : S1x2048.Broadcasts S256x2048
  shapeCasts_S100_S1x100 : S100.ShapeCasts S1x100
  broadcasts_S1x100_S256x100 : S1x100.Broadcasts S256x100
  slices_S256x100_o0_0_S128x100 : S256x100.Slices ![0, 0] S128x100
  slices_S256x100_o128_0_S128x100 : S256x100.Slices ![128, 0] S128x100
  reduces_S128x100_S128 : S128x100.Reduces [1] S128
  shapeCasts_S128_S128x1 : S128.ShapeCasts S128x1
  broadcasts_S128x1_S128x100 : S128x1.Broadcasts S128x100
  inb_S128x4_S128x4_0_0 : ∀ a, (![0, 0] : Fin 2 → Nat) a + S128x4.size a ≤ S128x4.size a
  h_S128x4 : 0 < S128x4.numel
  inb_S5x4_S5x4_0_0 : ∀ a, (![0, 0] : Fin 2 → Nat) a + S5x4.size a ≤ S5x4.size a
  h_S5x4 : 0 < S5x4.numel
  inb_S4_S4_0 : ∀ a, (![0] : Fin 1 → Nat) a + S4.size a ≤ S4.size a
  h_S4 : 0 < S4.numel
  slices_S5x4_o0_0_S1x4 : S5x4.Slices ![0, 0] S1x4
  broadcasts_S128x1_S128x4 : S128x1.Broadcasts S128x4
  broadcasts_S1x4_S128x4 : S1x4.Broadcasts S128x4
  slices_S128x4_o0_0_S128x1 : S128x4.Slices ![0, 0] S128x1
  slices_S5x4_o1_0_S1x4 : S5x4.Slices ![1, 0] S1x4
  slices_S128x4_o0_1_S128x1 : S128x4.Slices ![0, 1] S128x1
  slices_S5x4_o2_0_S1x4 : S5x4.Slices ![2, 0] S1x4
  slices_S128x4_o0_2_S128x1 : S128x4.Slices ![0, 2] S128x1
  slices_S5x4_o3_0_S1x4 : S5x4.Slices ![3, 0] S1x4
  slices_S128x4_o0_3_S128x1 : S128x4.Slices ![0, 3] S128x1
  slices_S5x4_o4_0_S1x4 : S5x4.Slices ![4, 0] S1x4
  shapeCasts_S4_S1x4 : S4.ShapeCasts S1x4
  inb_S4x2_S4x2_0_0 : ∀ a, (![0, 0] : Fin 2 → Nat) a + S4x2.size a ≤ S4x2.size a
  h_S4x2 : 0 < S4x2.numel
  inb_S2_S2_0 : ∀ a, (![0] : Fin 1 → Nat) a + S2.size a ≤ S2.size a
  h_S2 : 0 < S2.numel
  slices_S4x2_o0_0_S1x2 : S4x2.Slices ![0, 0] S1x2
  broadcasts_S128x1_S128x2 : S128x1.Broadcasts S128x2
  broadcasts_S1x2_S128x2 : S1x2.Broadcasts S128x2
  slices_S4x2_o1_0_S1x2 : S4x2.Slices ![1, 0] S1x2
  slices_S4x2_o2_0_S1x2 : S4x2.Slices ![2, 0] S1x2
  slices_S4x2_o3_0_S1x2 : S4x2.Slices ![3, 0] S1x2
  shapeCasts_S2_S1x2 : S2.ShapeCasts S1x2
  inb_S128x2_S128x2_0_0 : ∀ a, (![0, 0] : Fin 2 → Nat) a + S128x2.size a ≤ S128x2.size a
  h_S128x2 : 0 < S128x2.numel
  gather_S1001472x2_S20480000x1_S20480000x2_1_0_n_n_0_1_12_wf : GatherDims.WF S1001472x2 S20480000x1 S20480000x2 [1] [0] [] [0] [] 1 ![1, 2]
  scatter_S1001472x2_S20480000x1_S20480000x2_1_0_0_1_wf : ScatterDims.WF S1001472x2 S20480000x1 S20480000x2 [1] [0] [0] 1
  dot_S256x978_S978x2048_S256x2048_1_0_0_1_n_n_wf : DotDims.WF S256x978 S978x2048 S256x2048 [1] [0] [0] [1] [] []
  dot_S256x2048_S2048x100_S256x100_1_0_0_1_n_n_wf : DotDims.WF S256x2048 S2048x100 S256x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x978.size a ≤ S2x1024x978.size a
  hwx0_0 : ∀ i : grid0.Coords, EltTy.bits .f32 = 32 ∨ (Rect.block (s := S2x1024x978) S2x128x978.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S1024x4.size a
  hwx0_1 : ∀ i : grid0.Coords, EltTy.bits .f32 = 32 ∨ (Rect.block (s := S1024x4) S128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S978x2048.size a ≤ S978x2048.size a
  hwx0_2 : ∀ i : grid0.Coords, EltTy.bits .bf16 = 32 ∨ (Rect.block (s := S978x2048) S978x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x100.size a ≤ S2048x100.size a
  hwx0_4 : ∀ i : grid0.Coords, EltTy.bits .bf16 = 32 ∨ (Rect.block (s := S2048x100) S2048x100.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100.size a ≤ S100.size a
  hwx0_5 : ∀ i : grid0.Coords, EltTy.bits .f32 = 32 ∨ (Rect.block (s := S100) S100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x4.size a ≤ S5x4.size a
  hwx0_6 : ∀ i : grid0.Coords, EltTy.bits .f32 = 32 ∨ (Rect.block (s := S5x4) S5x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4.size a ≤ S4.size a
  hwx0_7 : ∀ i : grid0.Coords, EltTy.bits .f32 = 32 ∨ (Rect.block (s := S4) S4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x2.size a ≤ S4x2.size a
  hwx0_8 : ∀ i : grid0.Coords, EltTy.bits .f32 = 32 ∨ (Rect.block (s := S4x2) S4x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2.size a ≤ S2.size a
  hwx0_9 : ∀ i : grid0.Coords, EltTy.bits .f32 = 32 ∨ (Rect.block (s := S2) S2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2.size a ≤ S1024x2.size a
  hwx0_10 : ∀ i : grid0.Coords, EltTy.bits .f32 = 32 ∨ (Rect.block (s := S1024x2) S128x2.size (cc0_transform_10 i) (hinb0_10 i)).WholeWords (EltTy.packing .f32)

variable [Facts₀]

def gather_S1001472x2_S20480000x1_S20480000x2_1_0_n_n_0_1_12 : GatherDims S1001472x2 S20480000x1 S20480000x2 where
  offsetDims := [1]
  collapsedSliceDims := [0]
  operandBatchingDims := []
  startIndicesBatchingDims := []
  startIndexMap := [0]
  indexVectorDim := 1
  sliceSizes := ![1, 2]
  wf := gather_S1001472x2_S20480000x1_S20480000x2_1_0_n_n_0_1_12_wf
def scatter_S1001472x2_S20480000x1_S20480000x2_1_0_0_1 : ScatterDims S1001472x2 S20480000x1 S20480000x2 where
  updateWindowDims := [1]
  insertedWindowDims := [0]
  scatterDimsToOperandDims := [0]
  indexVectorDim := 1
  wf := scatter_S1001472x2_S20480000x1_S20480000x2_1_0_0_1_wf
def dot_S256x978_S978x2048_S256x2048_1_0_0_1_n_n : DotDims S256x978 S978x2048 S256x2048 where
  lhsContracting := [1]
  rhsContracting := [0]
  lhsNonContracting := [0]
  rhsNonContracting := [1]
  lhsBatch := []
  rhsBatch := []
  wf := dot_S256x978_S978x2048_S256x2048_1_0_0_1_n_n_wf
def dot_S256x2048_S2048x100_S256x100_1_0_0_1_n_n : DotDims S256x2048 S2048x100 S256x100 where
  lhsContracting := [1]
  rhsContracting := [0]
  lhsNonContracting := [0]
  rhsNonContracting := [1]
  lhsBatch := []
  rhsBatch := []
  wf := dot_S256x2048_S2048x100_S256x100_1_0_0_1_n_n_wf

abbrev win0_0 : Pipeline.Window sig grid0 :=
  Pipeline.Window.ofSpec (Memref.whole main_v31) S2x128x978.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S978x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S2048x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S5x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S4x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S128x2.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1024x978 : Shape := ⟨2, ![1024, 978]⟩
abbrev S2x20480000 : Shape := ⟨2, ![2, 20480000]⟩
abbrev S1024x4 : Shape := ⟨2, ![1024, 4]⟩
abbrev S_ : Shape := ⟨0, ![]⟩
abbrev S978x2048 : Shape := ⟨2, ![978, 2048]⟩
abbrev S2048 : Shape := ⟨1, ![2048]⟩
abbrev S2048x100 : Shape := ⟨2, ![2048, 100]⟩
abbrev S100 : Shape := ⟨1, ![100]⟩
abbrev S5x4 : Shape := ⟨2, ![5, 4]⟩
abbrev S4 : Shape := ⟨1, ![4]⟩
abbrev S4x2 : Shape := ⟨2, ![4, 2]⟩
abbrev S2 : Shape := ⟨1, ![2]⟩
abbrev S1001472 : Shape := ⟨1, ![1001472]⟩
abbrev S1x20480000 : Shape := ⟨2, ![1, 20480000]⟩
abbrev S20480000 : Shape := ⟨1, ![20480000]⟩
abbrev S20480000x1 : Shape := ⟨2, ![20480000, 1]⟩
abbrev S1024x2048 : Shape := ⟨2, ![1024, 2048]⟩
abbrev S1x2048 : Shape := ⟨2, ![1, 2048]⟩
abbrev S1024x100 : Shape := ⟨2, ![1024, 100]⟩
abbrev S1x100 : Shape := ⟨2, ![1, 100]⟩
abbrev S1024 : Shape := ⟨1, ![1024]⟩
abbrev S1024x1 : Shape := ⟨2, ![1024, 1]⟩
abbrev S1024x5 : Shape := ⟨2, ![1024, 5]⟩
abbrev S1x4 : Shape := ⟨2, ![1, 4]⟩
abbrev S1024x2 : Shape := ⟨2, ![1024, 2]⟩
abbrev S1x2 : Shape := ⟨2, ![1, 2]⟩

abbrev nBuf : Space → Nat
  | .hbm => 131
  | .vmem => 0
  | .smem => 0
  | _ => 0

abbrev hbmTy0_0 (i : Nat) : BufTy := match i % 128 with
  | 0 => ⟨S1024x978, .f32⟩
  | 1 => ⟨S1024x978, .f32⟩
  | 2 => ⟨S2x20480000, .i32⟩
  | 3 => ⟨S1024x4, .f32⟩
  | 4 => ⟨S_, .f32⟩
  | 5 => ⟨S_, .f32⟩
  | 6 => ⟨S978x2048, .f32⟩
  | 7 => ⟨S2048, .f32⟩
  | 8 => ⟨S2048x100, .f32⟩
  | 9 => ⟨S100, .f32⟩
  | 10 => ⟨S5x4, .f32⟩
  | 11 => ⟨S4, .f32⟩
  | 12 => ⟨S4x2, .f32⟩
  | 13 => ⟨S2, .f32⟩
  | 14 => ⟨S1001472, .f32⟩
  | 15 => ⟨S1x20480000, .i32⟩
  | 16 => ⟨S20480000, .i32⟩
  | 17 => ⟨S_, .i32⟩
  | 18 => ⟨S20480000, .i32⟩
  | 19 => ⟨S20480000, .i1⟩
  | 20 => ⟨S_, .i32⟩
  | 21 => ⟨S20480000, .i32⟩
  | 22 => ⟨S20480000, .i32⟩
  | 23 => ⟨S20480000, .i32⟩
  | 24 => ⟨S20480000x1, .i32⟩
  | 25 => ⟨S20480000, .f32⟩
  | 26 => ⟨S20480000, .f32⟩
  | 27 => ⟨S20480000, .f32⟩
  | 28 => ⟨S1x20480000, .i32⟩
  | 29 => ⟨S20480000, .i32⟩
  | 30 => ⟨S_, .f32⟩
  | 31 => ⟨S1001472, .f32⟩
  | 32 => ⟨S20480000x1, .i32⟩
  | 33 => ⟨S1001472, .f32⟩
  | 34 => ⟨S1001472, .f32⟩
  | 35 => ⟨S1001472, .f32⟩
  | 36 => ⟨S1024x978, .f32⟩
  | 37 => ⟨S_, .f32⟩
  | 38 => ⟨S1024x978, .f32⟩
  | 39 => ⟨S1024x978, .f32⟩
  | 40 => ⟨S1024x2048, .f32⟩
  | 41 => ⟨S1x2048, .f32⟩
  | 42 => ⟨S1024x2048, .f32⟩
  | 43 => ⟨S1024x2048, .f32⟩
  | 44 => ⟨S_, .f32⟩
  | 45 => ⟨S1024x2048, .f32⟩
  | 46 => ⟨S1024x2048, .f32⟩
  | 47 => ⟨S1024x100, .f32⟩
  | 48 => ⟨S1x100, .f32⟩
  | 49 => ⟨S1024x100, .f32⟩
  | 50 => ⟨S1024x100, .f32⟩
  | 51 => ⟨S1001472, .f32⟩
  | 52 => ⟨S1x20480000, .i32⟩
  | 53 => ⟨S20480000, .i32⟩
  | 54 => ⟨S_, .i32⟩
  | 55 => ⟨S20480000, .i32⟩
  | 56 => ⟨S20480000, .i1⟩
  | 57 => ⟨S_, .i32⟩
  | 58 => ⟨S20480000, .i32⟩
  | 59 => ⟨S20480000, .i32⟩
  | 60 => ⟨S20480000, .i32⟩
  | 61 => ⟨S20480000x1, .i32⟩
  | 62 => ⟨S20480000, .f32⟩
  | 63 => ⟨S20480000, .f32⟩
  | 64 => ⟨S20480000, .f32⟩
  | 65 => ⟨S1x20480000, .i32⟩
  | 66 => ⟨S20480000, .i32⟩
  | 67 => ⟨S_, .f32⟩
  | 68 => ⟨S1001472, .f32⟩
  | 69 => ⟨S20480000x1, .i32⟩
  | 70 => ⟨S1001472, .f32⟩
  | 71 => ⟨S1001472, .f32⟩
  | 72 => ⟨S1001472, .f32⟩
  | 73 => ⟨S1024x978, .f32⟩
  | 74 => ⟨S_, .f32⟩
  | 75 => ⟨S1024x978, .f32⟩
  | 76 => ⟨S1024x978, .f32⟩
  | 77 => ⟨S1024x2048, .f32⟩
  | 78 => ⟨S1x2048, .f32⟩
  | 79 => ⟨S1024x2048, .f32⟩
  | 80 => ⟨S1024x2048, .f32⟩
  | 81 => ⟨S_, .f32⟩
  | 82 => ⟨S1024x2048, .f32⟩
  | 83 => ⟨S1024x2048, .f32⟩
  | 84 => ⟨S1024x100, .f32⟩
  | 85 => ⟨S1x100, .f32⟩
  | 86 => ⟨S1024x100, .f32⟩
  | 87 => ⟨S1024x100, .f32⟩
  | 88 => ⟨S_, .f32⟩
  | 89 => ⟨S1024, .f32⟩
  | 90 => ⟨S1024x1, .f32⟩
  | 91 => ⟨S_, .f32⟩
  | 92 => ⟨S1024x1, .f32⟩
  | 93 => ⟨S1024x1, .f32⟩
  | 94 => ⟨S1024x100, .f32⟩
  | 95 => ⟨S1024x100, .f32⟩
  | 96 => ⟨S_, .f32⟩
  | 97 => ⟨S1024, .f32⟩
  | 98 => ⟨S1024x1, .f32⟩
  | 99 => ⟨S_, .f32⟩
  | 100 => ⟨S1024x1, .f32⟩
  | 101 => ⟨S1024x1, .f32⟩
  | 102 => ⟨S1024x100, .f32⟩
  | 103 => ⟨S1024x100, .f32⟩
  | 104 => ⟨S1024x100, .f32⟩
  | 105 => ⟨S_, .f32⟩
  | 106 => ⟨S1024, .f32⟩
  | 107 => ⟨S1024x100, .f32⟩
  | 108 => ⟨S_, .f32⟩
  | 109 => ⟨S1024, .f32⟩
  | 110 => ⟨S1024, .f32⟩
  | 111 => ⟨S1024x100, .f32⟩
  | 112 => ⟨S_, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024x1, .f32⟩
  | 119 => ⟨S1024x5, .f32⟩
  | 120 => ⟨S1024x4, .f32⟩
  | 121 => ⟨S1x4, .f32⟩
  | 122 => ⟨S1024x4, .f32⟩
  | 123 => ⟨S1024x4, .f32⟩
  | 124 => ⟨S_, .f32⟩
  | 125 => ⟨S1024x4, .f32⟩
  | 126 => ⟨S1024x4, .f32⟩
  | 127 => ⟨S1024x2, .f32⟩
  | _ => ⟨S1024x978, .f32⟩

abbrev hbmTy0_1 (i : Nat) : BufTy := match i % 128 with
  | 0 => ⟨S1x2, .f32⟩
  | 1 => ⟨S1024x2, .f32⟩
  | 2 => ⟨S1024x2, .f32⟩
  | _ => ⟨S1024x978, .f32⟩

abbrev hbmTy (i : Nat) : BufTy := match i / 128 with
  | 0 => hbmTy0_0 i
  | 1 => hbmTy0_1 i
  | _ => ⟨S1024x978, .f32⟩

abbrev bufTy : (tb : Table) → Fin (tcTables nBuf tb) → BufTy
  | .hbm, ⟨i, _⟩ => hbmTy i
  | _, _ => ⟨S1024x978, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_cst : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_1 : Ref sig .tc := ⟨.hbm, 54, rfl⟩
abbrev main_v33 : Ref sig .tc := ⟨.hbm, 55, rfl⟩
abbrev main_v34 : Ref sig .tc := ⟨.hbm, 56, rfl⟩
abbrev main_c_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call2_cst : Ref sig .tc := ⟨.hbm, 74, rfl⟩
abbrev main_call2_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call3_cst : Ref sig .tc := ⟨.hbm, 81, rfl⟩
abbrev main_call3_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_4 : Ref sig .tc := ⟨.hbm, 88, rfl⟩
abbrev main_v60 : Ref sig .tc := ⟨.hbm, 89, rfl⟩
abbrev main_v61 : Ref sig .tc := ⟨.hbm, 90, rfl⟩
abbrev main_cst_5 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_6 : Ref sig .tc := ⟨.hbm, 96, rfl⟩
abbrev main_v66 : Ref sig .tc := ⟨.hbm, 97, rfl⟩
abbrev main_v67 : Ref sig .tc := ⟨.hbm, 98, rfl⟩
abbrev main_cst_7 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_8 : Ref sig .tc := ⟨.hbm, 105, rfl⟩
abbrev main_v73 : Ref sig .tc := ⟨.hbm, 106, rfl⟩
abbrev main_v74 : Ref sig .tc := ⟨.hbm, 107, rfl⟩
abbrev main_cst_9 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_10 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call4_cst : Ref sig .tc := ⟨.hbm, 124, rfl⟩
abbrev main_call4_v0 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  shapeCasts_S1024x978_S1001472 : S1024x978.ShapeCasts S1001472
  slices_S2x20480000_S1x20480000_0_0 : S2x20480000.Slices ![0, 0] S1x20480000
  shapeCasts_S1x20480000_S20480000 : S1x20480000.ShapeCasts S20480000
  bcast_S_S20480000 : S_.BroadcastsInDim S20480000 (![] : Fin 0 → Fin S20480000.rank)
  bcast_S20480000_S20480000x1_0 : S20480000.BroadcastsInDim S20480000x1 (![0] : Fin 1 → Fin S20480000x1.rank)
  slices_S2x20480000_S1x20480000_1_0 : S2x20480000.Slices ![1, 0] S1x20480000
  bcast_S_S1001472 : S_.BroadcastsInDim S1001472 (![] : Fin 0 → Fin S1001472.rank)
  shapeCasts_S1001472_S1024x978 : S1001472.ShapeCasts S1024x978
  bcast_S_S1024x978 : S_.BroadcastsInDim S1024x978 (![] : Fin 0 → Fin S1024x978.rank)
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  bcast_S100_S1x100_1 : S100.BroadcastsInDim S1x100 (![1] : Fin 1 → Fin S1x100.rank)
  bcast_S1x100_S1024x100_0_1 : S1x100.BroadcastsInDim S1024x100 (![0, 1] : Fin 2 → Fin S1024x100.rank)
  reducesTo_S1024x100_S1024_d1 : S1024x100.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x100_0_1 : S1024x1.BroadcastsInDim S1024x100 (![0, 1] : Fin 2 → Fin S1024x100.rank)
  concatenates_S1024x1_S1024x4_S1024x5_d1 : Shape.Concatenates [S1024x1, S1024x4] S1024x5 1
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  bcast_S_S1024x4 : S_.BroadcastsInDim S1024x4 (![] : Fin 0 → Fin S1024x4.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  gather_S1001472_S20480000x1_S20480000_n_0_n_n_0_1_1_wf : GatherDims.WF S1001472 S20480000x1 S20480000 [] [0] [] [0] [] 1 ![1]
  scatter_S1001472_S20480000x1_S20480000_n_0_0_1_wf : ScatterDims.WF S1001472 S20480000x1 S20480000 [] [0] [0] 1
  dot_S1024x978_S978x2048_S1024x2048_1_0_0_1_n_n_wf : DotDims.WF S1024x978 S978x2048 S1024x2048 [1] [0] [0] [1] [] []
  dot_S1024x2048_S2048x100_S1024x100_1_0_0_1_n_n_wf : DotDims.WF S1024x2048 S2048x100 S1024x100 [1] [0] [0] [1] [] []
  dot_S1024x5_S5x4_S1024x4_1_0_0_1_n_n_wf : DotDims.WF S1024x5 S5x4 S1024x4 [1] [0] [0] [1] [] []
  dot_S1024x4_S4x2_S1024x2_1_0_0_1_n_n_wf : DotDims.WF S1024x4 S4x2 S1024x2 [1] [0] [0] [1] [] []

variable [Facts₀]

def gather_S1001472_S20480000x1_S20480000_n_0_n_n_0_1_1 : GatherDims S1001472 S20480000x1 S20480000 where
  offsetDims := []
  collapsedSliceDims := [0]
  operandBatchingDims := []
  startIndicesBatchingDims := []
  startIndexMap := [0]
  indexVectorDim := 1
  sliceSizes := ![1]
  wf := gather_S1001472_S20480000x1_S20480000_n_0_n_n_0_1_1_wf
def scatter_S1001472_S20480000x1_S20480000_n_0_0_1 : ScatterDims S1001472 S20480000x1 S20480000 where
  updateWindowDims := []
  insertedWindowDims := [0]
  scatterDimsToOperandDims := [0]
  indexVectorDim := 1
  wf := scatter_S1001472_S20480000x1_S20480000_n_0_0_1_wf
def dot_S1024x978_S978x2048_S1024x2048_1_0_0_1_n_n : DotDims S1024x978 S978x2048 S1024x2048 where
  lhsContracting := [1]
  rhsContracting := [0]
  lhsNonContracting := [0]
  rhsNonContracting := [1]
  lhsBatch := []
  rhsBatch := []
  wf := dot_S1024x978_S978x2048_S1024x2048_1_0_0_1_n_n_wf
def dot_S1024x2048_S2048x100_S1024x100_1_0_0_1_n_n : DotDims S1024x2048 S2048x100 S1024x100 where
  lhsContracting := [1]
  rhsContracting := [0]
  lhsNonContracting := [0]
  rhsNonContracting := [1]
  lhsBatch := []
  rhsBatch := []
  wf := dot_S1024x2048_S2048x100_S1024x100_1_0_0_1_n_n_wf
def dot_S1024x5_S5x4_S1024x4_1_0_0_1_n_n : DotDims S1024x5 S5x4 S1024x4 where
  lhsContracting := [1]
  rhsContracting := [0]
  lhsNonContracting := [0]
  rhsNonContracting := [1]
  lhsBatch := []
  rhsBatch := []
  wf := dot_S1024x5_S5x4_S1024x4_1_0_0_1_n_n_wf
def dot_S1024x4_S4x2_S1024x2_1_0_0_1_n_n : DotDims S1024x4 S4x2 S1024x2 where
  lhsContracting := [1]
  rhsContracting := [0]
  lhsNonContracting := [0]
  rhsNonContracting := [1]
  lhsBatch := []
  rhsBatch := []
  wf := dot_S1024x4_S4x2_S1024x2_1_0_0_1_n_n_wf

class Facts : Prop extends Facts₀ where

variable [Facts]
-- ==== Proof.Finite.lean ====
/- What the precondition says of the arrays the aggregation multiplies: every entry of the two node-feature arrays
   and the aggregation's scalar weight is a real number.

   The precondition is a conjunction, over all float arguments, of "every entry's absolute value is below +∞". On the
   extended reals `max x (-x) < ⊤` excludes both infinities, so the entry is a real. The conjunction is a left-nested
   chain of one-bit `and`s; peeling the later conjuncts off leaves the three that are used. -/
import proofs.«165435_j22591527977030_2_alg».proof.Pre_finite_inputs
import proofs.«165435_j22591527977030_2_alg».proof.Proof.Gen.Pre_finite_inputs
import Idealize.ShloMosaic.PureOps.Ideal.Laws
import Idealize.ShloMosaic.Lib.ReduceAll
import Idealize.ShloMosaic.Lib.ValueIdx

noncomputable section

namespace Cert.Finite

open Cert.Pre_finite_inputs Idealize.ShloMosaic Idealize.ShloMosaic.ValueIdx

instance : Subsingleton S_.Idx := ⟨fun _ _ => funext fun d => d.elim0⟩

/-- An extended real whose absolute value is below the word of +∞ is a real. -/
theorem real_of_abs_lt (x : EReal)
    (h : Ideal.cmp .olt (max x (-x)) (Ideal.ofBits .f32 0x7F800000#32) = 1#1) : ∃ t : ℝ, x = t := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition the two node-feature arrays and the aggregation weight hold reals. -/
theorem reals_of_pre (a0 a1 : FVec Ideal S1024x978 .f32) (a2 : IVec S2x20480000 32) (a3 : FVec Ideal S1024x4 .f32)
    (a4 a5 : FVec Ideal S_ .f32) (a6 : FVec Ideal S978x2048 .f32) (a7 : FVec Ideal S2048 .f32)
    (a8 : FVec Ideal S2048x100 .f32) (a9 : FVec Ideal S100 .f32) (a10 : FVec Ideal S5x4 .f32) (a11 : FVec Ideal S4 .f32)
    (a12 : FVec Ideal S4x2 .f32) (a13 : FVec Ideal S2 .f32)
    (h : fn (F := Ideal) a0 a1 a2 a3 a4 a5 a6 a7 a8 a9 a10 a11 a12 a13 = fun _ => 1#1) :
    (∀ i, ∃ t : ℝ, a0 i = t) ∧ (∀ i, ∃ t : ℝ, a1 i = t) ∧ (∃ t : ℝ, a4 ix0 = t) := by
  have h0 := congrFun h ix0
  dsimp only [fn, fn_part1, fn_part2, fn_part3] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨h6, -⟩ := IntOp.andi_eq_one.1 h5
  obtain ⟨h7, -⟩ := IntOp.andi_eq_one.1 h6
  obtain ⟨h8, -⟩ := IntOp.andi_eq_one.1 h7
  obtain ⟨h9, -⟩ := IntOp.andi_eq_one.1 h8
  obtain ⟨h13, h16⟩ := IntOp.andi_eq_one.1 h9
  obtain ⟨h8', -⟩ := IntOp.andi_eq_one.1 h13
  obtain ⟨hx0, hx1⟩ := IntOp.andi_eq_one.1 h8'
  refine ⟨fun i => real_of_abs_lt (a0 i) ?_, fun i => real_of_abs_lt (a1 i) ?_, real_of_abs_lt (a4 ix0) ?_⟩
  · exact Host.reduce_andi_all _ _ _ _ ix0 hx0 i
  · exact Host.reduce_andi_all _ _ _ _ ix0 hx1 i
  · exact Host.reduce_andi_all _ _ _ _ ix0 h16 ix0

end Cert.Finite

end
-- ==== Proof.Spec.lean ====
/- The function both programs compute, one batch row at a time, on the extended reals.

   A batch row carries two aggregated node-feature vectors of 978 entries (one per input graph signal), four extra
   features, and shares all weights. Each vector goes through the same encoder — a floor at zero, a 978 → 2048
   affine layer, a floor at zero, a 2048 → 100 affine layer. The two 100-vectors are centred by their means (the sum
   divided by 100) and their squared correlation is formed: the sum of products over the product of the two root sums of
   squares, squared. A 5 → 4 affine layer on (that number, the four extra features) with a floor at zero and a 4 → 2 affine
   layer give the row's two outputs. The small layers are written here as the left-nested sums of products one program
   spells out; the other program's contraction over `Fin 5` / `Fin 4` is the same sum (`hid_eq_sum`, `outp_eq_sum`),
   addition of extended reals being commutative and associative. -/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The floor at zero. -/
def relu (x : EReal) : EReal := max x (Ideal.ofBits .f32 0x00000000#32)

/-- The encoder on one 978-vector, at output coordinate `q`. -/
def enc (a : Fin 978 → EReal) (W1 : Fin 978 → Fin 2048 → EReal) (b1 : Fin 2048 → EReal)
    (W2 : Fin 2048 → Fin 100 → EReal) (b2 : Fin 100 → EReal) (q : Fin 100) : EReal :=
  (∑ k : Fin 2048, relu ((∑ j : Fin 978, relu (a j) * W1 j k) + b1 k) * W2 k q) + b2 q

/-- A 100-vector minus its mean. -/
def ctr (o : Fin 100 → EReal) (q : Fin 100) : EReal :=
  o q - Ideal.div (∑ k : Fin 100, o k) (Ideal.ofBits .f32 0x42C80000#32)

/-- The correlation quotient of two 100-vectors: the sum of products of the centred vectors over the product of the
    roots of their sums of squares. -/
def corr (o1 o2 : Fin 100 → EReal) : EReal :=
  Ideal.div (∑ k : Fin 100, ctr o1 k * ctr o2 k)
    (Ideal.sqrt (∑ k : Fin 100, ctr o1 k * ctr o1 k) * Ideal.sqrt (∑ k : Fin 100, ctr o2 k * ctr o2 k))

/-- Its square. -/
def r2 (o1 o2 : Fin 100 → EReal) : EReal := corr o1 o2 * corr o1 o2

/-- The hidden layer of the small predictor at coordinate `q`, the five products added left to right. -/
def hid (r : EReal) (oth : Fin 4 → EReal) (M1 : Fin 5 → Fin 4 → EReal) (c1 : Fin 4 → EReal) (q : Fin 4) : EReal :=
  relu (((((r * M1 0 q + oth 0 * M1 1 q) + oth 1 * M1 2 q) + oth 2 * M1 3 q) + oth 3 * M1 4 q) + c1 q)

/-- The output layer of the small predictor at coordinate `j`, the four products added left to right onto zero. -/
def outp (h : Fin 4 → EReal) (M2 : Fin 4 → Fin 2 → EReal) (c2 : Fin 2 → EReal) (j : Fin 2) : EReal :=
  ((((Ideal.ofBits .f32 0x00000000#32 + h 0 * M2 0 j) + h 1 * M2 1 j) + h 2 * M2 2 j) + h 3 * M2 3 j) + c2 j

/-- One batch row's two outputs from its two aggregated vectors and its four extra features. -/
def rowOut (a1 a2 : Fin 978 → EReal) (oth : Fin 4 → EReal) (W1 : Fin 978 → Fin 2048 → EReal) (b1 : Fin 2048 → EReal)
    (W2 : Fin 2048 → Fin 100 → EReal) (b2 : Fin 100 → EReal) (M1 : Fin 5 → Fin 4 → EReal) (c1 : Fin 4 → EReal)
    (M2 : Fin 4 → Fin 2 → EReal) (c2 : Fin 2 → EReal) (j : Fin 2) : EReal :=
  outp (hid (r2 (enc a1 W1 b1 W2 b2) (enc a2 W1 b1 W2 b2)) oth M1 c1) M2 c2 j

/-- The five-term contraction of the hidden layer is the left-nested sum: `z` is the row (r, oth 0, …, oth 3). -/
theorem hid_eq_sum (r : EReal) (oth : Fin 4 → EReal) (M1 : Fin 5 → Fin 4 → EReal) (c1 : Fin 4 → EReal) (q : Fin 4)
    (z : Fin 5 → EReal) (h0 : z 0 = r) (h1 : z 1 = oth 0) (h2 : z 2 = oth 1) (h3 : z 3 = oth 2) (h4 : z 4 = oth 3) :
    relu ((∑ k : Fin 5, z k * M1 k q) + c1 q) = hid r oth M1 c1 q := by
  unfold hid
  rw [Fin.sum_univ_five, h0, h1, h2, h3, h4]

/-- The four-term contraction of the output layer is the left-nested sum started at zero. -/
theorem outp_eq_sum (h : Fin 4 → EReal) (M2 : Fin 4 → Fin 2 → EReal) (c2 : Fin 2 → EReal) (j : Fin 2) :
    (∑ k : Fin 4, h k * M2 k j) + c2 j = outp h M2 c2 j := by
  unfold outp
  rw [Fin.sum_univ_four, Ideal.ofBits_zero_f32, zero_add]

end Cert.Spec

end
-- ==== Proof.KerLayout.lean ====
/- Layout steps of the kernel body read at an index.

   Two stacked `[a, b]` blocks `[2, a, b]` cast to one `[c, b]` matrix (c = 2a): row `s·a + i` of the matrix is row `i` of
   block `s`, both sitting at the same row-major position. A sum along the rows' axis of an `[a, b]` array, read at row
   `p`, is the sum over `k` of the entries `(p, k)`. A one-row bias `[b]` cast to `[1, b]` and broadcast to `[a, b]` reads
   its entry `c` at every `(p, c)`. -/
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KerLayout

open Idealize.ShloMosaic Idealize.ShloMosaic.ValueIdx

variable {α : Type}

/-- Two stacked blocks cast to one matrix: row `p = s·a + i` of the matrix is row `i` of block `s`. -/
theorem shapeCast_stack_apply {a b c : ℕ} (x : (⟨3, ![2, a, b]⟩ : Shape).Idx → α)
    (h : (⟨3, ![2, a, b]⟩ : Shape).ShapeCasts ⟨2, ![c, b]⟩)
    (p : Fin c) (j : Fin b) (s : Fin 2) (i : Fin a) (hp : p.val = s.val * a + i.val) :
    shapeCast ⟨2, ![c, b]⟩ x h (ix2 p j) = x (ix3 s i j) :=
  shapeCast_apply x h _ _ (by
    rw [Shape.rowMajor_val_three, Shape.rowMajor_val_two]
    show (s.val * a + i.val) * b + j.val = p.val * b + j.val
    rw [hp])

/-- The sum of an `[a, b]` array along its second axis, at row `p`: the sum over `k` of the entries `(p, k)`. The
    accumulator's word is the zero word, the neutral element of the sum. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  match d with
  | ⟨0, _⟩ => rfl
  | ⟨1, _⟩ => rfl

/-- A bias vector cast to one row and broadcast over `a` rows reads its entry `c` at `(p, c)`. -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

end Cert.KerLayout

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.KerPay.lean ====
/- The kernel body's arithmetic read at an index.

   The body stacks the two aggregated blocks of 128 rows into 256 rows, runs the encoder on all of them at once (two
   matrix products into zero accumulators, each followed by a row bias, with floors at zero), and splits the 256 result
   rows back into the rows of the first and of the second signal. Row `p` of either half depends on row `p` of its own
   block only. The halves are centred by their row means; their sums of products and of squares give the squared
   correlation of row `p`; the two small affine layers are spelled out as sums of products of broadcast columns and rows.
   Each lemma reads one stage at `(p, q)` as the corresponding function of `Spec` of the stage before it. -/
import proofs.«165435_j22591527977030_2_alg».proof.Proof.Gen.KernelIdeal.Skeleton
import proofs.«165435_j22591527977030_2_alg».proof.Proof.Spec
import proofs.«165435_j22591527977030_2_alg».proof.Proof.KerLayout
import proofs.«165435_j22591527977030_2_alg».proof.Proof.LibPlainDot
import proofs.«165435_j22591527977030_2_alg».proof.Proof.LibColumns
import Idealize.ShloMosaic.Lib.ValueLayout

noncomputable section

open scoped BigOperators

namespace Cert.KerPay

open Cert.KernelIdeal Cert.KernelIdeal.Gen Idealize.ShloMosaic Idealize.ShloMosaic.ValueIdx
open Cert.KerLayout Cert.LibPlainDot Cert.Columns

/-- The body's two matrix products have the plain dimension numbers. -/
theorem dot1_eq : dot_S256x978_S978x2048_S256x2048_1_0_0_1_n_n = DotDims.plain 256 978 2048 := rfl
theorem dot2_eq : dot_S256x2048_S2048x100_S256x100_1_0_0_1_n_n = DotDims.plain 256 2048 100 := rfl

/-- The encoder stage at row `p = s·128 + i` of the 256 stacked rows is the encoder of row `i` of block `s`. -/
theorem pay2_apply (v0 : FVec Ideal S2x128x978 .f32) (v5 : FVec Ideal S978x2048 .bf16) (v7 : FVec Ideal S2048 .f32)
    (v8 : FVec Ideal S2048x100 .bf16) (v10 : FVec Ideal S100 .f32) (s : Fin 2) (i : Fin 128) (p : Fin 256)
    (hp : p.val = s.val * 128 + i.val) (q : Fin 100) :
    k0_pay2 (F := Ideal) v0 v5 v7 v8 v10 (ix2 p q)
      = Spec.enc (fun j => v0 (ix3 s i j)) (fun j k => v5 (ix2 j k)) (fun k => v7 (ix1 k)) (fun k c => v8 (ix2 k c))
          (fun c => v10 (ix1 c)) q := by
  have hs : ∀ (x : FVec Ideal S2x128x978 .f32) (h : S2x128x978.ShapeCasts S256x978) (j : Fin 978),
      shapeCast S256x978 x h (ix2 p j) = x (ix3 s i j) := fun x h j => shapeCast_stack_apply x h p j s i hp
  unfold k0_pay2 Spec.enc Spec.relu
  simp only [dot1_eq, dot2_eq, matmul, matmul_zero_plain, addf_apply, rowsTimes_apply, truncf_apply, maximumf_apply,
    broadcast_apply, rowBias_apply, broadcastTo_1b_ab_apply, shapeCast_a_1a_apply, shapeCast_self, hs]
  rfl

/-- A square root of a vector at an index is the square root of the element. -/
theorem sqrt_apply {s : Shape} {φ : FTy} (a : FVec Ideal s φ) (i : s.Idx) : sqrt a i = Ideal.sqrt (a i) := rfl

/-- The first half's rows, centred: row `p` is the centred row `P = p` of the encoder stage. -/
theorem pay3_apply (v0 : FVec Ideal S2x128x978 .f32) (v5 : FVec Ideal S978x2048 .bf16) (v7 : FVec Ideal S2048 .f32)
    (v8 : FVec Ideal S2048x100 .bf16) (v10 : FVec Ideal S100 .f32) (p : Fin 128) (P : Fin 256) (hP : P.val = 0 + p.val)
    (q : Fin 100) :
    k0_pay3 (F := Ideal) v0 v5 v7 v8 v10 (ix2 p q)
      = Spec.ctr (fun c => k0_pay2 (F := Ideal) v0 v5 v7 v8 v10 (ix2 P c)) q := by
  have hsl : ∀ (X : FVec Ideal S256x100 .f32) (h : S256x100.Slices ![0, 0] S128x100) (c : Fin 100),
      extractStridedSlice S128x100 ![0, 0] X h (ix2 p c) = X (ix2 P c) := fun X h c => slice2_axis0_apply 0 X h p c P hP
  unfold k0_pay3 Spec.ctr
  simp only [subf_apply, hsl, broadcastTo_a1_ab_apply, divf_apply, shapeCast_a_a1_apply, broadcast_apply]
  refine congrArg (fun z => k0_pay2 (F := Ideal) v0 v5 v7 v8 v10 (ix2 P q) - Ideal.div z (Ideal.ofBits .f32 0x42C80000#32)) ?_
  refine (rowSum_apply _ reduces_S128x100_S128 _ _ p).trans ?_
  exact Finset.sum_congr rfl fun k _ => hsl _ _ k

/-- The second half's rows, centred: row `p` is the centred row `P = 128 + p` of the encoder stage. -/
theorem pay4_apply (v0 : FVec Ideal S2x128x978 .f32) (v5 : FVec Ideal S978x2048 .bf16) (v7 : FVec Ideal S2048 .f32)
    (v8 : FVec Ideal S2048x100 .bf16) (v10 : FVec Ideal S100 .f32) (p : Fin 128) (P : Fin 256) (hP : P.val = 128 + p.val)
    (q : Fin 100) :
    k0_pay4 (F := Ideal) v0 v5 v7 v8 v10 (ix2 p q)
      = Spec.ctr (fun c => k0_pay2 (F := Ideal) v0 v5 v7 v8 v10 (ix2 P c)) q := by
  have hsl : ∀ (X : FVec Ideal S256x100 .f32) (h : S256x100.Slices ![128, 0] S128x100) (c : Fin 100),
      extractStridedSlice S128x100 ![128, 0] X h (ix2 p c) = X (ix2 P c) := fun X h c => slice2_axis0_apply 128 X h p c P hP
  unfold k0_pay4 Spec.ctr
  simp only [subf_apply, hsl, broadcastTo_a1_ab_apply, divf_apply, shapeCast_a_a1_apply, broadcast_apply]
  refine congrArg (fun z => k0_pay2 (F := Ideal) v0 v5 v7 v8 v10 (ix2 P q) - Ideal.div z (Ideal.ofBits .f32 0x42C80000#32)) ?_
  refine (rowSum_apply _ reduces_S128x100_S128 _ _ p).trans ?_
  exact Finset.sum_congr rfl fun k _ => hsl _ _ k

/-- The sum of products of the two centred halves, row by row. -/
theorem pay5_apply (v0 : FVec Ideal S2x128x978 .f32) (v5 : FVec Ideal S978x2048 .bf16) (v7 : FVec Ideal S2048 .f32)
    (v8 : FVec Ideal S2048x100 .bf16) (v10 : FVec Ideal S100 .f32) (p : Fin 128) (u : Fin 1) :
    k0_pay5 (F := Ideal) v0 v5 v7 v8 v10 (ix2 p u)
      = ∑ k : Fin 100, k0_pay3 (F := Ideal) v0 v5 v7 v8 v10 (ix2 p k) * k0_pay4 (F := Ideal) v0 v5 v7 v8 v10 (ix2 p k) := by
  unfold k0_pay5
  simp only [shapeCast_a_a1_apply]
  refine (rowSum_apply _ reduces_S128x100_S128 _ _ p).trans ?_
  rfl

/-- The squares of the first centred half. -/
theorem pay6_eq (v0 : FVec Ideal S2x128x978 .f32) (v5 : FVec Ideal S978x2048 .bf16) (v7 : FVec Ideal S2048 .f32)
    (v8 : FVec Ideal S2048x100 .bf16) (v10 : FVec Ideal S100 .f32) :
    k0_pay6 (F := Ideal) v0 v5 v7 v8 v10
      = mulf (k0_pay3 (F := Ideal) v0 v5 v7 v8 v10) (k0_pay3 (F := Ideal) v0 v5 v7 v8 v10) := by
  unfold k0_pay6
  rfl

/-- The hidden layer of the predictor at `(p, q)`: the squared quotient of the row's sum of products by the product of
    the roots of its two sums of squares, and the row's four extra features, through the 5 → 4 layer. -/
theorem pay7_apply (v36 : FVec Ideal S128x100 .f32) (v39 : FVec Ideal S128x1 .f32) (v40 : FVec Ideal S128x100 .f32)
    (v51 : FVec Ideal S128x4 .f32) (v52 : FVec Ideal S5x4 .f32) (v53 : FVec Ideal S4 .f32) (p : Fin 128) (q : Fin 4) :
    k0_pay7 (F := Ideal) v36 v39 v40 v51 v52 v53 (ix2 p q)
      = Spec.hid
          (Ideal.div (v39 (ix2 p (0 : Fin 1)))
              (Ideal.sqrt (∑ k : Fin 100, v40 (ix2 p k)) * Ideal.sqrt (∑ k : Fin 100, v36 (ix2 p k) * v36 (ix2 p k)))
            * Ideal.div (v39 (ix2 p (0 : Fin 1)))
              (Ideal.sqrt (∑ k : Fin 100, v40 (ix2 p k)) * Ideal.sqrt (∑ k : Fin 100, v36 (ix2 p k) * v36 (ix2 p k))))
          (fun k => v51 (ix2 p k)) (fun a b => v52 (ix2 a b)) (fun k => v53 (ix1 k)) q := by
  have r0 : ∀ (X : FVec Ideal S5x4 .f32) (h : S5x4.Slices ![0, 0] S1x4) (c : Fin 4),
      extractStridedSlice S1x4 ![0, 0] X h (ix2 (0 : Fin 1) c) = X (ix2 (0 : Fin 5) c) :=
    fun X h c => slice2_axis0_apply 0 X h 0 c 0 rfl
  have r1 : ∀ (X : FVec Ideal S5x4 .f32) (h : S5x4.Slices ![1, 0] S1x4) (c : Fin 4),
      extractStridedSlice S1x4 ![1, 0] X h (ix2 (0 : Fin 1) c) = X (ix2 (1 : Fin 5) c) :=
    fun X h c => slice2_axis0_apply 1 X h 0 c 1 rfl
  have r2 : ∀ (X : FVec Ideal S5x4 .f32) (h : S5x4.Slices ![2, 0] S1x4) (c : Fin 4),
      extractStridedSlice S1x4 ![2, 0] X h (ix2 (0 : Fin 1) c) = X (ix2 (2 : Fin 5) c) :=
    fun X h c => slice2_axis0_apply 2 X h 0 c 2 rfl
  have r3 : ∀ (X : FVec Ideal S5x4 .f32) (h : S5x4.Slices ![3, 0] S1x4) (c : Fin 4),
      extractStridedSlice S1x4 ![3, 0] X h (ix2 (0 : Fin 1) c) = X (ix2 (3 : Fin 5) c) :=
    fun X h c => slice2_axis0_apply 3 X h 0 c 3 rfl
  have r4 : ∀ (X : FVec Ideal S5x4 .f32) (h : S5x4.Slices ![4, 0] S1x4) (c : Fin 4),
      extractStridedSlice S1x4 ![4, 0] X h (ix2 (0 : Fin 1) c) = X (ix2 (4 : Fin 5) c) :=
    fun X h c => slice2_axis0_apply 4 X h 0 c 4 rfl
  have c0 : ∀ (X : FVec Ideal S128x4 .f32) (h : S128x4.Slices ![0, 0] S128x1) (a : Fin 128),
      extractStridedSlice S128x1 ![0, 0] X h (ix2 a (0 : Fin 1)) = X (ix2 a (0 : Fin 4)) :=
    fun X h a => slice2_axis1_apply 0 X h a 0 0 rfl
  have c1 : ∀ (X : FVec Ideal S128x4 .f32) (h : S128x4.Slices ![0, 1] S128x1) (a : Fin 128),
      extractStridedSlice S128x1 ![0, 1] X h (ix2 a (0 : Fin 1)) = X (ix2 a (1 : Fin 4)) :=
    fun X h a => slice2_axis1_apply 1 X h a 0 1 rfl
  have c2 : ∀ (X : FVec Ideal S128x4 .f32) (h : S128x4.Slices ![0, 2] S128x1) (a : Fin 128),
      extractStridedSlice S128x1 ![0, 2] X h (ix2 a (0 : Fin 1)) = X (ix2 a (2 : Fin 4)) :=
    fun X h a => slice2_axis1_apply 2 X h a 0 2 rfl
  have c3 : ∀ (X : FVec Ideal S128x4 .f32) (h : S128x4.Slices ![0, 3] S128x1) (a : Fin 128),
      extractStridedSlice S128x1 ![0, 3] X h (ix2 a (0 : Fin 1)) = X (ix2 a (3 : Fin 4)) :=
    fun X h a => slice2_axis1_apply 3 X h a 0 3 rfl
  unfold k0_pay7 Spec.hid Spec.relu
  simp only [maximumf_apply, addf_apply, mulf_apply, divf_apply, sqrt_apply, broadcast_apply, rowBias_apply,
    broadcastTo_a1_ab_apply, broadcastTo_1b_ab_apply, shapeCast_a_a1_apply, shapeCast_a_1a_apply, r0, r1, r2, r3, r4, c0, c1, c2, c3]
  have s1 := rowSum_apply v40 reduces_S128x100_S128 (.inl rfl) rfl p
  have s2 := rowSum_apply (mulf v36 v36) reduces_S128x100_S128 (.inl rfl) rfl p
  simp only [mulf_apply] at s2
  rw [s1, s2]
  rfl

/-- The output layer of the predictor at `(p, j)`: the four products added onto the zero the body starts from. -/
theorem pay1_apply (v86 : FVec Ideal S128x4 .f32) (v87 : FVec Ideal S4x2 .f32) (v88 : FVec Ideal S2 .f32) (p : Fin 128)
    (j : Fin 2) :
    k0_pay1 (F := Ideal) v86 v87 v88 (Scalar.ofBits .f32 0x00000000#32) (ix2 p j)
      = Spec.outp (fun k => v86 (ix2 p k)) (fun a b => v87 (ix2 a b)) (fun k => v88 (ix1 k)) j := by
  have r0 : ∀ (X : FVec Ideal S4x2 .f32) (h : S4x2.Slices ![0, 0] S1x2) (c : Fin 2),
      extractStridedSlice S1x2 ![0, 0] X h (ix2 (0 : Fin 1) c) = X (ix2 (0 : Fin 4) c) :=
    fun X h c => slice2_axis0_apply 0 X h 0 c 0 rfl
  have r1 : ∀ (X : FVec Ideal S4x2 .f32) (h : S4x2.Slices ![1, 0] S1x2) (c : Fin 2),
      extractStridedSlice S1x2 ![1, 0] X h (ix2 (0 : Fin 1) c) = X (ix2 (1 : Fin 4) c) :=
    fun X h c => slice2_axis0_apply 1 X h 0 c 1 rfl
  have r2 : ∀ (X : FVec Ideal S4x2 .f32) (h : S4x2.Slices ![2, 0] S1x2) (c : Fin 2),
      extractStridedSlice S1x2 ![2, 0] X h (ix2 (0 : Fin 1) c) = X (ix2 (2 : Fin 4) c) :=
    fun X h c => slice2_axis0_apply 2 X h 0 c 2 rfl
  have r3 : ∀ (X : FVec Ideal S4x2 .f32) (h : S4x2.Slices ![3, 0] S1x2) (c : Fin 2),
      extractStridedSlice S1x2 ![3, 0] X h (ix2 (0 : Fin 1) c) = X (ix2 (3 : Fin 4) c) :=
    fun X h c => slice2_axis0_apply 3 X h 0 c 3 rfl
  have c0 : ∀ (X : FVec Ideal S128x4 .f32) (h : S128x4.Slices ![0, 0] S128x1) (a : Fin 128),
      extractStridedSlice S128x1 ![0, 0] X h (ix2 a (0 : Fin 1)) = X (ix2 a (0 : Fin 4)) :=
    fun X h a => slice2_axis1_apply 0 X h a 0 0 rfl
  have c1 : ∀ (X : FVec Ideal S128x4 .f32) (h : S128x4.Slices ![0, 1] S128x1) (a : Fin 128),
      extractStridedSlice S128x1 ![0, 1] X h (ix2 a (0 : Fin 1)) = X (ix2 a (1 : Fin 4)) :=
    fun X h a => slice2_axis1_apply 1 X h a 0 1 rfl
  have c2 : ∀ (X : FVec Ideal S128x4 .f32) (h : S128x4.Slices ![0, 2] S128x1) (a : Fin 128),
      extractStridedSlice S128x1 ![0, 2] X h (ix2 a (0 : Fin 1)) = X (ix2 a (2 : Fin 4)) :=
    fun X h a => slice2_axis1_apply 2 X h a 0 2 rfl
  have c3 : ∀ (X : FVec Ideal S128x4 .f32) (h : S128x4.Slices ![0, 3] S128x1) (a : Fin 128),
      extractStridedSlice S128x1 ![0, 3] X h (ix2 a (0 : Fin 1)) = X (ix2 a (3 : Fin 4)) :=
    fun X h a => slice2_axis1_apply 3 X h a 0 3 rfl
  unfold k0_pay1 Spec.outp
  simp only [addf_apply, mulf_apply, broadcast_apply, rowBias_apply, broadcastTo_a1_ab_apply, broadcastTo_1b_ab_apply,
    shapeCast_a_1a_apply, r0, r1, r2, r3, c0, c1, c2, c3]
  rfl

/-- THE WHOLE BODY at `(p, j)`: the two outputs of batch row `p` of the point's blocks. Rows `p` and `128 + p` of the
    256 stacked rows are the rows `p` of the first and of the second block. -/
theorem body_apply (x0 : FVec Ideal S2x128x978 .f32) (x1 : FVec Ideal S128x4 .f32) (x2 : FVec Ideal S978x2048 .bf16)
    (x3 : FVec Ideal S2048 .f32) (x4 : FVec Ideal S2048x100 .bf16) (x5 : FVec Ideal S100 .f32) (x6 : FVec Ideal S5x4 .f32)
    (x7 : FVec Ideal S4 .f32) (x8 : FVec Ideal S4x2 .f32) (x9 : FVec Ideal S2 .f32) (p : Fin 128) (j : Fin 2) :
    k0_pay1 (F := Ideal)
        (k0_pay7 (k0_pay4 x0 x2 x3 x4 x5) (k0_pay5 x0 x2 x3 x4 x5) (k0_pay6 x0 x2 x3 x4 x5) x1 x6 x7) x8 x9
        (Scalar.ofBits .f32 0x00000000#32) (ix2 p j)
      = Spec.rowOut (fun k => x0 (ix3 (0 : Fin 2) p k)) (fun k => x0 (ix3 (1 : Fin 2) p k)) (fun k => x1 (ix2 p k))
          (fun a b => x2 (ix2 a b)) (fun k => x3 (ix1 k)) (fun a b => x4 (ix2 a b)) (fun k => x5 (ix1 k))
          (fun a b => x6 (ix2 a b)) (fun k => x7 (ix1 k)) (fun a b => x8 (ix2 a b)) (fun k => x9 (ix1 k)) j := by
  have hp := p.isLt
  have e1 : (fun c => k0_pay2 (F := Ideal) x0 x2 x3 x4 x5 (ix2 (⟨p.val, by omega⟩ : Fin 256) c))
      = Spec.enc (fun k => x0 (ix3 (0 : Fin 2) p k)) (fun a b => x2 (ix2 a b)) (fun k => x3 (ix1 k))
          (fun a b => x4 (ix2 a b)) (fun k => x5 (ix1 k)) :=
    funext fun c => pay2_apply x0 x2 x3 x4 x5 0 p ⟨p.val, by omega⟩ (by show p.val = 0 * 128 + p.val; omega) c
  have e2 : (fun c => k0_pay2 (F := Ideal) x0 x2 x3 x4 x5 (ix2 (⟨128 + p.val, by omega⟩ : Fin 256) c))
      = Spec.enc (fun k => x0 (ix3 (1 : Fin 2) p k)) (fun a b => x2 (ix2 a b)) (fun k => x3 (ix1 k))
          (fun a b => x4 (ix2 a b)) (fun k => x5 (ix1 k)) :=
    funext fun c => pay2_apply x0 x2 x3 x4 x5 1 p ⟨128 + p.val, by omega⟩ (by show 128 + p.val = 1 * 128 + p.val; omega) c
  have h3 : ∀ q : Fin 100, k0_pay3 (F := Ideal) x0 x2 x3 x4 x5 (ix2 p q)
      = Spec.ctr (Spec.enc (fun k => x0 (ix3 (0 : Fin 2) p k)) (fun a b => x2 (ix2 a b)) (fun k => x3 (ix1 k))
          (fun a b => x4 (ix2 a b)) (fun k => x5 (ix1 k))) q := fun q => by
    rw [pay3_apply x0 x2 x3 x4 x5 p ⟨p.val, by omega⟩ (Nat.zero_add _).symm q, e1]
  have h4 : ∀ q : Fin 100, k0_pay4 (F := Ideal) x0 x2 x3 x4 x5 (ix2 p q)
      = Spec.ctr (Spec.enc (fun k => x0 (ix3 (1 : Fin 2) p k)) (fun a b => x2 (ix2 a b)) (fun k => x3 (ix1 k))
          (fun a b => x4 (ix2 a b)) (fun k => x5 (ix1 k))) q := fun q => by
    rw [pay4_apply x0 x2 x3 x4 x5 p ⟨128 + p.val, by omega⟩ rfl q, e2]
  rw [pay1_apply]
  unfold Spec.rowOut
  refine congrArg (fun h => Spec.outp h (fun a b => x8 (ix2 a b)) (fun k => x9 (ix1 k)) j) ?_
  funext q
  rw [pay7_apply]
  unfold Spec.r2 Spec.corr
  simp only [pay5_apply, pay6_eq, mulf_apply, h3, h4]

end Cert.KerPay

end
-- ==== Proof.Rows.lean ====
/- The whole result array as one function of the aggregated arrays and the weights.

   Row `r` of the `[1024, 2]` result is `Spec.rowOut` of row `r` of the two aggregated `[1024, 978]` arrays (given here as
   functions of the row and the column) and row `r` of the extra features; all rows share the weight arrays. -/
import proofs.«165435_j22591527977030_2_alg».proof.Proof.Spec

noncomputable section

namespace Cert.Rows

open Idealize.ShloMosaic Idealize.ShloMosaic.ValueIdx

/-- The result array: at `(r, j)`, output `j` of batch row `r`. -/
def rowsOut (A1 A2 : Fin 1024 → Fin 978 → EReal) (O : (⟨2, ![1024, 4]⟩ : Shape).Idx → EReal)
    (W1 : (⟨2, ![978, 2048]⟩ : Shape).Idx → EReal) (b1 : (⟨1, ![2048]⟩ : Shape).Idx → EReal)
    (W2 : (⟨2, ![2048, 100]⟩ : Shape).Idx → EReal) (b2 : (⟨1, ![100]⟩ : Shape).Idx → EReal)
    (M1 : (⟨2, ![5, 4]⟩ : Shape).Idx → EReal) (c1 : (⟨1, ![4]⟩ : Shape).Idx → EReal)
    (M2 : (⟨2, ![4, 2]⟩ : Shape).Idx → EReal) (c2 : (⟨1, ![2]⟩ : Shape).Idx → EReal) :
    (⟨2, ![1024, 2]⟩ : Shape).Idx → EReal :=
  fun i => Spec.rowOut (A1 ⟨(i 0).val, idx2_lt0 i⟩) (A2 ⟨(i 0).val, idx2_lt0 i⟩)
    (fun k => O (ix2 (⟨(i 0).val, idx2_lt0 i⟩ : Fin 1024) k)) (fun a b => W1 (ix2 a b)) (fun k => b1 (ix1 k))
    (fun a b => W2 (ix2 a b)) (fun k => b2 (ix1 k)) (fun a b => M1 (ix2 a b)) (fun k => c1 (ix1 k))
    (fun a b => M2 (ix2 a b)) (fun k => c2 (ix1 k)) ⟨(i 1).val, idx2_lt1 i⟩

theorem rowsOut_apply (A1 A2 : Fin 1024 → Fin 978 → EReal) (O : (⟨2, ![1024, 4]⟩ : Shape).Idx → EReal)
    (W1 : (⟨2, ![978, 2048]⟩ : Shape).Idx → EReal) (b1 : (⟨1, ![2048]⟩ : Shape).Idx → EReal)
    (W2 : (⟨2, ![2048, 100]⟩ : Shape).Idx → EReal) (b2 : (⟨1, ![100]⟩ : Shape).Idx → EReal)
    (M1 : (⟨2, ![5, 4]⟩ : Shape).Idx → EReal) (c1 : (⟨1, ![4]⟩ : Shape).Idx → EReal)
    (M2 : (⟨2, ![4, 2]⟩ : Shape).Idx → EReal) (c2 : (⟨1, ![2]⟩ : Shape).Idx → EReal) (r : Fin 1024) (j : Fin 2) :
    rowsOut A1 A2 O W1 b1 W2 b2 M1 c1 M2 c2 (ix2 r j)
      = Spec.rowOut (A1 r) (A2 r) (fun k => O (ix2 r k)) (fun a b => W1 (ix2 a b)) (fun k => b1 (ix1 k))
          (fun a b => W2 (ix2 a b)) (fun k => b2 (ix1 k)) (fun a b => M1 (ix2 a b)) (fun k => c1 (ix1 k))
          (fun a b => M2 (ix2 a b)) (fun k => c2 (ix1 k)) j := rfl

end Cert.Rows

end
-- ==== Proof.KerValue.lean ====
/- From the kernel's blocks to its whole result array.

   The grid has eight points; point `t` reads rows `128·t … 128·t + 127` of the two stacked aggregated arrays and of the
   extra features, reads every weight array whole, and writes rows `128·t … 128·t + 127` of the `[1024, 2]` result. The
   body's value at `(p, j)` is `Spec.rowOut` of row `p` of its blocks, and row `p` of block `t` is row `128·t + p` of
   the array, so what point `t` writes back is block `t` of ONE array-level function `G` of the arrays the region finds.
   The eight blocks cover the result, so the result array ends holding `G`. -/
import proofs.«165435_j22591527977030_2_alg».proof.Proof.Gen.KernelIdeal.Value
import proofs.«165435_j22591527977030_2_alg».proof.Proof.KerPay
import proofs.«165435_j22591527977030_2_alg».proof.Proof.Rows

noncomputable section

namespace Cert.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The array the result window ends holding, as a function of the arrays the region finds. -/
def G (c : Dev nD) : S1024x2.Idx → EReal :=
  Rows.rowsOut (fun r k => (V m c main_v31 : S2x1024x978.Idx → EReal) (ix3 (0 : Fin 2) r k))
    (fun r k => (V m c main_v31 : S2x1024x978.Idx → EReal) (ix3 (1 : Fin 2) r k))
    (V m c main_arg3 : S1024x4.Idx → EReal) (V m c main_v32 : S978x2048.Idx → EReal) (V m c main_arg7 : S2048.Idx → EReal)
    (V m c main_v33 : S2048x100.Idx → EReal) (V m c main_arg9 : S100.Idx → EReal) (V m c main_arg10 : S5x4.Idx → EReal)
    (V m c main_arg11 : S4.Idx → EReal) (V m c main_arg12 : S4x2.Idx → EReal) (V m c main_arg13 : S2.Idx → EReal)

/-- The printed index maps over the eight points: the two row-blocked inputs move with the output's row block, which is
    the point's number; every other block index is zero. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

theorem N_eq : cfg0.N = 8 := N_0

/-- Row `p` of block `t` of the stacked aggregated arrays is row `128·t + p` of the array, for either signal `s`. -/
theorem blk0 (c : Dev nD) (t : Fin cfg0.N) (p : Fin 128) (R : Fin 1024) (hR : R.val = t.val * 128 + p.val) (s : Fin 2)
    (k : Fin 978) :
    iblk m c 0 t (ix3 s p k) = (V m c main_v31 : S2x1024x978.Idx → EReal) (ix3 s R k) := by
  obtain ⟨f00, f01, f02, -⟩ := idx_facts t
  show (V m c main_v31 : S2x1024x978.Idx → EReal) (((cfg0.win 0).blk t).view.emb (ix3 s p k)) = _
  refine congrArg _ (funext fun a => Fin.ext ?_)
  match a with
  | ⟨0, _⟩ => show win0_0.index t (0 : Fin 3) * 2 + 1 * s.val = s.val; omega
  | ⟨1, _⟩ => show win0_0.index t (1 : Fin 3) * 128 + 1 * p.val = R.val; omega
  | ⟨2, _⟩ => show win0_0.index t (2 : Fin 3) * 978 + 1 * k.val = k.val; omega

/-- Row `p` of block `t` of the extra features is row `128·t + p` of the array. -/
theorem blk1 (c : Dev nD) (t : Fin cfg0.N) (p : Fin 128) (R : Fin 1024) (hR : R.val = t.val * 128 + p.val) (k : Fin 4) :
    iblk m c 1 t (ix2 p k) = (V m c main_arg3 : S1024x4.Idx → EReal) (ix2 R k) := by
  obtain ⟨-, -, -, f10, f11, -⟩ := idx_facts t
  show (V m c main_arg3 : S1024x4.Idx → EReal) (((cfg0.win 1).blk t).view.emb (ix2 p k)) = _
  refine congrArg _ (funext fun a => Fin.ext ?_)
  match a with
  | ⟨0, _⟩ => show win0_1.index t (0 : Fin 2) * 128 + 1 * p.val = R.val; omega
  | ⟨1, _⟩ => show win0_1.index t (1 : Fin 2) * 4 + 1 * k.val = k.val; omega

/-- Every weight array is read whole at every point: its one block is the array. -/
theorem blk2 (c : Dev nD) (t : Fin cfg0.N) (a : Fin 978) (b : Fin 2048) :
    iblk m c 2 t (ix2 a b) = (V m c main_v32 : S978x2048.Idx → EReal) (ix2 a b) := by
  obtain ⟨-, -, -, -, -, f20, f21, -⟩ := idx_facts t
  show (V m c main_v32 : S978x2048.Idx → EReal) (((cfg0.win 2).blk t).view.emb (ix2 a b)) = _
  refine congrArg _ (funext fun d => Fin.ext ?_)
  match d with
  | ⟨0, _⟩ => show win0_2.index t (0 : Fin 2) * 978 + 1 * a.val = a.val; omega
  | ⟨1, _⟩ => show win0_2.index t (1 : Fin 2) * 2048 + 1 * b.val = b.val; omega

theorem blk3 (c : Dev nD) (t : Fin cfg0.N) (k : Fin 2048) :
    iblk m c 3 t (ix1 k) = (V m c main_arg7 : S2048.Idx → EReal) (ix1 k) := by
  obtain ⟨-, -, -, -, -, -, -, f30, -⟩ := idx_facts t
  show (V m c main_arg7 : S2048.Idx → EReal) (((cfg0.win 3).blk t).view.emb (ix1 k)) = _
  refine congrArg _ (funext fun d => Fin.ext ?_)
  match d with
  | ⟨0, _⟩ => show win0_3.index t (0 : Fin 1) * 2048 + 1 * k.val = k.val; omega

theorem blk4 (c : Dev nD) (t : Fin cfg0.N) (a : Fin 2048) (b : Fin 100) :
    iblk m c 4 t (ix2 a b) = (V m c main_v33 : S2048x100.Idx → EReal) (ix2 a b) := by
  obtain ⟨-, -, -, -, -, -, -, -, f40, f41, -⟩ := idx_facts t
  show (V m c main_v33 : S2048x100.Idx → EReal) (((cfg0.win 4).blk t).view.emb (ix2 a b)) = _
  refine congrArg _ (funext fun d => Fin.ext ?_)
  match d with
  | ⟨0, _⟩ => show win0_4.index t (0 : Fin 2) * 2048 + 1 * a.val = a.val; omega
  | ⟨1, _⟩ => show win0_4.index t (1 : Fin 2) * 100 + 1 * b.val = b.val; omega

theorem blk5 (c : Dev nD) (t : Fin cfg0.N) (k : Fin 100) :
    iblk m c 5 t (ix1 k) = (V m c main_arg9 : S100.Idx → EReal) (ix1 k) := by
  obtain ⟨-, -, -, -, -, -, -, -, -, -, f50, -⟩ := idx_facts t
  show (V m c main_arg9 : S100.Idx → EReal) (((cfg0.win 5).blk t).view.emb (ix1 k)) = _
  refine congrArg _ (funext fun d => Fin.ext ?_)
  match d with
  | ⟨0, _⟩ => show win0_5.index t (0 : Fin 1) * 100 + 1 * k.val = k.val; omega

theorem blk6 (c : Dev nD) (t : Fin cfg0.N) (a : Fin 5) (b : Fin 4) :
    iblk m c 6 t (ix2 a b) = (V m c main_arg10 : S5x4.Idx → EReal) (ix2 a b) := by
  obtain ⟨-, -, -, -, -, -, -, -, -, -, -, f60, f61, -⟩ := idx_facts t
  show (V m c main_arg10 : S5x4.Idx → EReal) (((cfg0.win 6).blk t).view.emb (ix2 a b)) = _
  refine congrArg _ (funext fun d => Fin.ext ?_)
  match d with
  | ⟨0, _⟩ => show win0_6.index t (0 : Fin 2) * 5 + 1 * a.val = a.val; omega
  | ⟨1, _⟩ => show win0_6.index t (1 : Fin 2) * 4 + 1 * b.val = b.val; omega

theorem blk7 (c : Dev nD) (t : Fin cfg0.N) (k : Fin 4) :
    iblk m c 7 t (ix1 k) = (V m c main_arg11 : S4.Idx → EReal) (ix1 k) := by
  obtain ⟨-, -, -, -, -, -, -, -, -, -, -, -, -, f70, -⟩ := idx_facts t
  show (V m c main_arg11 : S4.Idx → EReal) (((cfg0.win 7).blk t).view.emb (ix1 k)) = _
  refine congrArg _ (funext fun d => Fin.ext ?_)
  match d with
  | ⟨0, _⟩ => show win0_7.index t (0 : Fin 1) * 4 + 1 * k.val = k.val; omega

theorem blk8 (c : Dev nD) (t : Fin cfg0.N) (a : Fin 4) (b : Fin 2) :
    iblk m c 8 t (ix2 a b) = (V m c main_arg12 : S4x2.Idx → EReal) (ix2 a b) := by
  obtain ⟨-, -, -, -, -, -, -, -, -, -, -, -, -, -, f80, f81, -⟩ := idx_facts t
  show (V m c main_arg12 : S4x2.Idx → EReal) (((cfg0.win 8).blk t).view.emb (ix2 a b)) = _
  refine congrArg _ (funext fun d => Fin.ext ?_)
  match d with
  | ⟨0, _⟩ => show win0_8.index t (0 : Fin 2) * 4 + 1 * a.val = a.val; omega
  | ⟨1, _⟩ => show win0_8.index t (1 : Fin 2) * 2 + 1 * b.val = b.val; omega

theorem blk9 (c : Dev nD) (t : Fin cfg0.N) (k : Fin 2) :
    iblk m c 9 t (ix1 k) = (V m c main_arg13 : S2.Idx → EReal) (ix1 k) := by
  obtain ⟨-, -, -, -, -, -, -, -, -, -, -, -, -, -, -, -, f90, -⟩ := idx_facts t
  show (V m c main_arg13 : S2.Idx → EReal) (((cfg0.win 9).blk t).view.emb (ix1 k)) = _
  refine congrArg _ (funext fun d => Fin.ext ?_)
  match d with
  | ⟨0, _⟩ => show win0_9.index t (0 : Fin 1) * 2 + 1 * k.val = k.val; omega

/-- Where block `t` of the result sits: its entry `(p, j)` is entry `(128·t + p, j)` of the array. -/
theorem emb10 (t : Fin cfg0.N) (p : Fin 128) (j : Fin 2) (R : Fin 1024) (hR : R.val = t.val * 128 + p.val) :
    ((cfg0.win 10).blk t).view.emb (ix2 p j) = (ix2 R j : S1024x2.Idx) := by
  obtain ⟨-, -, -, -, -, -, -, -, -, -, -, -, -, -, -, -, -, fa0, fa1⟩ := idx_facts t
  funext a; apply Fin.ext
  match a with
  | ⟨0, _⟩ => show win0_10.index t (0 : Fin 2) * 128 + 1 * p.val = R.val; omega
  | ⟨1, _⟩ => show win0_10.index t (1 : Fin 2) * 2 + 1 * j.val = j.val; omega

/-- WHAT POINT `t` WRITES BACK is block `t` of `G`. -/
theorem flushed_eq (c : Dev nD) (t : Fin cfg0.N) :
    (dats m 0 c).flushed 10 t = ((cfg0.win 10).blk t).view.read (Elt Ideal) (G m c) := by
  rw [Value.flushed10]
  unfold out0_10
  rw [View.canon_unit_zero hz2]
  simp only [View.ld_unit_zero (S := S2x128x978) hz3, View.ld_unit_zero (S := S128x4) hz2,
    View.ld_unit_zero (S := S978x2048) hz2, View.ld_unit_zero (S := S2048) hz1, View.ld_unit_zero (S := S2048x100) hz2,
    View.ld_unit_zero (S := S100) hz1, View.ld_unit_zero (S := S5x4) hz2, View.ld_unit_zero (S := S4) hz1,
    View.ld_unit_zero (S := S4x2) hz2, View.ld_unit_zero (S := S2) hz1]
  have ht : t.val < 8 := N_eq ▸ t.isLt
  funext y
  obtain ⟨p, j, rfl⟩ : ∃ (p : Fin 128) (j : Fin 2), y = ix2 p j := ⟨y 0, y 1, eq_ix2 y⟩
  have hp := p.isLt
  have hread : ∀ H : S1024x2.Idx → EReal, ((cfg0.win 10).blk t).view.read (Elt Ideal) H (ix2 p j)
      = H (((cfg0.win 10).blk t).view.emb (ix2 p j)) := fun H => rfl
  refine Eq.trans ?_ (hread (G m c)).symm
  rw [emb10 t p j ⟨t.val * 128 + p.val, by omega⟩ rfl]
  unfold G
  rw [Rows.rowsOut_apply]
  refine (KerPay.body_apply (iblk m c 0 t) (iblk m c 1 t) (iblk m c 2 t) (iblk m c 3 t) (iblk m c 4 t) (iblk m c 5 t)
    (iblk m c 6 t) (iblk m c 7 t) (iblk m c 8 t) (iblk m c 9 t) p j).trans ?_
  simp only [blk0 m c t p ⟨t.val * 128 + p.val, by omega⟩ rfl, blk1 m c t p ⟨t.val * 128 + p.val, by omega⟩ rfl,
    blk2 m c t, blk3 m c t, blk4 m c t, blk5 m c t, blk6 m c t, blk7 m c t, blk8 m c t, blk9 m c t]

/-- An index of the result is in point `t`'s block iff its row is one of the block's 128 rows. -/
theorem mem_blk (t : Fin cfg0.N) (i : S1024x2.Idx) :
    i ∈ ((cfg0.win 10).blk t).view.set ↔ ∀ a : Fin 2, win0_10.index t a * S128x2.size a ≤ (i a).val
      ∧ (i a).val < win0_10.index t a * S128x2.size a + S128x2.size a := by
  show i ∈ ((View.whole main_v34).slice (win0_10.rect t)).set ↔ _
  rw [View.set_slice_whole, Rect.mem_set_unit]
  exact Iff.rfl

/-- The eight blocks cover the result: row `r` is in the block of point `r / 128`. -/
theorem cover (i : S1024x2.Idx) : ∃ t : Fin cfg0.N, (cfg0.win 10).flush t = true ∧ i ∈ ((cfg0.win 10).blk t).view.set := by
  have hi0 : (i 0).val < 1024 := (i 0).isLt
  have hi1 : (i 1).val < 2 := (i 1).isLt
  let t : Fin cfg0.N := ⟨(i 0).val / 128, by rw [N_eq]; omega⟩
  obtain ⟨f00, f01, f02, f10, f11, f20, f21, f30, f40, f41, f50, f60, f61, f70, f80, f81, f90, fa0, fa1⟩ := idx_facts t
  have htv : t.val = (i 0).val / 128 := rfl
  refine ⟨t, flush0_10 t, ?_⟩
  rw [mem_blk]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 2 ≤ (i 1).val ∧ (i 1).val < win0_10.index t (1 : Fin 2) * 2 + 2; omega

/-- The result array after the run is `G`. -/
theorem final (c : Dev nD) : (dats m 0 c).arrAt 10 cfg0.N = G m c :=
  (dats m 0 c).arrAt_eq_of_cover 10 (G m c) (fun t _ => flushed_eq m c t) cover

end Cert.KerValue

end
-- ==== Proof.KerHost.lean ====
/- The arrays the region finds that the host wrote before it: the two weight matrices in the narrower float
   format. A change of float format is the identity on the extended reals, so they are the argument arrays. -/
import proofs.«165435_j22591527977030_2_alg».proof.Proof.Gen.KernelIdeal.Frame
import Idealize.ShloMosaic.Lib.StableHlo.Run
import Idealize.ShloMosaic.Lib.ValueIdx

noncomputable section

namespace Cert.KerHost

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The first weight matrix as the region finds it is the argument. -/
theorem V_v32 (c : Dev nD) :
    (V m c main_v32 : S978x2048.Idx → EReal) = (m ((c : Thread nD τ).loc main_arg6) : S978x2048.Idx → EReal) := by
  dsimp only [Gen.V, Gen.hostOps0]
  after_results
  rfl

/-- The second weight matrix as the region finds it is the argument. -/
theorem V_v33 (c : Dev nD) :
    (V m c main_v33 : S2048x100.Idx → EReal) = (m ((c : Thread nD τ).loc main_arg8) : S2048x100.Idx → EReal) := by
  dsimp only [Gen.V, Gen.hostOps0]
  after_results
  rfl

end Cert.KerHost

end
-- ==== Proof.KerAggDefs.lean ====
/- The kernel program's host prologue, spelled as pure functions of the program's arguments.

   Before its custom call the kernel program flattens the two 1024 × 978 inputs, sets them side by side as the two
   columns of a 1001472 × 2 array, takes row 0 of the edge list as source words (wrap-normalising a negative one by
   adding the node count) and row 1 as destination words, gathers for every edge the whole row of its source node,
   adds that row into the row of a zero array that the edge's destination word names, multiplies everything by the
   scalar weight and adds the scalar bias, and finally cuts the two columns apart, folds each back to 1024 × 978 and
   stacks them as the two leading slices of a 2 × 1024 × 978 array. Each operation is one definition here (`kv0` …
   `kv26`, named after the values of the printed program; `kerStack` is the last); what they compute is read index by
   index in the file that imports this one. -/
import proofs.«165435_j22591527977030_2_alg».proof.Proof.Gen.KernelIdeal
import Idealize.ShloMosaic.PureOps.Ideal

noncomputable section

namespace Cert.KerAgg

open Cert.KernelIdeal Cert.KernelIdeal.Gen Idealize.ShloMosaic

/-- A 1024 × 978 array of extended reals. -/
abbrev X : Type := (⟨S1024x978, .f32⟩ : BufTy).Contents (Elt Ideal)

/-- The 2 × 20480000 edge list. -/
abbrev Ed : Type := (⟨S2x20480000, .i32⟩ : BufTy).Contents (Elt Ideal)

/-- A scalar array. -/
abbrev Sc : Type := (⟨S_, .f32⟩ : BufTy).Contents (Elt Ideal)

/-- Input `s` of the two. -/
def pick (s : Fin 2) (x0 x1 : X) : X := if s.val = 0 then x0 else x1

/-- %0, %1: an input flattened. -/
def kv0 (x : X) : (⟨S1001472, .f32⟩ : BufTy).Contents (Elt Ideal) :=
  shapeCast S1001472 x shapeCasts_S1024x978_S1001472

/-- %2, %3: the flattened input as one column. -/
def kv2 (x : X) : (⟨S1001472x1, .f32⟩ : BufTy).Contents (Elt Ideal) :=
  broadcastInDim S1001472x1 ![0] bcast_S1001472_S1001472x1_0 (kv0 x)

/-- %4: the two columns side by side. -/
def kv4 (x0 x1 : X) : (⟨S1001472x2, .f32⟩ : BufTy).Contents (Elt Ideal) :=
  concatenate S1001472x2 1 [⟨S1001472x1, kv2 x0⟩, ⟨S1001472x1, kv2 x1⟩] concatenates_S1001472x1_S1001472x1_S1001472x2_d1

/-- %5: row 0 of the edge list. -/
def kv5 (ed : Ed) : (⟨S1x20480000, .i32⟩ : BufTy).Contents (Elt Ideal) :=
  extractStridedSlice S1x20480000 ![0, 0] ed slices_S2x20480000_S1x20480000_0_0

/-- %6: the source words. -/
def kv6 (ed : Ed) : (⟨S20480000, .i32⟩ : BufTy).Contents (Elt Ideal) :=
  shapeCast S20480000 (kv5 ed) shapeCasts_S1x20480000_S20480000

/-- %7: row 1 of the edge list. -/
def kv7 (ed : Ed) : (⟨S1x20480000, .i32⟩ : BufTy).Contents (Elt Ideal) :=
  extractStridedSlice S1x20480000 ![1, 0] ed slices_S2x20480000_S1x20480000_1_0

/-- %8: the destination words. -/
def kv8 (ed : Ed) : (⟨S20480000, .i32⟩ : BufTy).Contents (Elt Ideal) :=
  shapeCast S20480000 (kv7 ed) shapeCasts_S1x20480000_S20480000

/-- %9: zeros. -/
def kv9 : (⟨S20480000, .i32⟩ : BufTy).Contents (Elt Ideal) :=
  broadcastInDim S20480000 ![] bcast_S_S20480000 (constantI S_ 32 0#32)

/-- %10: is the source word negative. -/
def kv10 (ed : Ed) : (⟨S20480000, .i1⟩ : BufTy).Contents (Elt Ideal) := cmpi .slt (kv6 ed) kv9

/-- %11: the node count. -/
def kv11 : (⟨S20480000, .i32⟩ : BufTy).Contents (Elt Ideal) :=
  broadcastInDim S20480000 ![] bcast_S_S20480000 (constantI S_ 32 1001472#32)

/-- %12: the source word plus the node count. -/
def kv12 (ed : Ed) : (⟨S20480000, .i32⟩ : BufTy).Contents (Elt Ideal) := addi (kv6 ed) kv11

/-- %13: the wrap-normalised source word. -/
def kv13 (ed : Ed) : (⟨S20480000, .i32⟩ : BufTy).Contents (Elt Ideal) := select (kv10 ed) (kv12 ed) (kv6 ed)

/-- %14: the same as a column of start indices. -/
def kv14 (ed : Ed) : (⟨S20480000x1, .i32⟩ : BufTy).Contents (Elt Ideal) :=
  broadcastInDim S20480000x1 ![0] bcast_S20480000_S20480000x1_0 (kv13 ed)

/-- %17: the destination words as a column of scatter indices. -/
def kv17 (ed : Ed) : (⟨S20480000x1, .i32⟩ : BufTy).Contents (Elt Ideal) :=
  broadcastInDim S20480000x1 ![0] bcast_S20480000_S20480000x1_0 (kv8 ed)

/-- %15: for every edge the row of its source node. -/
def kv15 (x0 x1 : X) (ed : Ed) : (⟨S20480000x2, .f32⟩ : BufTy).Contents (Elt Ideal) :=
  Host.gather gather_S1001472x2_S20480000x1_S20480000x2_1_0_n_n_0_1_12 (kv4 x0 x1) (kv14 ed)

/-- %16: zeros. -/
def kv16 : (⟨S1001472x2, .f32⟩ : BufTy).Contents (Elt Ideal) :=
  broadcastInDim S1001472x2 ![] bcast_S_S1001472x2 (constant (F := Ideal) S_ .f32 0x00000000#32)

/-- %18: the gathered rows added into the rows their destination words name. -/
def kv18 (x0 x1 : X) (ed : Ed) : (⟨S1001472x2, .f32⟩ : BufTy).Contents (Elt Ideal) :=
  Host.scatterAdd (F := Ideal) (φ := .f32) scatter_S1001472x2_S20480000x1_S20480000x2_1_0_0_1 kv16 (kv17 ed)
    (kv15 x0 x1 ed)

/-- %19, %21: a scalar spread over the two columns. -/
def kbc (c : Sc) : (⟨S1001472x2, .f32⟩ : BufTy).Contents (Elt Ideal) :=
  broadcastInDim S1001472x2 ![] bcast_S_S1001472x2 c

/-- %22: times the weight, plus the bias. -/
def kv22 (x0 x1 : X) (ed : Ed) (w b : Sc) : (⟨S1001472x2, .f32⟩ : BufTy).Contents (Elt Ideal) :=
  addf (F := Ideal) (φ := .f32) (mulf (F := Ideal) (φ := .f32) (kv18 x0 x1 ed) (kbc w)) (kbc b)

/-- Column 0 of a two-column array, as one column. -/
def col0 (y : (⟨S1001472x2, .f32⟩ : BufTy).Contents (Elt Ideal)) : (⟨S1001472x1, .f32⟩ : BufTy).Contents (Elt Ideal) :=
  extractStridedSlice S1001472x1 ![0, 0] y slices_S1001472x2_S1001472x1_0_0

/-- Column 1 of a two-column array, as one column. -/
def col1 (y : (⟨S1001472x2, .f32⟩ : BufTy).Contents (Elt Ideal)) : (⟨S1001472x1, .f32⟩ : BufTy).Contents (Elt Ideal) :=
  extractStridedSlice S1001472x1 ![0, 1] y slices_S1001472x2_S1001472x1_0_1

/-- %23: column 0. -/
def kv23 (x0 x1 : X) (ed : Ed) (w b : Sc) : (⟨S1001472x1, .f32⟩ : BufTy).Contents (Elt Ideal) :=
  col0 (kv22 x0 x1 ed w b)

/-- %26: column 1. -/
def kv26 (x0 x1 : X) (ed : Ed) (w b : Sc) : (⟨S1001472x1, .f32⟩ : BufTy).Contents (Elt Ideal) :=
  col1 (kv22 x0 x1 ed w b)

/-- %24, %25, %29 (and %27, %28, %30): a column flattened, folded to 1024 × 978, and given a leading unit axis. -/
def foldCol (y : (⟨S1001472x1, .f32⟩ : BufTy).Contents (Elt Ideal)) : (⟨S1x1024x978, .f32⟩ : BufTy).Contents (Elt Ideal) :=
  broadcastInDim S1x1024x978 ![1, 2] bcast_S1024x978_S1x1024x978_1_2
    (shapeCast S1024x978 (shapeCast S1001472 y shapeCasts_S1001472x1_S1001472) shapeCasts_S1001472_S1024x978)

/-- %31: THE STACK of the two aggregated inputs, what the custom call receives. -/
def kerStack (x0 x1 : X) (ed : Ed) (w b : Sc) : (⟨S2x1024x978, .f32⟩ : BufTy).Contents (Elt Ideal) :=
  concatenate S2x1024x978 0 [⟨S1x1024x978, foldCol (kv23 x0 x1 ed w b)⟩, ⟨S1x1024x978, foldCol (kv26 x0 x1 ed w b)⟩]
    concatenates_S1x1024x978_S1x1024x978_S2x1024x978_d0

end Cert.KerAgg

end
-- ==== Proof.KerHostAgg.lean ====
/- The stacked aggregated array as the region finds it is the host prologue's composed term of the arguments.

   The region finds each buffer as the prologue's operations leave it. Every buffer is written once, so what the region
   finds in an operation's result buffer is the operation applied to what it finds in the operand buffers; following
   the operations from the arguments up — the two inputs as columns, the edge words, the gathered rows, their scatter,
   the weight and the bias, the two columns cut apart and folded back, the stack — gives the composed term `kerStack`. -/
import proofs.«165435_j22591527977030_2_alg».proof.Proof.Gen.KernelIdeal.Frame
import proofs.«165435_j22591527977030_2_alg».proof.Proof.KerAggDefs
import Idealize.ShloMosaic.Lib.StableHlo.Run
import Idealize.ShloMosaic.Lib.ValueIdx

noncomputable section

namespace Cert.KerHostAgg

open Cert.KernelIdeal Cert.KernelIdeal.Gen Idealize.ShloMosaic Idealize.ShloMosaic.TcCoe Idealize.SL.Sem
open Idealize.ShloMosaic.ValueIdx Idealize.ShloMosaic.StableHlo Cert.KerAgg

variable (m : (ℓ : Loc nD τ sig) → Buf (Elt Ideal) ℓ)

/-- The first input as one column. -/
theorem V_v2 (c : Dev nD) :
    (V m c main_v2 : S1001472x1.Idx → EReal) = kv2 (m ((c : Thread nD τ).loc main_arg0)) := by
  dsimp only [Gen.V, Gen.hostOps0]
  after_results_simp
  rfl

/-- The second input as one column. -/
theorem V_v3 (c : Dev nD) :
    (V m c main_v3 : S1001472x1.Idx → EReal) = kv2 (m ((c : Thread nD τ).loc main_arg1)) := by
  dsimp only [Gen.V, Gen.hostOps0]
  after_results_simp
  rfl

/-- The two columns side by side, from the two columns. -/
theorem s_v4 (c : Dev nD) :
    (V m c main_v4 : S1001472x2.Idx → EReal)
      = concatenate S1001472x2 1 [⟨S1001472x1, (V m c main_v2 : S1001472x1.Idx → EReal)⟩, ⟨S1001472x1, (V m c main_v3 : S1001472x1.Idx → EReal)⟩]
          concatenates_S1001472x1_S1001472x1_S1001472x2_d1 := by
  dsimp only [Gen.V, Gen.hostOps0]
  after_results_simp
  rfl

/-- The two inputs as the columns of one array. -/
theorem V_v4 (c : Dev nD) :
    (V m c main_v4 : S1001472x2.Idx → EReal) = kv4 (m ((c : Thread nD τ).loc main_arg0)) (m ((c : Thread nD τ).loc main_arg1)) := by
  rw [s_v4 m c, V_v2 m c, V_v3 m c]
  rfl

/-- The wrap-normalised source words as a column of start indices. -/
theorem V_v14 (c : Dev nD) :
    (V m c main_v14 : S20480000x1.Idx → BitVec 32) = kv14 (m ((c : Thread nD τ).loc main_arg2)) := by
  dsimp only [Gen.V, Gen.hostOps0]
  after_results_simp
  rfl

/-- The destination words as a column of scatter indices. -/
theorem V_v17 (c : Dev nD) :
    (V m c main_v17 : S20480000x1.Idx → BitVec 32) = kv17 (m ((c : Thread nD τ).loc main_arg2)) := by
  dsimp only [Gen.V, Gen.hostOps0]
  after_results_simp
  rfl

/-- The zero array the scatter adds into. -/
theorem V_v16 (c : Dev nD) :
    (V m c main_v16 : S1001472x2.Idx → EReal) = kv16 := by
  dsimp only [Gen.V, Gen.hostOps0]
  after_results_simp
  rfl

/-- The gathered rows, from the columns and the start indices. -/
theorem s_v15 (c : Dev nD) :
    (V m c main_v15 : S20480000x2.Idx → EReal)
      = Host.gather gather_S1001472x2_S20480000x1_S20480000x2_1_0_n_n_0_1_12 (V m c main_v4 : S1001472x2.Idx → EReal) (V m c main_v14 : S20480000x1.Idx → BitVec 32) := by
  dsimp only [Gen.V, Gen.hostOps0]
  after_results_simp

/-- The gathered rows. -/
theorem V_v15 (c : Dev nD) :
    (V m c main_v15 : S20480000x2.Idx → EReal) = kv15 (m ((c : Thread nD τ).loc main_arg0)) (m ((c : Thread nD τ).loc main_arg1)) (m ((c : Thread nD τ).loc main_arg2)) := by
  rw [s_v15 m c, V_v4 m c, V_v14 m c]
  rfl

/-- The scatter, from the zero array, the scatter indices and the gathered rows. -/
theorem s_v18 (c : Dev nD) :
    (V m c main_v18 : S1001472x2.Idx → EReal)
      = Host.scatterAdd (F := Ideal) (φ := .f32) scatter_S1001472x2_S20480000x1_S20480000x2_1_0_0_1 (V m c main_v16 : S1001472x2.Idx → EReal)
          (V m c main_v17 : S20480000x1.Idx → BitVec 32) (V m c main_v15 : S20480000x2.Idx → EReal) := by
  dsimp only [Gen.V, Gen.hostOps0]
  after_results_simp

/-- The scattered sums. -/
theorem V_v18 (c : Dev nD) :
    (V m c main_v18 : S1001472x2.Idx → EReal) = kv18 (m ((c : Thread nD τ).loc main_arg0)) (m ((c : Thread nD τ).loc main_arg1)) (m ((c : Thread nD τ).loc main_arg2)) := by
  rw [s_v18 m c, V_v16 m c, V_v17 m c, V_v15 m c]
  rfl

/-- The weight at every entry. -/
theorem V_v19 (c : Dev nD) :
    (V m c main_v19 : S1001472x2.Idx → EReal) = kbc (m ((c : Thread nD τ).loc main_arg4)) := by
  dsimp only [Gen.V, Gen.hostOps0]
  after_results_simp
  rfl

/-- The bias at every entry. -/
theorem V_v21 (c : Dev nD) :
    (V m c main_v21 : S1001472x2.Idx → EReal) = kbc (m ((c : Thread nD τ).loc main_arg5)) := by
  dsimp only [Gen.V, Gen.hostOps0]
  after_results_simp
  rfl

/-- The weighted, biased sums, from the sums, the weight and the bias. -/
theorem s_v22 (c : Dev nD) :
    (V m c main_v22 : S1001472x2.Idx → EReal)
      = (addf (F := Ideal) (φ := .f32) (mulf (F := Ideal) (φ := .f32) (V m c main_v18 : S1001472x2.Idx → EReal) (V m c main_v19 : S1001472x2.Idx → EReal))
          (V m c main_v21 : S1001472x2.Idx → EReal) : S1001472x2.Idx → EReal) := by
  dsimp only [Gen.V, Gen.hostOps0]
  after_results_simp

/-- The weighted, biased sums. -/
theorem V_v22 (c : Dev nD) :
    (V m c main_v22 : S1001472x2.Idx → EReal) = kv22 (m ((c : Thread nD τ).loc main_arg0)) (m ((c : Thread nD τ).loc main_arg1)) (m ((c : Thread nD τ).loc main_arg2)) (m ((c : Thread nD τ).loc main_arg4)) (m ((c : Thread nD τ).loc main_arg5)) := by
  rw [s_v22 m c, V_v18 m c, V_v19 m c, V_v21 m c]
  rfl

/-- The first column cut off, folded back to the batch and given a leading unit axis. -/
theorem s_v29 (c : Dev nD) :
    (V m c main_v29 : S1x1024x978.Idx → EReal) = foldCol (col0 (V m c main_v22 : S1001472x2.Idx → EReal)) := by
  dsimp only [Gen.V, Gen.hostOps0]
  after_results_simp
  rfl

/-- The second column likewise. -/
theorem s_v30 (c : Dev nD) :
    (V m c main_v30 : S1x1024x978.Idx → EReal) = foldCol (col1 (V m c main_v22 : S1001472x2.Idx → EReal)) := by
  dsimp only [Gen.V, Gen.hostOps0]
  after_results_simp
  rfl

/-- The stack, from its two slices. -/
theorem s_v31 (c : Dev nD) :
    (V m c main_v31 : S2x1024x978.Idx → EReal)
      = concatenate S2x1024x978 0 [⟨S1x1024x978, (V m c main_v29 : S1x1024x978.Idx → EReal)⟩, ⟨S1x1024x978, (V m c main_v30 : S1x1024x978.Idx → EReal)⟩]
          concatenates_S1x1024x978_S1x1024x978_S2x1024x978_d0 := by
  dsimp only [Gen.V, Gen.hostOps0]
  after_results_simp
  rfl

/-- THE FIRST OPERAND OF THE CUSTOM CALL, as the region finds it: the prologue's operations composed, applied to the
    two inputs, the edge list and the two scalars. -/
theorem V_v31 (c : Dev nD) :
    (V m c main_v31 : S2x1024x978.Idx → EReal) = kerStack (m ((c : Thread nD τ).loc main_arg0)) (m ((c : Thread nD τ).loc main_arg1)) (m ((c : Thread nD τ).loc main_arg2)) (m ((c : Thread nD τ).loc main_arg4)) (m ((c : Thread nD τ).loc main_arg5)) := by
  rw [s_v31 m c, s_v29 m c, s_v30 m c, V_v22 m c]
  rfl

end Cert.KerHostAgg

end
-- ==== Proof.LibGatherRows.lean ====
/- Gathers whose start index is one row number per result row.

   A gather reads, for each result index, one element of the operand: on every operand axis the coordinate is the
   clamped start of the slice plus the offset inside the slice. Two shapes of it are read here at an index; in both
   the start indices are a column `[E, 1]`, whose entry `idx[n, 0]` is read as a signed integer and clamped into
   `[0, N - 1]` (the slice has one row, so the last admissible start is `N - 1`); a negative number clamps to `0`.

   Flat: the operand is `[N]`, the slice is one element, the result is `[E]`; result element `n` is the operand at
   the clamped `idx[n, 0]`.

   Rows: the operand is `[N, C]`, the slice is one whole row `[1, C]`, the result is `[E, C]`; result element
   `(n, c)` is the operand at (the clamped `idx[n, 0]`, `c`): axis 0 is collapsed and takes the start, axis 1 is
   the one offset axis, starts at `0` and takes the result's column. -/
import Idealize.ShloMosaic.PureOps.Ideal
import Idealize.ShloMosaic.Lib.ValueIdx

noncomputable section

namespace Cert.GatherRows

open Idealize.ShloMosaic Idealize.ShloMosaic.ValueIdx

/-- The start-indices index `[n, 0]` that holds result row `n`'s row number. -/
abbrev colIdx {E : Nat} (n : Fin E) : (⟨2, ![E, 1]⟩ : Shape).Idx := ix2 n (⟨0, Nat.one_pos⟩ : Fin 1)

/-- A signed word clamped into `[0, N - 1]`, as a coordinate below `N`. -/
abbrev clampRow {w : Nat} (N : Nat) (hN : 0 < N) (v : BitVec w) : Fin N := ⟨min v.toInt.toNat (N - 1), by omega⟩

/-! ## Flat: operand `[N]`, start indices `[E, 1]`, result `[E]` -/

section Flat
variable {α : Type}

/-- The dimension numbers of a gather of single elements: no offset axis; the operand's one axis is collapsed and
    receives the start index, whose one component is read along the start indices' axis 1. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `n`: the operand at the start index `idx[n, 0]`, read signed and clamped into
    `[0, N - 1]`. -/
theorem flat_gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (n : Fin E) :
    Host.gather (flatDims N E wf) x idx (ix1 n) = x (ix1 (clampRow N hN (idx (colIdx n)))) := by
  unfold Host.gather
  congr 1
  funext a
  obtain rfl : a = 0 := Subsingleton.elim _ _
  refine Fin.ext ?_
  show (flatDims N E wf).start (ix1 n) idx 0 + (flatDims N E wf).batchCoord (ix1 n) 0
    + (flatDims N E wf).offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 n) ⟨List.idxOf (0 : Fin 1) (flatDims N E wf).startIndexMap,
      List.idxOf_lt_length_iff.2 (List.mem_singleton.mpr rfl)⟩ = colIdx n := by
    funext b; refine Fin.ext ?_
    match b with
    | ⟨0, _⟩ => rfl
    | ⟨1, _⟩ => rfl
  rw [hsi]
  rfl

end Flat

/-! ## Rows: operand `[N, C]`, start indices `[E, 1]`, result `[E, C]` -/

section Rows
variable {α : Type}

/-- The dimension numbers of a gather of whole rows: the result's axis 1 is the offset axis and reads the
    operand's axis 1; the operand's axis 0 is collapsed and receives the start index. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the operand's axis 0 the slice of result element `(n, c)` starts at the clamped row number. -/
theorem rows_start0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (n : Fin E) (c : Fin C) :
    (rowsDims N E C wf).start (ix2 n c) idx 0 = (clampRow N hN (idx (colIdx n))).val := by
  unfold GatherDims.start
  rw [dif_pos (show (0 : Fin 2) ∈ (rowsDims N E C wf).startIndexMap from List.mem_singleton.mpr rfl)]
  have hsi : (rowsDims N E C wf).siIdx (ix2 n c) ⟨List.idxOf (0 : Fin 2) (rowsDims N E C wf).startIndexMap,
      List.idxOf_lt_length_iff.2 (List.mem_singleton.mpr rfl)⟩ = colIdx n := by
    funext b; refine Fin.ext ?_
    match b with
    | ⟨0, _⟩ => rfl
    | ⟨1, _⟩ => rfl
  rw [hsi]
  rfl

/-- On the operand's axis 1, which no start-index component names, the slice starts at `0`. -/
theorem rows_start1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    (rowsDims N E C wf).start j idx 1 = 0 := by
  have h : (1 : Fin 2) ∉ (rowsDims N E C wf).startIndexMap := by
    show (1 : Fin 2) ∉ [(0 : Fin 2)]; decide
  unfold GatherDims.start
  rw [dif_neg h]

/-- The operand's axis 0 is collapsed: the offset on it is `0`. -/
theorem rows_off0 {N E C : Nat}
    (wf : GatherDims.WF ⟨2, ![N, C]⟩ ⟨2, ![E, 1]⟩ ⟨2, ![E, C]⟩ [1] [0] [] [0] [] 1 ![1, C])
    (j : (⟨2, ![E, C]⟩ : Shape).Idx) :
    (rowsDims N E C wf).offCoord j 0 = 0 :=
  GatherDims.offCoord_eq_zero _ _ _ (fun h => ((GatherDims.mem_sKept _ _).mp h).1 (List.mem_singleton.mpr rfl))

/-- On the operand's axis 1 the offset of result element `(n, c)` is its column `c`. -/
theorem rows_off1 {N E C : Nat}
    (wf : GatherDims.WF ⟨2, ![N, C]⟩ ⟨2, ![E, 1]⟩ ⟨2, ![E, C]⟩ [1] [0] [] [0] [] 1 ![1, C])
    (n : Fin E) (c : Fin C) :
    (rowsDims N E C wf).offCoord (ix2 n c) 1 = c.val := by
  have h : (1 : Fin 2) ∈ (rowsDims N E C wf).sKept := by
    show (1 : Fin 2) ∈ (List.finRange 2).filter (· ∉ [(0 : Fin 2)] ++ [])
    decide
  unfold GatherDims.offCoord
  rw [dif_pos h]
  rfl

/-- THE GATHER OF ROWS READ AT `(n, c)`: the operand at (the start index `idx[n, 0]` read signed and clamped into
    `[0, N - 1]`, `c`). -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (n : Fin E) (c : Fin C) :
    Host.gather (rowsDims N E C wf) x idx (ix2 n c) = x (ix2 (clampRow N hN (idx (colIdx n))) c) := by
  unfold Host.gather
  congr 1
  funext a
  refine Fin.ext ?_
  match a with
  | ⟨0, _⟩ =>
    show (rowsDims N E C wf).start (ix2 n c) idx 0 + (rowsDims N E C wf).batchCoord (ix2 n c) 0
      + (rowsDims N E C wf).offCoord (ix2 n c) 0 = _
    rw [GatherDims.batchCoord_eq_zero _ _ _ List.not_mem_nil, rows_off0, rows_start0 hN]
    rfl
  | ⟨1, _⟩ =>
    show (rowsDims N E C wf).start (ix2 n c) idx 1 + (rowsDims N E C wf).batchCoord (ix2 n c) 1
      + (rowsDims N E C wf).offCoord (ix2 n c) 1 = _
    rw [GatherDims.batchCoord_eq_zero _ _ _ List.not_mem_nil, rows_off1, rows_start1]
    show 0 + 0 + c.val = c.val
    omega

end Rows

end Cert.GatherRows

end
-- ==== Proof.LibScatterRows.lean ====
/- Accumulating scatters whose start index is one row number per update.

   An accumulating scatter adds every update element into the operand element its result index names, and drops
   an update whose result index falls outside the operand. Two shapes of it are read here at an index.

   Rows: the operand is `[R, C]`, the scatter indices are `[N, 1]` and the updates are `[N, C]`; update row `n` is
   added, column by column, into operand row `idx n` (the start index read as a signed integer, not clamped).
   Update element `(n, c)` therefore lands on operand element `(r, c')` exactly when `idx n = r` and `c = c'`, and
   the scatter's value at `(r, c)` is the operand's element plus the sum, over all `n` with `idx n = r`, of
   update `(n, c)`. An index that is negative or at least `R` is the number of no row, so such an update appears
   in no sum: no range hypothesis is needed.

   Flat: the operand is `[R]`, the updates are `[N]`; update `n` is added into operand element `idx n`, and the
   value at `r` is the operand's element plus the sum of the updates `n` with `idx n = r`. -/
import Idealize.ShloMosaic.PureOps.Ideal
import Idealize.ShloMosaic.Lib.ValueIdx

noncomputable section

namespace Cert.Voxel.Ref

open Idealize.ShloMosaic Idealize.ShloMosaic.ValueIdx

/-- The scatter-indices index `[n, 0]` that holds update `n`'s row number. -/
abbrev rowIdx {N : Nat} (n : Fin N) : (⟨2, ![N, 1]⟩ : Shape).Idx := ix2 n (⟨0, Nat.one_pos⟩ : Fin 1)

/-! ## Rows: operand `[R, C]`, indices `[N, 1]`, updates `[N, C]` -/

section Rows
variable {R N C : Nat}

/-- The dimension numbers of a scatter of rows: the updates' axis 1 is the window axis and goes to the operand's
    axis 1; the operand's axis 0 is inserted and receives the start index, whose one component is read along the
    scatter indices' axis 1. -/
abbrev rowsDims (R N C : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

/-- On the operand's axis 0 the window of update `(n, c)` starts at the row number `idx[n, 0]`, read signed. -/
theorem rows_start0 {w : Nat} (wf : ScatterDims.WF ⟨2, ![R, C]⟩ ⟨2, ![N, 1]⟩ ⟨2, ![N, C]⟩ [1] [0] [0] 1)
    (idx : IVec ⟨2, ![N, 1]⟩ w) (n : Fin N) (c : Fin C) :
    (rowsDims R N C wf).start (ix2 n c) idx 0 = (idx (rowIdx n)).toInt := by
  unfold ScatterDims.start
  rw [dif_pos (show (0 : Fin 2) ∈ (rowsDims R N C wf).scatterDimsToOperandDims from List.mem_singleton.mpr rfl)]
  have hsi : (rowsDims R N C wf).siIdx (ix2 n c) ⟨List.idxOf (0 : Fin 2) (rowsDims R N C wf).scatterDimsToOperandDims,
      List.idxOf_lt_length_iff.2 (List.mem_singleton.mpr rfl)⟩ = rowIdx n := by
    funext b; refine Fin.ext ?_
    match b with
    | ⟨0, _⟩ => rfl
    | ⟨1, _⟩ => rfl
  rw [hsi]

/-- On the operand's axis 1, which no start-index component names, the window starts at `0`. -/
theorem rows_start1 {w : Nat} (wf : ScatterDims.WF ⟨2, ![R, C]⟩ ⟨2, ![N, 1]⟩ ⟨2, ![N, C]⟩ [1] [0] [0] 1)
    (idx : IVec ⟨2, ![N, 1]⟩ w) (j : (⟨2, ![N, C]⟩ : Shape).Idx) :
    (rowsDims R N C wf).start j idx 1 = 0 := by
  have h : (1 : Fin 2) ∉ (rowsDims R N C wf).scatterDimsToOperandDims := by
    show (1 : Fin 2) ∉ [(0 : Fin 2)]; decide
  unfold ScatterDims.start
  rw [dif_neg h]

/-- The operand's axis 0 is inserted: the window coordinate on it is `0`. -/
theorem rows_window0 (wf : ScatterDims.WF ⟨2, ![R, C]⟩ ⟨2, ![N, 1]⟩ ⟨2, ![N, C]⟩ [1] [0] [0] 1)
    (j : (⟨2, ![N, C]⟩ : Shape).Idx) :
    (rowsDims R N C wf).window j 0 = 0 := by
  have h : (0 : Fin 2) ∉ (rowsDims R N C wf).sKept := by
    show (0 : Fin 2) ∉ (List.finRange 2).filter (· ∉ [(0 : Fin 2)]); decide
  unfold ScatterDims.window
  rw [dif_neg h]

/-- On the operand's axis 1 the window coordinate of update `(n, c)` is its column `c`. -/
theorem rows_window1 (wf : ScatterDims.WF ⟨2, ![R, C]⟩ ⟨2, ![N, 1]⟩ ⟨2, ![N, C]⟩ [1] [0] [0] 1)
    (n : Fin N) (c : Fin C) :
    (rowsDims R N C wf).window (ix2 n c) 1 = c.val := by
  have h : (1 : Fin 2) ∈ (rowsDims R N C wf).sKept := by
    show (1 : Fin 2) ∈ (List.finRange 2).filter (· ∉ [(0 : Fin 2)]); decide
  unfold ScatterDims.window
  rw [dif_pos h]
  rfl

/-- Update element `(n, c)` lands on operand element `(r, c')` exactly when its row number is `r` and its column
    is `c'`. A row number outside `0 … R - 1` equals no `r`, and such an update is dropped. -/
theorem rows_resultIdx_eq_some {w : Nat} (wf : ScatterDims.WF ⟨2, ![R, C]⟩ ⟨2, ![N, 1]⟩ ⟨2, ![N, C]⟩ [1] [0] [0] 1)
    (idx : IVec ⟨2, ![N, 1]⟩ w) (n : Fin N) (c : Fin C) (r : Fin R) (c' : Fin C) :
    (rowsDims R N C wf).resultIdx? (ix2 n c) idx = some (ix2 r c')
      ↔ (idx (rowIdx n)).toInt = (r.val : Int) ∧ c = c' := by
  unfold ScatterDims.resultIdx?
  constructor
  · intro h
    split at h
    · rename_i hall
      have e := Option.some.inj h
      have e0 : ((rowsDims R N C wf).start (ix2 n c) idx 0 + (rowsDims R N C wf).window (ix2 n c) 0).toNat = r.val :=
        congrArg (fun f : (⟨2, ![R, C]⟩ : Shape).Idx => (f 0).val) e
      have e1 : ((rowsDims R N C wf).start (ix2 n c) idx 1 + (rowsDims R N C wf).window (ix2 n c) 1).toNat = c'.val :=
        congrArg (fun f : (⟨2, ![R, C]⟩ : Shape).Idx => (f 1).val) e
      have h0 := (hall 0).1
      rw [rows_start0, rows_window0] at e0 h0
      rw [rows_start1, rows_window1] at e1
      exact ⟨by omega, Fin.ext (by omega)⟩
    · cases h
  · rintro ⟨h0, rfl⟩
    have hall : ∀ a, 0 ≤ (rowsDims R N C wf).start (ix2 n c) idx a + (rowsDims R N C wf).window (ix2 n c) a ∧
        (rowsDims R N C wf).start (ix2 n c) idx a + (rowsDims R N C wf).window (ix2 n c) a
          < (⟨2, ![R, C]⟩ : Shape).size a := by
      intro a
      match a with
      | ⟨0, _⟩ =>
        show 0 ≤ (rowsDims R N C wf).start (ix2 n c) idx 0 + (rowsDims R N C wf).window (ix2 n c) 0 ∧
          (rowsDims R N C wf).start (ix2 n c) idx 0 + (rowsDims R N C wf).window (ix2 n c) 0 < (R : Int)
        rw [rows_start0, rows_window0]; have := r.isLt; omega
      | ⟨1, _⟩ =>
        show 0 ≤ (rowsDims R N C wf).start (ix2 n c) idx 1 + (rowsDims R N C wf).window (ix2 n c) 1 ∧
          (rowsDims R N C wf).start (ix2 n c) idx 1 + (rowsDims R N C wf).window (ix2 n c) 1 < (C : Int)
        rw [rows_start1, rows_window1]; have := c.isLt; omega
    rw [dif_pos hall]
    congr 1
    funext a
    refine Fin.ext ?_
    match a with
    | ⟨0, _⟩ =>
      show ((rowsDims R N C wf).start (ix2 n c) idx 0 + (rowsDims R N C wf).window (ix2 n c) 0).toNat = r.val
      rw [rows_start0, rows_window0]; omega
    | ⟨1, _⟩ =>
      show ((rowsDims R N C wf).start (ix2 n c) idx 1 + (rowsDims R N C wf).window (ix2 n c) 1).toNat = c.val
      rw [rows_start1, rows_window1]; omega

/-- THE SCATTER OF ROWS READ AT `(r, c)`: the operand's element plus the sum of column `c` of the update rows whose
    row number is `r`. The sum over the update elements that land on `(r, c)` is split into the update's row and
    column; in each row at most the column `c` contributes. -/
theorem rows_scatterAdd_apply {w : Nat} (wf : ScatterDims.WF ⟨2, ![R, C]⟩ ⟨2, ![N, 1]⟩ ⟨2, ![N, C]⟩ [1] [0] [0] 1)
    (x : (⟨2, ![R, C]⟩ : Shape).Idx → EReal) (idx : IVec ⟨2, ![N, 1]⟩ w) (upd : (⟨2, ![N, C]⟩ : Shape).Idx → EReal)
    (r : Fin R) (c : Fin C) :
    Ideal.hostScatterAdd (rowsDims R N C wf) x idx upd (ix2 r c)
      = x (ix2 r c) + ∑ n : Fin N, if (idx (rowIdx n)).toInt = (r.val : Int) then upd (ix2 n c) else 0 := by
  unfold Ideal.hostScatterAdd
  congr 1
  rw [Finset.sum_filter, sum_idx2]
  refine Finset.sum_congr rfl fun n _ => ?_
  simp only [rows_resultIdx_eq_some]
  by_cases h : (idx (rowIdx n)).toInt = (r.val : Int)
  · simp only [h, true_and, Finset.sum_ite_eq', Finset.mem_univ, if_true]
  · simp only [h, false_and, if_false, Finset.sum_const_zero]

end Rows

/-! ## Flat: operand `[R]`, indices `[N, 1]`, updates `[N]` -/

section Flat
variable {R N : Nat}

/-- The dimension numbers of a scatter of single elements: the updates have no window axis; the operand's one
    axis is inserted and receives the start index. -/
abbrev flatDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- Update `n`'s window starts at the number `idx[n, 0]`, read signed. -/
theorem flat_start {w : Nat} (wf : ScatterDims.WF ⟨1, ![R]⟩ ⟨2, ![N, 1]⟩ ⟨1, ![N]⟩ [] [0] [0] 1)
    (idx : IVec ⟨2, ![N, 1]⟩ w) (n : Fin N) :
    (flatDims R N wf).start (ix1 n) idx 0 = (idx (rowIdx n)).toInt := by
  unfold ScatterDims.start
  rw [dif_pos (show (0 : Fin 1) ∈ (flatDims R N wf).scatterDimsToOperandDims from List.mem_singleton.mpr rfl)]
  have hsi : (flatDims R N wf).siIdx (ix1 n) ⟨List.idxOf (0 : Fin 1) (flatDims R N wf).scatterDimsToOperandDims,
      List.idxOf_lt_length_iff.2 (List.mem_singleton.mpr rfl)⟩ = rowIdx n := by
    funext b; refine Fin.ext ?_
    match b with
    | ⟨0, _⟩ => rfl
    | ⟨1, _⟩ => rfl
  rw [hsi]

/-- The operand's one axis is inserted: the window coordinate on it is `0`. -/
theorem flat_window (wf : ScatterDims.WF ⟨1, ![R]⟩ ⟨2, ![N, 1]⟩ ⟨1, ![N]⟩ [] [0] [0] 1)
    (j : (⟨1, ![N]⟩ : Shape).Idx) :
    (flatDims R N wf).window j 0 = 0 := by
  have h : (0 : Fin 1) ∉ (flatDims R N wf).sKept := by
    show (0 : Fin 1) ∉ (List.finRange 1).filter (· ∉ [(0 : Fin 1)]); decide
  unfold ScatterDims.window
  rw [dif_neg h]

/-- Update `n` lands on operand element `r` exactly when its number is `r`. -/
theorem flat_resultIdx_eq_some {w : Nat} (wf : ScatterDims.WF ⟨1, ![R]⟩ ⟨2, ![N, 1]⟩ ⟨1, ![N]⟩ [] [0] [0] 1)
    (idx : IVec ⟨2, ![N, 1]⟩ w) (n : Fin N) (r : Fin R) :
    (flatDims R N wf).resultIdx? (ix1 n) idx = some (ix1 r) ↔ (idx (rowIdx n)).toInt = (r.val : Int) := by
  unfold ScatterDims.resultIdx?
  constructor
  · intro h
    split at h
    · rename_i hall
      have e := Option.some.inj h
      have e0 : ((flatDims R N wf).start (ix1 n) idx 0 + (flatDims R N wf).window (ix1 n) 0).toNat = r.val :=
        congrArg (fun f : (⟨1, ![R]⟩ : Shape).Idx => (f 0).val) e
      have h0 := (hall 0).1
      rw [flat_start, flat_window] at e0 h0
      omega
    · cases h
  · intro h0
    have hall : ∀ a, 0 ≤ (flatDims R N wf).start (ix1 n) idx a + (flatDims R N wf).window (ix1 n) a ∧
        (flatDims R N wf).start (ix1 n) idx a + (flatDims R N wf).window (ix1 n) a
          < (⟨1, ![R]⟩ : Shape).size a := by
      intro a
      match a with
      | ⟨0, _⟩ =>
        show 0 ≤ (flatDims R N wf).start (ix1 n) idx 0 + (flatDims R N wf).window (ix1 n) 0 ∧
          (flatDims R N wf).start (ix1 n) idx 0 + (flatDims R N wf).window (ix1 n) 0 < (R : Int)
        rw [flat_start, flat_window]; have := r.isLt; omega
    rw [dif_pos hall]
    congr 1
    funext a
    refine Fin.ext ?_
    match a with
    | ⟨0, _⟩ =>
      show ((flatDims R N wf).start (ix1 n) idx 0 + (flatDims R N wf).window (ix1 n) 0).toNat = r.val
      rw [flat_start, flat_window]; omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE FLAT SCATTER READ AT `r`: the operand's element plus the sum of the updates whose number is `r`. -/
theorem flat_scatterAdd_apply {w : Nat} (wf : ScatterDims.WF ⟨1, ![R]⟩ ⟨2, ![N, 1]⟩ ⟨1, ![N]⟩ [] [0] [0] 1)
    (x : (⟨1, ![R]⟩ : Shape).Idx → EReal) (idx : IVec ⟨2, ![N, 1]⟩ w) (upd : (⟨1, ![N]⟩ : Shape).Idx → EReal)
    (r : Fin R) :
    Ideal.hostScatterAdd (flatDims R N wf) x idx upd (ix1 r)
      = x (ix1 r) + ∑ n : Fin N, if (idx (rowIdx n)).toInt = (r.val : Int) then upd (ix1 n) else 0 := by
  unfold Ideal.hostScatterAdd
  congr 1
  rw [Finset.sum_filter, sum_idx1]
  refine Finset.sum_congr rfl fun n _ => ?_
  simp only [flat_resultIdx_eq_some]

end Flat

end Cert.Voxel.Ref

end
-- ==== Proof.Agg.lean ====
/- The graph-convolution aggregation on the extended reals.

   Every edge `e` carries a source word (row 0 of the edge list) and a destination word (row 1). The 1024 × 978
   node features are numbered row-major, node `r · 978 + k` being entry `(r, k)`. A source word is first
   wrap-normalised (a negative word has the node count 1001472 added), then read as a signed integer and clamped
   into `[0, 1001471]`; the node it names is entry `(m / 978, m % 978)` for the clamped number `m`. A destination
   word is read as a signed integer and compared with the node number: a word that is the number of no node
   contributes nowhere.

   The aggregate at node `(r, k)` is the sum over the edges arriving there of the source's feature, times a scalar
   weight, plus a scalar bias. One form multiplies every term before summing (`agg`), the other multiplies the sum
   (`aggK`). When every feature and the weight are finite reals the two agree: the sum is then a sum of reals, and
   multiplication of reals distributes over it. (On the extended reals it does not in general: `(+∞ + -∞) · w`
   is not `+∞ · w + -∞ · w`.) -/
import Idealize.ShloMosaic.PureOps.Ideal
import Idealize.ShloMosaic.PureOps.Ideal.Laws
import Idealize.ShloMosaic.Lib.ValueIdx
import proofs.«165435_j22591527977030_2_alg».proof.Proof.LibGatherRows

noncomputable section

open scoped BigOperators

namespace Cert.Agg

open Idealize.ShloMosaic Idealize.ShloMosaic.ValueIdx

/-- The source word of edge `e`. -/
def srcWord (edges : (⟨2, ![2, 20480000]⟩ : Shape).Idx → BitVec 32) (e : Fin 20480000) : BitVec 32 :=
  edges (ix2 (0 : Fin 2) e)

/-- The destination word of edge `e`. -/
def dstWord (edges : (⟨2, ![2, 20480000]⟩ : Shape).Idx → BitVec 32) (e : Fin 20480000) : BitVec 32 :=
  edges (ix2 (1 : Fin 2) e)

/-- Wrap-normalisation of a node word: a negative word has the node count added. -/
def normWord (v : BitVec 32) : BitVec 32 :=
  Scalar.select (IntOp.cmpi .slt v 0#32) (IntOp.addi v 1001472#32) v

/-- The flat node number a word names: read signed, clamped into `[0, 1001471]`. -/
abbrev flatNode (v : BitVec 32) : Fin 1001472 := Cert.GatherRows.clampRow 1001472 (by omega) v

/-- The entry `(m / 978, m % 978)` of flat node number `m`. -/
abbrev entryOf (m : Fin 1001472) : (⟨2, ![1024, 978]⟩ : Shape).Idx :=
  ix2 (⟨m.val / 978, by have h := m.isLt; omega⟩ : Fin 1024) (⟨m.val % 978, by omega⟩ : Fin 978)

/-- The node a word names. -/
abbrev node (v : BitVec 32) : (⟨2, ![1024, 978]⟩ : Shape).Idx := entryOf (flatNode v)

/-- The flat number of entry `(r, k)`. -/
abbrev flatOf (r : Fin 1024) (k : Fin 978) : Fin 1001472 :=
  ⟨r.val * 978 + k.val, by have h0 := r.isLt; have h1 := k.isLt; omega⟩

/-- The aggregate at `(r, k)`, each term multiplied by the weight before the sum. -/
def agg (x : (⟨2, ![1024, 978]⟩ : Shape).Idx → EReal) (edges : (⟨2, ![2, 20480000]⟩ : Shape).Idx → BitVec 32)
    (w b : EReal) (r : Fin 1024) (k : Fin 978) : EReal :=
  (Ideal.ofBits .f32 0x00000000#32
    + ∑ e : Fin 20480000, if (dstWord edges e).toInt = ((flatOf r k).val : Int)
        then x (node (normWord (srcWord edges e))) * w else 0) + b

/-- The aggregate at `(r, k)`, the sum multiplied by the weight. -/
def aggK (x : (⟨2, ![1024, 978]⟩ : Shape).Idx → EReal) (edges : (⟨2, ![2, 20480000]⟩ : Shape).Idx → BitVec 32)
    (w b : EReal) (r : Fin 1024) (k : Fin 978) : EReal :=
  (Ideal.ofBits .f32 0x00000000#32
    + ∑ e : Fin 20480000, if (dstWord edges e).toInt = ((flatOf r k).val : Int)
        then x (node (normWord (srcWord edges e))) else 0) * w + b

/-- The inclusion of the reals is additive, so it commutes with finite sums. -/
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- THE ALGEBRAIC LAW: a finite sum of selected finite terms times a finite weight is the sum of the selected
    products. Both sides are images of real numbers; on the reals multiplication distributes over the sum. -/
theorem law {ι : Type*} [Fintype ι] (p : ι → Prop) [DecidablePred p] (u : ι → EReal) (w : EReal)
    (hu : ∀ e, ∃ t : ℝ, u e = t) (hw : ∃ t : ℝ, w = t) :
    ((0 : EReal) + ∑ e, if p e then u e else 0) * w = 0 + ∑ e, if p e then u e * w else 0 := by
  obtain ⟨tw, rfl⟩ := hw
  choose t ht using hu
  rw [zero_add, zero_add]
  have h1 : ∀ e, (if p e then u e else 0) = (((if p e then t e else 0 : ℝ)) : EReal) := by
    intro e
    by_cases h : p e
    · rw [if_pos h, if_pos h, ht]
    · rw [if_neg h, if_neg h, EReal.coe_zero]
  have h2 : ∀ e, (if p e then u e * (tw : EReal) else 0) = (((if p e then t e else 0) * tw : ℝ) : EReal) := by
    intro e
    by_cases h : p e
    · rw [if_pos h, if_pos h, ht, EReal.coe_mul]
    · rw [if_neg h, if_neg h, zero_mul, EReal.coe_zero]
  simp only [h1, h2]
  rw [← coe_sum, ← coe_sum, ← EReal.coe_mul, Finset.sum_mul]

/-- The same with the zero written as the bit pattern of `+0.0`. -/
theorem law_bits {ι : Type*} [Fintype ι] (p : ι → Prop) [DecidablePred p] (u : ι → EReal) (w : EReal)
    (hu : ∀ e, ∃ t : ℝ, u e = t) (hw : ∃ t : ℝ, w = t) :
    (Ideal.ofBits .f32 0x00000000#32 + ∑ e, if p e then u e else 0) * w
      = Ideal.ofBits .f32 0x00000000#32 + ∑ e, if p e then u e * w else 0 := by
  rw [Ideal.ofBits_zero_f32]
  exact law p u w hu hw

/-- With finite features and a finite weight the two forms of the aggregate agree. -/
theorem aggK_eq_agg (x : (⟨2, ![1024, 978]⟩ : Shape).Idx → EReal)
    (edges : (⟨2, ![2, 20480000]⟩ : Shape).Idx → BitVec 32) (w b : EReal) (r : Fin 1024) (k : Fin 978)
    (hx : ∀ i, ∃ t : ℝ, x i = t) (hw : ∃ t : ℝ, w = t) :
    aggK x edges w b r k = agg x edges w b r k := by
  unfold aggK agg
  rw [law_bits (fun e : Fin 20480000 => (dstWord edges e).toInt = ((flatOf r k).val : Int))
    (fun e => x (node (normWord (srcWord edges e)))) w (fun e => hx _) hw]

end Cert.Agg

end
-- ==== Proof.KerAggTerm.lean ====
/- The kernel program's host prologue computes the aggregation of both inputs, stacked.

   Before its custom call the kernel program flattens the two 1024 × 978 inputs, sets them side by side as the two
   columns of a 1001472 × 2 array, takes row 0 of the edge list as source words (wrap-normalising a negative one by
   adding the node count) and row 1 as destination words, gathers for every edge the whole row of its source node
   (clamping the word into the node range), adds that row into the row of a zero array that the edge's destination word
   names, multiplies everything by the scalar weight and adds the scalar bias, and finally cuts the two columns apart,
   folds each back to 1024 × 978 and stacks them as the two leading slices of a 2 × 1024 × 978 array.

   The operations are defined one by one, as pure functions of the program's arguments, in the definitions file this
   one imports (`kv0` … `kv26`, named after the values of the printed program; `kerStack` is the last). Here they are
   read at an index: a gather is the operand at the clamped start index, an accumulating scatter is the operand's
   element plus the sum of the updates whose index
   is that row, a concatenation reads the piece its coordinate on the joined axis falls in, and every other operation
   reads one element of each operand. Slice `s` of the stack at `(r, k)` is the aggregate of input `s` in the form
   that multiplies the sum by the weight (`aggK`); with finite features and a finite weight that is `agg`. -/
import proofs.«165435_j22591527977030_2_alg».proof.Proof.KerAggDefs
import Idealize.ShloMosaic.Lib.Pipeline.Value
import Idealize.ShloMosaic.Lib.ValueIdx
import Idealize.ShloMosaic.PureOps.Ideal.Laws
import proofs.«165435_j22591527977030_2_alg».proof.Proof.LibGatherRows
import proofs.«165435_j22591527977030_2_alg».proof.Proof.LibScatterRows
import proofs.«165435_j22591527977030_2_alg».proof.Proof.Agg

noncomputable section

open scoped BigOperators

namespace Cert.KerAgg

open Cert.KernelIdeal Cert.KernelIdeal.Gen Idealize.ShloMosaic Idealize.ShloMosaic.TcCoe Idealize.SL.Sem
  Idealize.ShloMosaic.StableHlo Idealize.ShloMosaic.ValueIdx

theorem pick_zero (h : 0 < 2) (x0 x1 : X) : pick ⟨0, h⟩ x0 x1 = x0 := by
  unfold pick
  exact if_pos rfl

theorem pick_one (h : 1 < 2) (x0 x1 : X) : pick ⟨1, h⟩ x0 x1 = x1 := by
  unfold pick
  exact if_neg Nat.one_ne_zero

/-! ## The two inputs as columns -/

theorem kv0_apply (x : X) (m : Fin 1001472) : kv0 x (ix1 m) = x (Cert.Agg.entryOf m) := by
  unfold kv0
  exact shapeCast_apply x shapeCasts_S1024x978_S1001472 (ix1 m) (Cert.Agg.entryOf m)
    (by rewrite [Shape.rowMajor_val_two, Shape.rowMajor_val_one]; have h0 := m.isLt
        show m.val / 978 * 978 + m.val % 978 = m.val; omega)

theorem kv2_apply (x : X) (m : Fin 1001472) (z : Fin 1) : kv2 x (ix2 m z) = x (Cert.Agg.entryOf m) := by
  unfold kv2
  refine (broadcastInDim_apply _ bcast_S1001472_S1001472x1_0 (kv0 x) (ix2 m z) (ix1 m) ?_).trans (kv0_apply x m)
  intro a
  match a with
  | ⟨0, _⟩ => show m.val = if (1001472 : Nat) = 1 then 0 else m.val; rw [if_neg (by decide)]

theorem kv4_apply (x0 x1 : X) (m : Fin 1001472) (s : Fin 2) :
    kv4 x0 x1 (ix2 m s) = pick s x0 x1 (Cert.Agg.entryOf m) := by
  unfold kv4
  match s with
  | ⟨0, h⟩ =>
    rw [pick_zero]
    refine (concatenate_pair_apply_left (t := S1001472x2) (s₁ := S1001472x1) (s₂ := S1001472x1) 1 (kv2 x0) (kv2 x1)
      concatenates_S1001472x1_S1001472x1_S1001472x2_d1 (ix2 m (⟨0, h⟩ : Fin 2)) rfl
      (ix2 m (⟨0, Nat.one_pos⟩ : Fin 1)) ?_).trans (kv2_apply x0 m _)
    intro bb
    match bb with
    | ⟨0, _⟩ => rfl
    | ⟨1, _⟩ => rfl
  | ⟨1, h⟩ =>
    rw [pick_one]
    refine (concatenate_pair_apply_right (t := S1001472x2) (s₁ := S1001472x1) (s₂ := S1001472x1) 1 (kv2 x0) (kv2 x1)
      concatenates_S1001472x1_S1001472x1_S1001472x2_d1 (ix2 m (⟨1, h⟩ : Fin 2)) rfl rfl
      (ix2 m (⟨0, Nat.one_pos⟩ : Fin 1)) ?_ ?_).trans (kv2_apply x1 m _)
    · intro bb hb
      match bb, hb with
      | ⟨0, _⟩, _ => rfl
      | ⟨1, _⟩, hb => exact (hb (Fin.ext rfl)).elim
    · rfl

/-! ## The edge words -/

theorem kv6_apply (ed : Ed) (e : Fin 20480000) : kv6 ed (ix1 e) = Cert.Agg.srcWord ed e := by
  unfold kv6 kv5
  refine (shapeCast_apply _ shapeCasts_S1x20480000_S20480000 (ix1 e) (ix2 (⟨0, Nat.one_pos⟩ : Fin 1) e) ?_).trans ?_
  · rewrite [Shape.rowMajor_val_two, Shape.rowMajor_val_one]
    show 0 * 20480000 + e.val = e.val
    omega
  · exact extractStridedSlice_apply ![0, 0] ed slices_S2x20480000_S1x20480000_0_0 _ (ix2 (0 : Fin 2) e)
      (fun a => match a with
        | ⟨0, _⟩ => by show 0 = 0 + 0; rfl
        | ⟨1, _⟩ => by show e.val = 0 + e.val; omega)

theorem kv8_apply (ed : Ed) (e : Fin 20480000) : kv8 ed (ix1 e) = Cert.Agg.dstWord ed e := by
  unfold kv8 kv7
  refine (shapeCast_apply _ shapeCasts_S1x20480000_S20480000 (ix1 e) (ix2 (⟨0, Nat.one_pos⟩ : Fin 1) e) ?_).trans ?_
  · rewrite [Shape.rowMajor_val_two, Shape.rowMajor_val_one]
    show 0 * 20480000 + e.val = e.val
    omega
  · exact extractStridedSlice_apply ![1, 0] ed slices_S2x20480000_S1x20480000_1_0 _ (ix2 (1 : Fin 2) e)
      (fun a => match a with
        | ⟨0, _⟩ => by show 1 = 1 + 0; rfl
        | ⟨1, _⟩ => by show e.val = 0 + e.val; omega)

theorem kv9_apply (i : S20480000.Idx) : kv9 i = 0#32 := by
  unfold kv9
  exact broadcastInDim_apply _ bcast_S_S20480000 (constantI S_ 32 0#32) i ix0 (fun a => a.elim0)

theorem kv11_apply (i : S20480000.Idx) : kv11 i = 1001472#32 := by
  unfold kv11
  exact broadcastInDim_apply _ bcast_S_S20480000 (constantI S_ 32 1001472#32) i ix0 (fun a => a.elim0)

theorem kv13_apply (ed : Ed) (e : Fin 20480000) :
    kv13 ed (ix1 e) = Cert.Agg.normWord (Cert.Agg.srcWord ed e) := by
  show Scalar.select (IntOp.cmpi .slt (kv6 ed (ix1 e)) (kv9 (ix1 e))) (IntOp.addi (kv6 ed (ix1 e)) (kv11 (ix1 e)))
    (kv6 ed (ix1 e)) = _
  rw [kv6_apply, kv9_apply, kv11_apply]
  rfl

theorem kv14_apply (ed : Ed) (e : Fin 20480000) :
    kv14 ed (Cert.GatherRows.colIdx e) = Cert.Agg.normWord (Cert.Agg.srcWord ed e) := by
  unfold kv14
  refine (broadcastInDim_apply _ bcast_S20480000_S20480000x1_0 (kv13 ed) (Cert.GatherRows.colIdx e) (ix1 e) ?_).trans
    (kv13_apply ed e)
  intro a
  match a with
  | ⟨0, _⟩ => show e.val = if (20480000 : Nat) = 1 then 0 else e.val; rw [if_neg (by decide)]

theorem kv17_apply (ed : Ed) (e : Fin 20480000) :
    kv17 ed (Cert.Voxel.Ref.rowIdx e) = Cert.Agg.dstWord ed e := by
  unfold kv17
  refine (broadcastInDim_apply _ bcast_S20480000_S20480000x1_0 (kv8 ed) (Cert.Voxel.Ref.rowIdx e) (ix1 e) ?_).trans
    (kv8_apply ed e)
  intro a
  match a with
  | ⟨0, _⟩ => show e.val = if (20480000 : Nat) = 1 then 0 else e.val; rw [if_neg (by decide)]

/-! ## Gather, scatter, weight and bias -/

theorem kv15_apply (x0 x1 : X) (ed : Ed) (e : Fin 20480000) (s : Fin 2) :
    kv15 x0 x1 ed (ix2 e s) = pick s x0 x1 (Cert.Agg.node (Cert.Agg.normWord (Cert.Agg.srcWord ed e))) := by
  have hN : 0 < 1001472 := by omega
  unfold kv15
  show Host.gather (Cert.GatherRows.rowsDims 1001472 20480000 2 _) (kv4 x0 x1) (kv14 ed) (ix2 e s) = _
  rw [Cert.GatherRows.rows_gather_apply hN, kv14_apply, kv4_apply]

theorem kv16_apply (i : S1001472x2.Idx) : kv16 i = Ideal.ofBits .f32 0x00000000#32 := by
  unfold kv16
  exact broadcastInDim_apply _ bcast_S_S1001472x2 (constant (F := Ideal) S_ .f32 0x00000000#32) i ix0 (fun a => a.elim0)

theorem kv18_apply (x0 x1 : X) (ed : Ed) (m : Fin 1001472) (s : Fin 2) :
    kv18 x0 x1 ed (ix2 m s)
      = Ideal.ofBits .f32 0x00000000#32
        + ∑ e : Fin 20480000, if (Cert.Agg.dstWord ed e).toInt = (m.val : Int)
            then pick s x0 x1 (Cert.Agg.node (Cert.Agg.normWord (Cert.Agg.srcWord ed e))) else 0 := by
  have h1 : kv18 x0 x1 ed = Host.scatterAdd (F := Ideal) (φ := .f32) scatter_S1001472x2_S20480000x1_S20480000x2_1_0_0_1 kv16 (kv17 ed) (kv15 x0 x1 ed) := rfl
  have h2 : Host.scatterAdd (F := Ideal) (φ := .f32) scatter_S1001472x2_S20480000x1_S20480000x2_1_0_0_1 kv16 (kv17 ed) (kv15 x0 x1 ed)
      = Ideal.hostScatterAdd scatter_S1001472x2_S20480000x1_S20480000x2_1_0_0_1 kv16 (kv17 ed) (kv15 x0 x1 ed) :=
    Ideal.hostScatterAdd_def (φ := .f32) scatter_S1001472x2_S20480000x1_S20480000x2_1_0_0_1 .single _ _ _
  have h3 : scatter_S1001472x2_S20480000x1_S20480000x2_1_0_0_1 = Cert.Voxel.Ref.rowsDims 1001472 20480000 2 scatter_S1001472x2_S20480000x1_S20480000x2_1_0_0_1_wf := rfl
  have hs : ∀ e : Fin 20480000,
      (if (kv17 ed (Cert.Voxel.Ref.rowIdx e)).toInt = (m.val : Int) then kv15 x0 x1 ed (ix2 e s) else 0)
      = (if (Cert.Agg.dstWord ed e).toInt = (m.val : Int)
          then pick s x0 x1 (Cert.Agg.node (Cert.Agg.normWord (Cert.Agg.srcWord ed e))) else 0) := by
    intro e
    rw [kv17_apply, kv15_apply]
  rw [h1, h2, h3]
  exact (Cert.Voxel.Ref.rows_scatterAdd_apply _ _ _ _ m s).trans
    (congrArg₂ (fun a c : EReal => a + c) (kv16_apply (ix2 m s)) (Finset.sum_congr rfl fun e _ => hs e))

theorem kbc_apply (c : Sc) (i : S1001472x2.Idx) : kbc c i = c ix0 := by
  unfold kbc
  exact broadcastInDim_apply _ bcast_S_S1001472x2 c i ix0 (fun a => a.elim0)

theorem kv22_apply (x0 x1 : X) (ed : Ed) (w b : Sc) (i : S1001472x2.Idx) :
    kv22 x0 x1 ed w b i = kv18 x0 x1 ed i * w ix0 + b ix0 := by
  have h : kv22 x0 x1 ed w b
      = addf (F := Ideal) (φ := .f32) (mulf (F := Ideal) (φ := .f32) (kv18 x0 x1 ed) (kbc w)) (kbc b) := rfl
  rw [h, addf_apply, mulf_apply, kbc_apply, kbc_apply]

/-! ## The two columns cut apart, folded and stacked -/

theorem col0_apply (y : (⟨S1001472x2, .f32⟩ : BufTy).Contents (Elt Ideal)) (m : Fin 1001472) :
    col0 y (ix2 m (⟨0, Nat.one_pos⟩ : Fin 1)) = y (ix2 m (⟨0, Nat.zero_lt_two⟩ : Fin 2)) := by
  unfold col0
  exact extractStridedSlice_apply ![0, 0] y slices_S1001472x2_S1001472x1_0_0
    (ix2 m (⟨0, Nat.one_pos⟩ : Fin 1)) (ix2 m (⟨0, Nat.zero_lt_two⟩ : Fin 2))
    (fun a => match a with
      | ⟨0, _⟩ => by show m.val = 0 + m.val; omega
      | ⟨1, _⟩ => by show 0 = 0 + 0; rfl)

theorem col1_apply (y : (⟨S1001472x2, .f32⟩ : BufTy).Contents (Elt Ideal)) (m : Fin 1001472) :
    col1 y (ix2 m (⟨0, Nat.one_pos⟩ : Fin 1)) = y (ix2 m (⟨1, Nat.one_lt_two⟩ : Fin 2)) := by
  unfold col1
  exact extractStridedSlice_apply ![0, 1] y slices_S1001472x2_S1001472x1_0_1
    (ix2 m (⟨0, Nat.one_pos⟩ : Fin 1)) (ix2 m (⟨1, Nat.one_lt_two⟩ : Fin 2))
    (fun a => match a with
      | ⟨0, _⟩ => by show m.val = 0 + m.val; omega
      | ⟨1, _⟩ => by show 1 = 1 + 0; rfl)

theorem kv23_apply (x0 x1 : X) (ed : Ed) (w b : Sc) (m : Fin 1001472) :
    kv23 x0 x1 ed w b (ix2 m (⟨0, Nat.one_pos⟩ : Fin 1))
      = kv22 x0 x1 ed w b (ix2 m (⟨0, Nat.zero_lt_two⟩ : Fin 2)) :=
  col0_apply (kv22 x0 x1 ed w b) m

theorem kv26_apply (x0 x1 : X) (ed : Ed) (w b : Sc) (m : Fin 1001472) :
    kv26 x0 x1 ed w b (ix2 m (⟨0, Nat.one_pos⟩ : Fin 1))
      = kv22 x0 x1 ed w b (ix2 m (⟨1, Nat.one_lt_two⟩ : Fin 2)) :=
  col1_apply (kv22 x0 x1 ed w b) m

theorem foldCol_apply (y : (⟨S1001472x1, .f32⟩ : BufTy).Contents (Elt Ideal)) (z : Fin 1) (r : Fin 1024) (k : Fin 978) :
    foldCol y (ix3 z r k) = y (ix2 (Cert.Agg.flatOf r k) (⟨0, Nat.one_pos⟩ : Fin 1)) := by
  unfold foldCol
  refine (broadcastInDim_apply _ bcast_S1024x978_S1x1024x978_1_2 _ (ix3 z r k) (ix2 r k) ?_).trans ?_
  · intro a
    match a with
    | ⟨0, _⟩ => show r.val = if (1024 : Nat) = 1 then 0 else r.val; rw [if_neg (by decide)]
    | ⟨1, _⟩ => show k.val = if (978 : Nat) = 1 then 0 else k.val; rw [if_neg (by decide)]
  refine (shapeCast_apply _ shapeCasts_S1001472_S1024x978 (ix2 r k) (ix1 (Cert.Agg.flatOf r k)) ?_).trans ?_
  · rewrite [Shape.rowMajor_val_one, Shape.rowMajor_val_two]
    show r.val * 978 + k.val = r.val * 978 + k.val
    rfl
  refine shapeCast_apply y shapeCasts_S1001472x1_S1001472 (ix1 (Cert.Agg.flatOf r k))
    (ix2 (Cert.Agg.flatOf r k) (⟨0, Nat.one_pos⟩ : Fin 1)) ?_
  rewrite [Shape.rowMajor_val_two, Shape.rowMajor_val_one]
  show (r.val * 978 + k.val) * 1 + 0 = r.val * 978 + k.val
  omega

/-- Column `s` of the weighted, biased scatter at flat node `(r, k)` is the aggregate of input `s`, the sum multiplied
    by the weight. -/
theorem kv22_eq_aggK (x0 x1 : X) (ed : Ed) (w b : Sc) (s : Fin 2) (r : Fin 1024) (k : Fin 978) :
    kv22 x0 x1 ed w b (ix2 (Cert.Agg.flatOf r k) s) = Cert.Agg.aggK (pick s x0 x1) ed (w ix0) (b ix0) r k := by
  rw [kv22_apply, kv18_apply]
  rfl

/-- SLICE `s` OF THE STACK at `(r, k)` is the aggregate of input `s`, the sum multiplied by the weight. -/
theorem kerStack_apply (x0 x1 : X) (ed : Ed) (w b : Sc) (s : Fin 2) (r : Fin 1024) (k : Fin 978) :
    kerStack x0 x1 ed w b (ix3 s r k) = Cert.Agg.aggK (pick s x0 x1) ed (w ix0) (b ix0) r k := by
  unfold kerStack
  match s with
  | ⟨0, h⟩ =>
    refine (concatenate_pair_apply_left (t := S2x1024x978) (s₁ := S1x1024x978) (s₂ := S1x1024x978) 0
      (foldCol (kv23 x0 x1 ed w b)) (foldCol (kv26 x0 x1 ed w b))
      concatenates_S1x1024x978_S1x1024x978_S2x1024x978_d0 (ix3 (⟨0, h⟩ : Fin 2) r k) rfl
      (ix3 (⟨0, Nat.one_pos⟩ : Fin 1) r k) ?_).trans ?_
    · intro bb
      match bb with
      | ⟨0, _⟩ => rfl
      | ⟨1, _⟩ => rfl
      | ⟨2, _⟩ => rfl
    · rw [foldCol_apply, kv23_apply]
      exact kv22_eq_aggK x0 x1 ed w b ⟨0, h⟩ r k
  | ⟨1, h⟩ =>
    refine (concatenate_pair_apply_right (t := S2x1024x978) (s₁ := S1x1024x978) (s₂ := S1x1024x978) 0
      (foldCol (kv23 x0 x1 ed w b)) (foldCol (kv26 x0 x1 ed w b))
      concatenates_S1x1024x978_S1x1024x978_S2x1024x978_d0 (ix3 (⟨1, h⟩ : Fin 2) r k) rfl rfl
      (ix3 (⟨0, Nat.one_pos⟩ : Fin 1) r k) ?_ ?_).trans ?_
    · intro bb hb
      match bb, hb with
      | ⟨0, _⟩, hb => exact (hb (Fin.ext rfl)).elim
      | ⟨1, _⟩, _ => rfl
      | ⟨2, _⟩, _ => rfl
    · rfl
    · rw [foldCol_apply, kv26_apply]
      exact kv22_eq_aggK x0 x1 ed w b ⟨1, h⟩ r k

/-- The same as an `if` on the slice number. -/
theorem kerStack_apply_ite (x0 x1 : X) (ed : Ed) (w b : Sc) (s : Fin 2) (r : Fin 1024) (k : Fin 978) :
    kerStack x0 x1 ed w b (ix3 s r k)
      = if s.val = 0 then Cert.Agg.aggK x0 ed (w ix0) (b ix0) r k else Cert.Agg.aggK x1 ed (w ix0) (b ix0) r k := by
  rw [kerStack_apply]
  unfold pick
  by_cases h : s.val = 0
  · rw [if_pos h, if_pos h]
  · rw [if_neg h, if_neg h]

/-- WITH FINITE INPUTS AND A FINITE WEIGHT slice `s` of the stack at `(r, k)` is `agg` of input `s`: multiplication
    by a finite weight distributes over the finite sum of finite features. -/
theorem kerStack_eq_agg (x0 x1 : X) (ed : Ed) (w b : Sc) (s : Fin 2) (r : Fin 1024) (k : Fin 978)
    (h0 : ∀ i, ∃ t : ℝ, x0 i = t) (h1 : ∀ i, ∃ t : ℝ, x1 i = t) (hw : ∃ t : ℝ, w ix0 = t) :
    kerStack x0 x1 ed w b (ix3 s r k)
      = if s.val = 0 then Cert.Agg.agg x0 ed (w ix0) (b ix0) r k else Cert.Agg.agg x1 ed (w ix0) (b ix0) r k := by
  rw [kerStack_apply_ite, Cert.Agg.aggK_eq_agg x0 ed (w ix0) (b ix0) r k h0 hw,
    Cert.Agg.aggK_eq_agg x1 ed (w ix0) (b ix0) r k h1 hw]

end Cert.KerAgg

end
-- ==== Proof.KerFinal.lean ====
/- The kernel's result array as the common function of the arguments.

   The arrays the region finds are the arguments themselves (the extra features, the biases, the small weight
   matrices), the arguments in a narrower float format (the two large weight matrices: the same extended reals), and the
   stack of the two aggregated inputs, whose slice `s` at `(r, k)` is, for real inputs and a real weight, the aggregate
   `agg` of input `s`. So the array-level function of KerValue is `rowsOut` of the two aggregates and the arguments. -/
import proofs.«165435_j22591527977030_2_alg».proof.Proof.KerValue
import proofs.«165435_j22591527977030_2_alg».proof.Proof.KerHost
import proofs.«165435_j22591527977030_2_alg».proof.Proof.KerHostAgg
import proofs.«165435_j22591527977030_2_alg».proof.Proof.KerAggTerm

noncomputable section

namespace Cert.KerFinal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Slice `s` of the stack the region finds, for real inputs and a real weight. -/
theorem stack_apply (c : Dev nD) (s : Fin 2) (r : Fin 1024) (k : Fin 978)
    (h0 : ∀ i, ∃ t : ℝ, (m ((c : Thread nD τ).loc main_arg0) : S1024x978.Idx → EReal) i = ((t : ℝ) : EReal))
    (h1 : ∀ i, ∃ t : ℝ, (m ((c : Thread nD τ).loc main_arg1) : S1024x978.Idx → EReal) i = ((t : ℝ) : EReal))
    (hw : ∃ t : ℝ, (m ((c : Thread nD τ).loc main_arg4) : S_.Idx → EReal) ix0 = ((t : ℝ) : EReal)) :
    (V m c main_v31 : S2x1024x978.Idx → EReal) (ix3 s r k)
      = if s.val = 0
        then Cert.Agg.agg (m ((c : Thread nD τ).loc main_arg0)) (m ((c : Thread nD τ).loc main_arg2))
          ((m ((c : Thread nD τ).loc main_arg4) : S_.Idx → EReal) ix0) ((m ((c : Thread nD τ).loc main_arg5) : S_.Idx → EReal) ix0) r k
        else Cert.Agg.agg (m ((c : Thread nD τ).loc main_arg1)) (m ((c : Thread nD τ).loc main_arg2))
          ((m ((c : Thread nD τ).loc main_arg4) : S_.Idx → EReal) ix0) ((m ((c : Thread nD τ).loc main_arg5) : S_.Idx → EReal) ix0) r k := by
  rw [Cert.KerHostAgg.V_v31 m c]
  exact Cert.KerAgg.kerStack_eq_agg _ _ _ _ _ s r k h0 h1 hw

/-- THE KERNEL'S RESULT ARRAY, for real inputs and a real weight. -/
theorem G_eq (c : Dev nD)
    (h0 : ∀ i, ∃ t : ℝ, (m ((c : Thread nD τ).loc main_arg0) : S1024x978.Idx → EReal) i = ((t : ℝ) : EReal))
    (h1 : ∀ i, ∃ t : ℝ, (m ((c : Thread nD τ).loc main_arg1) : S1024x978.Idx → EReal) i = ((t : ℝ) : EReal))
    (hw : ∃ t : ℝ, (m ((c : Thread nD τ).loc main_arg4) : S_.Idx → EReal) ix0 = ((t : ℝ) : EReal)) :
    Cert.KerValue.G m c
      = Cert.Rows.rowsOut
          (Cert.Agg.agg (m ((c : Thread nD τ).loc main_arg0)) (m ((c : Thread nD τ).loc main_arg2))
            ((m ((c : Thread nD τ).loc main_arg4) : S_.Idx → EReal) ix0) ((m ((c : Thread nD τ).loc main_arg5) : S_.Idx → EReal) ix0))
          (Cert.Agg.agg (m ((c : Thread nD τ).loc main_arg1)) (m ((c : Thread nD τ).loc main_arg2))
            ((m ((c : Thread nD τ).loc main_arg4) : S_.Idx → EReal) ix0) ((m ((c : Thread nD τ).loc main_arg5) : S_.Idx → EReal) ix0))
          (m ((c : Thread nD τ).loc main_arg3)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) := by
  have hA0 : (fun (r : Fin 1024) (k : Fin 978) => (V m c main_v31 : S2x1024x978.Idx → EReal) (ix3 (0 : Fin 2) r k))
      = Cert.Agg.agg (m ((c : Thread nD τ).loc main_arg0)) (m ((c : Thread nD τ).loc main_arg2))
          ((m ((c : Thread nD τ).loc main_arg4) : S_.Idx → EReal) ix0) ((m ((c : Thread nD τ).loc main_arg5) : S_.Idx → EReal) ix0) :=
    funext fun r => funext fun k => (stack_apply m c 0 r k h0 h1 hw).trans (if_pos rfl)
  have hA1 : (fun (r : Fin 1024) (k : Fin 978) => (V m c main_v31 : S2x1024x978.Idx → EReal) (ix3 (1 : Fin 2) r k))
      = Cert.Agg.agg (m ((c : Thread nD τ).loc main_arg1)) (m ((c : Thread nD τ).loc main_arg2))
          ((m ((c : Thread nD τ).loc main_arg4) : S_.Idx → EReal) ix0) ((m ((c : Thread nD τ).loc main_arg5) : S_.Idx → EReal) ix0) :=
    funext fun r => funext fun k => (stack_apply m c 1 r k h0 h1 hw).trans (if_neg Nat.one_ne_zero)
  unfold Cert.KerValue.G
  rw [hA0, hA1, Cert.KerHost.V_v32 m c, Cert.KerHost.V_v33 m c, V_main_arg3 m c, V_main_arg7 m c, V_main_arg9 m c,
    V_main_arg10 m c, V_main_arg11 m c, V_main_arg12 m c, V_main_arg13 m c]

end Cert.KerFinal

end
-- ==== Proof.RefRows1.lean ====
/- The reference program read one batch row at a time: each encoder output row is the specification's encoder applied
   to that row of aggregated features. Every stage is read at an index through its operands; a contraction's left and
   right index at (r, q) and summand k are the coordinate pairs (r, k) and (k, q); a bias broadcast along the batch axis
   reads the bias at the column. -/
import proofs.«165435_j22591527977030_2_alg».proof.Proof.Gen.ReferenceIdeal.Read
import proofs.«165435_j22591527977030_2_alg».proof.Proof.Spec

noncomputable section

open scoped BigOperators

namespace Cert.RefRows

open Cert.ReferenceIdeal Cert.ReferenceIdeal.Gen Cert.ReferenceIdeal.Read Idealize.ShloMosaic Idealize.ShloMosaic.ValueIdx

variable (x0 x1 : (⟨S1024x978, .f32⟩ : BufTy).Contents (Elt Ideal)) (x2 : (⟨S2x20480000, .i32⟩ : BufTy).Contents (Elt Ideal))
  (x4 x5 : (⟨S_, .f32⟩ : BufTy).Contents (Elt Ideal)) (x6 : (⟨S978x2048, .f32⟩ : BufTy).Contents (Elt Ideal))
  (x7 : (⟨S2048, .f32⟩ : BufTy).Contents (Elt Ideal)) (x8 : (⟨S2048x100, .f32⟩ : BufTy).Contents (Elt Ideal))
  (x9 : (⟨S100, .f32⟩ : BufTy).Contents (Elt Ideal))

/-- The first encoder layer of the a branch at row r, hidden unit k: the floor at zero of the contraction of the
    floored features with the first weight matrix plus the bias. -/
theorem hid_a (r : Fin 1024) (k : Fin 2048) :
    val_main_v25 (F := Ideal) x0 x2 x4 x5 x6 x7 (ix2 r k)
      = Cert.Spec.relu ((∑ j : Fin 978, Cert.Spec.relu (val_main_v19 (F := Ideal) x0 x2 x4 x5 (ix2 r j)) * x6 (ix2 j k)) + x7 (ix1 k)) := by
  have el : ∀ j : Fin 978, lidx_main_v21 (ix2 r k) j = ix2 r j := fun j =>
    funext fun a => Fin.ext (by match a with | ⟨0, _⟩ => rfl | ⟨1, _⟩ => rfl)
  have er : ∀ j : Fin 978, ridx_main_v21 (ix2 r k) j = ix2 j k := fun j =>
    funext fun a => Fin.ext (by match a with | ⟨0, _⟩ => rfl | ⟨1, _⟩ => rfl)
  have eb : idx_main_v22 (idx_main_v23 (ix2 r k)) = ix1 k :=
    funext fun a => Fin.ext (by match a with | ⟨0, _⟩ => rfl)
  rw [val_main_v25_apply, val_main_v24_apply, val_main_v21_apply, val_main_v23_apply, val_main_v22_apply,
    val_main_call1_v0_apply, val_main_call1_cst_apply, eb]
  have hs : ∀ j : Fin 978, val_main_v20 (F := Ideal) x0 x2 x4 x5 (lidx_main_v21 (ix2 r k) j) * x6 (ridx_main_v21 (ix2 r k) j)
      = Cert.Spec.relu (val_main_v19 (F := Ideal) x0 x2 x4 x5 (ix2 r j)) * x6 (ix2 j k) := fun j => by
    rw [el j, er j, val_main_v20_apply, val_main_call0_v0_apply, val_main_call0_cst_apply]
    rfl
  rw [Finset.sum_congr rfl fun j _ => hs j]
  rfl

/-- The a branch's encoder output at row r, coordinate q is the specification's encoder of that row. -/
theorem enc_a (r : Fin 1024) (q : Fin 100) :
    val_main_v29 (F := Ideal) x0 x2 x4 x5 x6 x7 x8 x9 (ix2 r q)
      = Cert.Spec.enc (fun k => val_main_v19 (F := Ideal) x0 x2 x4 x5 (ix2 r k)) (fun a b => x6 (ix2 a b)) (fun k => x7 (ix1 k))
          (fun a b => x8 (ix2 a b)) (fun k => x9 (ix1 k)) q := by
  have el : ∀ k : Fin 2048, lidx_main_v26 (ix2 r q) k = ix2 r k := fun k =>
    funext fun a => Fin.ext (by match a with | ⟨0, _⟩ => rfl | ⟨1, _⟩ => rfl)
  have er : ∀ k : Fin 2048, ridx_main_v26 (ix2 r q) k = ix2 k q := fun k =>
    funext fun a => Fin.ext (by match a with | ⟨0, _⟩ => rfl | ⟨1, _⟩ => rfl)
  have eb : idx_main_v27 (idx_main_v28 (ix2 r q)) = ix1 q :=
    funext fun a => Fin.ext (by match a with | ⟨0, _⟩ => rfl)
  rw [val_main_v29_apply, val_main_v26_apply, val_main_v28_apply, val_main_v27_apply, eb]
  have hs : ∀ k : Fin 2048, val_main_v25 (F := Ideal) x0 x2 x4 x5 x6 x7 (lidx_main_v26 (ix2 r q) k) * x8 (ridx_main_v26 (ix2 r q) k)
      = Cert.Spec.relu ((∑ j : Fin 978, Cert.Spec.relu (val_main_v19 (F := Ideal) x0 x2 x4 x5 (ix2 r j)) * x6 (ix2 j k)) + x7 (ix1 k))
          * x8 (ix2 k q) := fun k => by
    rw [el k, er k, hid_a]
  rw [Finset.sum_congr rfl fun k _ => hs k]
  unfold Cert.Spec.enc
  rfl

/-- The first encoder layer of the b branch at row r, hidden unit k: the floor at zero of the contraction of the
    floored features with the first weight matrix plus the bias. -/
theorem hid_b (r : Fin 1024) (k : Fin 2048) :
    val_main_v55 (F := Ideal) x1 x2 x4 x5 x6 x7 (ix2 r k)
      = Cert.Spec.relu ((∑ j : Fin 978, Cert.Spec.relu (val_main_v49 (F := Ideal) x1 x2 x4 x5 (ix2 r j)) * x6 (ix2 j k)) + x7 (ix1 k)) := by
  have el : ∀ j : Fin 978, lidx_main_v51 (ix2 r k) j = ix2 r j := fun j =>
    funext fun a => Fin.ext (by match a with | ⟨0, _⟩ => rfl | ⟨1, _⟩ => rfl)
  have er : ∀ j : Fin 978, ridx_main_v51 (ix2 r k) j = ix2 j k := fun j =>
    funext fun a => Fin.ext (by match a with | ⟨0, _⟩ => rfl | ⟨1, _⟩ => rfl)
  have eb : idx_main_v52 (idx_main_v53 (ix2 r k)) = ix1 k :=
    funext fun a => Fin.ext (by match a with | ⟨0, _⟩ => rfl)
  rw [val_main_v55_apply, val_main_v54_apply, val_main_v51_apply, val_main_v53_apply, val_main_v52_apply,
    val_main_call3_v0_apply, val_main_call3_cst_apply, eb]
  have hs : ∀ j : Fin 978, val_main_v50 (F := Ideal) x1 x2 x4 x5 (lidx_main_v51 (ix2 r k) j) * x6 (ridx_main_v51 (ix2 r k) j)
      = Cert.Spec.relu (val_main_v49 (F := Ideal) x1 x2 x4 x5 (ix2 r j)) * x6 (ix2 j k) := fun j => by
    rw [el j, er j, val_main_v50_apply, val_main_call2_v0_apply, val_main_call2_cst_apply]
    rfl
  rw [Finset.sum_congr rfl fun j _ => hs j]
  rfl

/-- The b branch's encoder output at row r, coordinate q is the specification's encoder of that row. -/
theorem enc_b (r : Fin 1024) (q : Fin 100) :
    val_main_v59 (F := Ideal) x1 x2 x4 x5 x6 x7 x8 x9 (ix2 r q)
      = Cert.Spec.enc (fun k => val_main_v49 (F := Ideal) x1 x2 x4 x5 (ix2 r k)) (fun a b => x6 (ix2 a b)) (fun k => x7 (ix1 k))
          (fun a b => x8 (ix2 a b)) (fun k => x9 (ix1 k)) q := by
  have el : ∀ k : Fin 2048, lidx_main_v56 (ix2 r q) k = ix2 r k := fun k =>
    funext fun a => Fin.ext (by match a with | ⟨0, _⟩ => rfl | ⟨1, _⟩ => rfl)
  have er : ∀ k : Fin 2048, ridx_main_v56 (ix2 r q) k = ix2 k q := fun k =>
    funext fun a => Fin.ext (by match a with | ⟨0, _⟩ => rfl | ⟨1, _⟩ => rfl)
  have eb : idx_main_v57 (idx_main_v58 (ix2 r q)) = ix1 q :=
    funext fun a => Fin.ext (by match a with | ⟨0, _⟩ => rfl)
  rw [val_main_v59_apply, val_main_v56_apply, val_main_v58_apply, val_main_v57_apply, eb]
  have hs : ∀ k : Fin 2048, val_main_v55 (F := Ideal) x1 x2 x4 x5 x6 x7 (lidx_main_v56 (ix2 r q) k) * x8 (ridx_main_v56 (ix2 r q) k)
      = Cert.Spec.relu ((∑ j : Fin 978, Cert.Spec.relu (val_main_v49 (F := Ideal) x1 x2 x4 x5 (ix2 r j)) * x6 (ix2 j k)) + x7 (ix1 k))
          * x8 (ix2 k q) := fun k => by
    rw [el k, er k, hid_b]
  rw [Finset.sum_congr rfl fun k _ => hs k]
  unfold Cert.Spec.enc
  rfl

end Cert.RefRows

end
-- ==== Proof.RefRows2.lean ====
/- The reference program's tail read one batch row at a time: from the two encoder output rows to the row's two results.
   The means are a sum started at zero divided by one hundred; the three sums of products run over the centred rows; the
   joined five-vector holds the squared correlation first and the four extra features after it; the two small layers are
   the specification's left-nested sums. -/
import proofs.«165435_j22591527977030_2_alg».proof.Proof.RefRows1

noncomputable section

open scoped BigOperators

namespace Cert.RefRows

open Cert.ReferenceIdeal Cert.ReferenceIdeal.Gen Cert.ReferenceIdeal.Read Idealize.ShloMosaic Idealize.ShloMosaic.ValueIdx

variable (x0 x1 : (⟨S1024x978, .f32⟩ : BufTy).Contents (Elt Ideal)) (x2 : (⟨S2x20480000, .i32⟩ : BufTy).Contents (Elt Ideal))
  (x3 : (⟨S1024x4, .f32⟩ : BufTy).Contents (Elt Ideal))
  (x4 x5 : (⟨S_, .f32⟩ : BufTy).Contents (Elt Ideal)) (x6 : (⟨S978x2048, .f32⟩ : BufTy).Contents (Elt Ideal))
  (x7 : (⟨S2048, .f32⟩ : BufTy).Contents (Elt Ideal)) (x8 : (⟨S2048x100, .f32⟩ : BufTy).Contents (Elt Ideal))
  (x9 : (⟨S100, .f32⟩ : BufTy).Contents (Elt Ideal)) (x10 : (⟨S5x4, .f32⟩ : BufTy).Contents (Elt Ideal))
  (x11 : (⟨S4, .f32⟩ : BufTy).Contents (Elt Ideal)) (x12 : (⟨S4x2, .f32⟩ : BufTy).Contents (Elt Ideal))
  (x13 : (⟨S2, .f32⟩ : BufTy).Contents (Elt Ideal))

/-- The a branch's centred output at row r, coordinate q: the entry minus the row's sum over one hundred. -/
theorem ctr_a (r : Fin 1024) (q : Fin 100) :
    val_main_v65 (F := Ideal) x0 x2 x4 x5 x6 x7 x8 x9 (ix2 r q) = Cert.Spec.ctr (fun k => val_main_v29 (F := Ideal) x0 x2 x4 x5 x6 x7 x8 x9 (ix2 r k)) q := by
  have e1 : idx_main_v61 (idx_main_v64 (ix2 r q)) = ix1 r := funext fun a => Fin.ext (by match a with | ⟨0, _⟩ => rfl)
  have e2 : ∀ k : Fin 100, idx_main_v60 (ix1 r) k = ix2 r k := fun k => funext fun a => Fin.ext (by match a with | ⟨0, _⟩ => rfl | ⟨1, _⟩ => rfl)
  rw [val_main_v65_apply, val_main_v64_apply, val_main_v63_apply, val_main_v61_apply, val_main_v62_apply,
    val_main_cst_5_apply, e1, val_main_v60_apply, val_main_cst_4_apply]
  have hs : ∀ k : Fin 100, val_main_v29 (F := Ideal) x0 x2 x4 x5 x6 x7 x8 x9 (idx_main_v60 (ix1 r) k) = val_main_v29 (F := Ideal) x0 x2 x4 x5 x6 x7 x8 x9 (ix2 r k) :=
    fun k => by rw [e2 k]
  rw [Finset.sum_congr rfl fun k _ => hs k]
  simp only [Ideal.subf_def, Ideal.hostDivf_def, Ideal.ofBits_def, Ideal.ofBits_zero_f32, zero_add]
  rfl

/-- The b branch's centred output at row r, coordinate q: the entry minus the row's sum over one hundred. -/
theorem ctr_b (r : Fin 1024) (q : Fin 100) :
    val_main_v71 (F := Ideal) x1 x2 x4 x5 x6 x7 x8 x9 (ix2 r q) = Cert.Spec.ctr (fun k => val_main_v59 (F := Ideal) x1 x2 x4 x5 x6 x7 x8 x9 (ix2 r k)) q := by
  have e1 : idx_main_v67 (idx_main_v70 (ix2 r q)) = ix1 r := funext fun a => Fin.ext (by match a with | ⟨0, _⟩ => rfl)
  have e2 : ∀ k : Fin 100, idx_main_v66 (ix1 r) k = ix2 r k := fun k => funext fun a => Fin.ext (by match a with | ⟨0, _⟩ => rfl | ⟨1, _⟩ => rfl)
  rw [val_main_v71_apply, val_main_v70_apply, val_main_v69_apply, val_main_v67_apply, val_main_v68_apply,
    val_main_cst_7_apply, e1, val_main_v66_apply, val_main_cst_6_apply]
  have hs : ∀ k : Fin 100, val_main_v59 (F := Ideal) x1 x2 x4 x5 x6 x7 x8 x9 (idx_main_v66 (ix1 r) k) = val_main_v59 (F := Ideal) x1 x2 x4 x5 x6 x7 x8 x9 (ix2 r k) :=
    fun k => by rw [e2 k]
  rw [Finset.sum_congr rfl fun k _ => hs k]
  simp only [Ideal.subf_def, Ideal.hostDivf_def, Ideal.ofBits_def, Ideal.ofBits_zero_f32, zero_add]
  rfl

/-- The sum of products of the two centred rows. -/
theorem num_ab (r : Fin 1024) :
    val_main_v73 (F := Ideal) x0 x1 x2 x4 x5 x6 x7 x8 x9 (ix1 r) = ∑ k : Fin 100, Cert.Spec.ctr (fun k => val_main_v29 (F := Ideal) x0 x2 x4 x5 x6 x7 x8 x9 (ix2 r k)) k * Cert.Spec.ctr (fun k => val_main_v59 (F := Ideal) x1 x2 x4 x5 x6 x7 x8 x9 (ix2 r k)) k := by
  have e : ∀ k : Fin 100, idx_main_v73 (ix1 r) k = ix2 r k := fun k => funext fun a => Fin.ext (by match a with | ⟨0, _⟩ => rfl | ⟨1, _⟩ => rfl)
  rw [val_main_v73_apply, val_main_cst_8_apply]
  have hs : ∀ k : Fin 100, val_main_v72 (F := Ideal) x0 x1 x2 x4 x5 x6 x7 x8 x9 (idx_main_v73 (ix1 r) k) = Cert.Spec.ctr (fun k => val_main_v29 (F := Ideal) x0 x2 x4 x5 x6 x7 x8 x9 (ix2 r k)) k * Cert.Spec.ctr (fun k => val_main_v59 (F := Ideal) x1 x2 x4 x5 x6 x7 x8 x9 (ix2 r k)) k := fun k => by
    rw [e k, val_main_v72_apply, ctr_a, ctr_b]
    rfl
  rw [Finset.sum_congr rfl fun k _ => hs k]
  simp only [Ideal.ofBits_def, Ideal.ofBits_zero_f32, zero_add]

/-- The sum of squares of the first centred row. -/
theorem ssq_a (r : Fin 1024) :
    val_main_v75 (F := Ideal) x0 x2 x4 x5 x6 x7 x8 x9 (ix1 r) = ∑ k : Fin 100, Cert.Spec.ctr (fun k => val_main_v29 (F := Ideal) x0 x2 x4 x5 x6 x7 x8 x9 (ix2 r k)) k * Cert.Spec.ctr (fun k => val_main_v29 (F := Ideal) x0 x2 x4 x5 x6 x7 x8 x9 (ix2 r k)) k := by
  have e : ∀ k : Fin 100, idx_main_v75 (ix1 r) k = ix2 r k := fun k => funext fun a => Fin.ext (by match a with | ⟨0, _⟩ => rfl | ⟨1, _⟩ => rfl)
  rw [val_main_v75_apply, val_main_cst_9_apply]
  have hs : ∀ k : Fin 100, val_main_v74 (F := Ideal) x0 x2 x4 x5 x6 x7 x8 x9 (idx_main_v75 (ix1 r) k) = Cert.Spec.ctr (fun k => val_main_v29 (F := Ideal) x0 x2 x4 x5 x6 x7 x8 x9 (ix2 r k)) k * Cert.Spec.ctr (fun k => val_main_v29 (F := Ideal) x0 x2 x4 x5 x6 x7 x8 x9 (ix2 r k)) k := fun k => by
    rw [e k, val_main_v74_apply, ctr_a]
    rfl
  rw [Finset.sum_congr rfl fun k _ => hs k]
  simp only [Ideal.ofBits_def, Ideal.ofBits_zero_f32, zero_add]

/-- The sum of squares of the second centred row. -/
theorem ssq_b (r : Fin 1024) :
    val_main_v78 (F := Ideal) x1 x2 x4 x5 x6 x7 x8 x9 (ix1 r) = ∑ k : Fin 100, Cert.Spec.ctr (fun k => val_main_v59 (F := Ideal) x1 x2 x4 x5 x6 x7 x8 x9 (ix2 r k)) k * Cert.Spec.ctr (fun k => val_main_v59 (F := Ideal) x1 x2 x4 x5 x6 x7 x8 x9 (ix2 r k)) k := by
  have e : ∀ k : Fin 100, idx_main_v78 (ix1 r) k = ix2 r k := fun k => funext fun a => Fin.ext (by match a with | ⟨0, _⟩ => rfl | ⟨1, _⟩ => rfl)
  rw [val_main_v78_apply, val_main_cst_10_apply]
  have hs : ∀ k : Fin 100, val_main_v77 (F := Ideal) x1 x2 x4 x5 x6 x7 x8 x9 (idx_main_v78 (ix1 r) k) = Cert.Spec.ctr (fun k => val_main_v59 (F := Ideal) x1 x2 x4 x5 x6 x7 x8 x9 (ix2 r k)) k * Cert.Spec.ctr (fun k => val_main_v59 (F := Ideal) x1 x2 x4 x5 x6 x7 x8 x9 (ix2 r k)) k := fun k => by
    rw [e k, val_main_v77_apply, ctr_b]
    rfl
  rw [Finset.sum_congr rfl fun k _ => hs k]
  simp only [Ideal.ofBits_def, Ideal.ofBits_zero_f32, zero_add]

/-- The squared correlation of the two encoder output rows, as the reference's one-column array holds it. -/
theorem r2_ab (r : Fin 1024) :
    val_main_v83 (F := Ideal) x0 x1 x2 x4 x5 x6 x7 x8 x9 (ix2 r (0 : Fin 1)) = Cert.Spec.r2 (fun k => val_main_v29 (F := Ideal) x0 x2 x4 x5 x6 x7 x8 x9 (ix2 r k)) (fun k => val_main_v59 (F := Ideal) x1 x2 x4 x5 x6 x7 x8 x9 (ix2 r k)) := by
  have e : idx_main_v83 (ix2 r (0 : Fin 1)) = ix1 r := funext fun a => Fin.ext (by match a with | ⟨0, _⟩ => rfl)
  rw [val_main_v83_apply, e, val_main_v82_apply, val_main_v81_apply, val_main_v80_apply, val_main_v76_apply, val_main_v79_apply,
    num_ab, ssq_a, ssq_b]
  simp only [Ideal.hostDivf_def, Ideal.mulf_def, Ideal.hostUnary_sqrt_def]
  rfl

/-- The joined five-vector's first entry is the squared correlation. -/
theorem cat_zero (r : Fin 1024) :
    val_main_v84 (F := Ideal) x0 x1 x2 x3 x4 x5 x6 x7 x8 x9 (ix2 r (0 : Fin 5)) = Cert.Spec.r2 (fun k => val_main_v29 (F := Ideal) x0 x2 x4 x5 x6 x7 x8 x9 (ix2 r k)) (fun k => val_main_v59 (F := Ideal) x1 x2 x4 x5 x6 x7 x8 x9 (ix2 r k)) := by
  unfold val_main_v84
  exact (concatenate_pair_apply_left _ _ _ concatenates_S1024x1_S1024x4_S1024x5_d1 (ix2 r (0 : Fin 5)) rfl (ix2 r (0 : Fin 1))
    (fun b => by match b with | ⟨0, _⟩ => rfl | ⟨1, _⟩ => rfl)).trans (r2_ab x0 x1 x2 x4 x5 x6 x7 x8 x9 r)

/-- The joined five-vector's entry k + 1 is the k-th extra feature. -/
theorem cat_succ (r : Fin 1024) (k : Fin 4) :
    val_main_v84 (F := Ideal) x0 x1 x2 x3 x4 x5 x6 x7 x8 x9 (ix2 r k.succ) = x3 (ix2 r k) := by
  unfold val_main_v84
  exact concatenate_pair_apply_right _ _ _ concatenates_S1024x1_S1024x4_S1024x5_d1 (ix2 r k.succ) rfl rfl (ix2 r k)
    (fun b hb => by
      match b, hb with
      | ⟨0, _⟩, _ => rfl
      | ⟨1, _⟩, hb => exact absurd rfl hb)
    rfl

/-- The hidden layer of the small predictor at row r. -/
theorem hid_row (r : Fin 1024) (q : Fin 4) :
    val_main_v89 (F := Ideal) x0 x1 x2 x3 x4 x5 x6 x7 x8 x9 x10 x11 (ix2 r q)
      = Cert.Spec.hid (Cert.Spec.r2 (fun k => val_main_v29 (F := Ideal) x0 x2 x4 x5 x6 x7 x8 x9 (ix2 r k)) (fun k => val_main_v59 (F := Ideal) x1 x2 x4 x5 x6 x7 x8 x9 (ix2 r k))) (fun k => x3 (ix2 r k)) (fun a b => x10 (ix2 a b)) (fun k => x11 (ix1 k)) q := by
  have el : ∀ k : Fin 5, lidx_main_v85 (ix2 r q) k = ix2 r k := fun k => funext fun a => Fin.ext (by match a with | ⟨0, _⟩ => rfl | ⟨1, _⟩ => rfl)
  have er : ∀ k : Fin 5, ridx_main_v85 (ix2 r q) k = ix2 k q := fun k => funext fun a => Fin.ext (by match a with | ⟨0, _⟩ => rfl | ⟨1, _⟩ => rfl)
  have eb : idx_main_v86 (idx_main_v87 (ix2 r q)) = ix1 q := funext fun a => Fin.ext (by match a with | ⟨0, _⟩ => rfl)
  rw [val_main_v89_apply, val_main_v88_apply, val_main_v85_apply, val_main_v87_apply, val_main_v86_apply,
    val_main_call4_v0_apply, val_main_call4_cst_apply, eb]
  have hs : ∀ k : Fin 5, val_main_v84 (F := Ideal) x0 x1 x2 x3 x4 x5 x6 x7 x8 x9 (lidx_main_v85 (ix2 r q) k) * x10 (ridx_main_v85 (ix2 r q) k)
      = val_main_v84 (F := Ideal) x0 x1 x2 x3 x4 x5 x6 x7 x8 x9 (ix2 r k) * x10 (ix2 k q) := fun k => by rw [el k, er k]
  rw [Finset.sum_congr rfl fun k _ => hs k]
  exact Cert.Spec.hid_eq_sum _ (fun k => x3 (ix2 r k)) (fun a b => x10 (ix2 a b)) (fun k => x11 (ix1 k)) q
    (fun k => val_main_v84 (F := Ideal) x0 x1 x2 x3 x4 x5 x6 x7 x8 x9 (ix2 r k))
    (cat_zero x0 x1 x2 x3 x4 x5 x6 x7 x8 x9 r) (cat_succ x0 x1 x2 x3 x4 x5 x6 x7 x8 x9 r 0) (cat_succ x0 x1 x2 x3 x4 x5 x6 x7 x8 x9 r 1) (cat_succ x0 x1 x2 x3 x4 x5 x6 x7 x8 x9 r 2) (cat_succ x0 x1 x2 x3 x4 x5 x6 x7 x8 x9 r 3)

/-- The reference's result at row r, column j from the two encoder output rows and the extra features. -/
theorem out_row (r : Fin 1024) (j : Fin 2) :
    val_main_v93 (F := Ideal) x0 x1 x2 x3 x4 x5 x6 x7 x8 x9 x10 x11 x12 x13 (ix2 r j)
      = Cert.Spec.outp (Cert.Spec.hid (Cert.Spec.r2 (fun k => val_main_v29 (F := Ideal) x0 x2 x4 x5 x6 x7 x8 x9 (ix2 r k)) (fun k => val_main_v59 (F := Ideal) x1 x2 x4 x5 x6 x7 x8 x9 (ix2 r k))) (fun k => x3 (ix2 r k)) (fun a b => x10 (ix2 a b)) (fun k => x11 (ix1 k)))
          (fun a b => x12 (ix2 a b)) (fun k => x13 (ix1 k)) j := by
  have el : ∀ k : Fin 4, lidx_main_v90 (ix2 r j) k = ix2 r k := fun k => funext fun a => Fin.ext (by match a with | ⟨0, _⟩ => rfl | ⟨1, _⟩ => rfl)
  have er : ∀ k : Fin 4, ridx_main_v90 (ix2 r j) k = ix2 k j := fun k => funext fun a => Fin.ext (by match a with | ⟨0, _⟩ => rfl | ⟨1, _⟩ => rfl)
  have eb : idx_main_v91 (idx_main_v92 (ix2 r j)) = ix1 j := funext fun a => Fin.ext (by match a with | ⟨0, _⟩ => rfl)
  rw [val_main_v93_apply, val_main_v90_apply, val_main_v92_apply, val_main_v91_apply, eb]
  have hs : ∀ k : Fin 4, val_main_v89 (F := Ideal) x0 x1 x2 x3 x4 x5 x6 x7 x8 x9 x10 x11 (lidx_main_v90 (ix2 r j) k) * x12 (ridx_main_v90 (ix2 r j) k)
      = Cert.Spec.hid (Cert.Spec.r2 (fun k => val_main_v29 (F := Ideal) x0 x2 x4 x5 x6 x7 x8 x9 (ix2 r k)) (fun k => val_main_v59 (F := Ideal) x1 x2 x4 x5 x6 x7 x8 x9 (ix2 r k))) (fun k => x3 (ix2 r k)) (fun a b => x10 (ix2 a b)) (fun k => x11 (ix1 k)) k * x12 (ix2 k j) :=
    fun k => by rw [el k, er k, hid_row]
  rw [Finset.sum_congr rfl fun k _ => hs k]
  exact Cert.Spec.outp_eq_sum _ (fun a b => x12 (ix2 a b)) (fun k => x13 (ix1 k)) j

/-- The reference's result at row r, column j is the specification's row function of that row's two aggregated
    feature vectors, its extra features and the shared weights. -/
theorem row (r : Fin 1024) (j : Fin 2) :
    val_main_v93 (F := Ideal) x0 x1 x2 x3 x4 x5 x6 x7 x8 x9 x10 x11 x12 x13 (ix2 r j)
      = Cert.Spec.rowOut (fun k => val_main_v19 (F := Ideal) x0 x2 x4 x5 (ix2 r k)) (fun k => val_main_v49 (F := Ideal) x1 x2 x4 x5 (ix2 r k))
          (fun k => x3 (ix2 r k)) (fun a b => x6 (ix2 a b)) (fun k => x7 (ix1 k)) (fun a b => x8 (ix2 a b)) (fun k => x9 (ix1 k))
          (fun a b => x10 (ix2 a b)) (fun k => x11 (ix1 k)) (fun a b => x12 (ix2 a b)) (fun k => x13 (ix1 k)) j := by
  have ha : (fun k => val_main_v29 (F := Ideal) x0 x2 x4 x5 x6 x7 x8 x9 (ix2 r k)) = Cert.Spec.enc (fun k => val_main_v19 (F := Ideal) x0 x2 x4 x5 (ix2 r k)) (fun a b => x6 (ix2 a b)) (fun k => x7 (ix1 k))
      (fun a b => x8 (ix2 a b)) (fun k => x9 (ix1 k)) := funext fun q => enc_a x0 x2 x4 x5 x6 x7 x8 x9 r q
  have hb : (fun k => val_main_v59 (F := Ideal) x1 x2 x4 x5 x6 x7 x8 x9 (ix2 r k)) = Cert.Spec.enc (fun k => val_main_v49 (F := Ideal) x1 x2 x4 x5 (ix2 r k)) (fun a b => x6 (ix2 a b)) (fun k => x7 (ix1 k))
      (fun a b => x8 (ix2 a b)) (fun k => x9 (ix1 k)) := funext fun q => enc_b x1 x2 x4 x5 x6 x7 x8 x9 r q
  rw [out_row, ha, hb]
  rfl

end Cert.RefRows

end
-- ==== Proof.RefAgg.lean ====
/- The reference program's aggregation is `agg`.

   For each of the two inputs the reference flattens the 1024 × 978 features, takes row 0 of the edge list as source
   words (wrap-normalising a negative one by adding the node count), gathers the feature of each edge's source
   (clamping the word into the node range), multiplies it by the scalar weight, adds it into the element of a zero
   array that the edge's destination word (row 1) names, adds the scalar bias everywhere, and folds the result back
   to 1024 × 978. Read at `(r, k)`, i.e. at flat node `r · 978 + k`: the gather is the operand at the clamped start
   index, the accumulating scatter is the operand's element plus the sum of the updates whose index is that node, and
   every other operation reads one element of each operand. The result is `agg` on the nose. -/
import proofs.«165435_j22591527977030_2_alg».proof.Proof.Gen.ReferenceIdeal.Read
import proofs.«165435_j22591527977030_2_alg».proof.Proof.LibGatherRows
import proofs.«165435_j22591527977030_2_alg».proof.Proof.LibScatterRows
import proofs.«165435_j22591527977030_2_alg».proof.Proof.Agg

noncomputable section

open scoped BigOperators

namespace Cert.RefAgg

open Cert.ReferenceIdeal Cert.ReferenceIdeal.Gen Cert.ReferenceIdeal.Read Idealize.ShloMosaic
  Idealize.ShloMosaic.ValueIdx

/-! ## Input 0 -/

/-- The reshaped slice of row 0 of the edge list at `e` is edge `e`'s source word. -/
theorem src_read0 (x2 : (⟨S2x20480000, .i32⟩ : BufTy).Contents (Elt Ideal)) (e : Fin 20480000) :
    val_main_v2 (F := Ideal) x2 (ix1 e) = Cert.Agg.srcWord x2 e := by
  rw [val_main_v2_apply, val_main_v1_apply]
  unfold Cert.Agg.srcWord
  congr 1
  funext a
  refine Fin.ext ?_
  match a with
  | ⟨0, _⟩ => rfl
  | ⟨1, _⟩ => exact Nat.mod_eq_of_lt e.isLt

/-- The reshaped slice of row 1 of the edge list, as a column, at `[e, 0]` is edge `e`'s destination word. -/
theorem dst_read0 (x2 : (⟨S2x20480000, .i32⟩ : BufTy).Contents (Elt Ideal)) (e : Fin 20480000) :
    val_main_v15 (F := Ideal) x2 (Cert.Voxel.Ref.rowIdx e) = Cert.Agg.dstWord x2 e := by
  rw [val_main_v15_apply, val_main_v13_apply, val_main_v12_apply]
  unfold Cert.Agg.dstWord
  congr 1
  funext a
  refine Fin.ext ?_
  match a with
  | ⟨0, _⟩ => rfl
  | ⟨1, _⟩ => exact Nat.mod_eq_of_lt e.isLt

/-- The start-index column at `[e, 0]` is the wrap-normalised source word. -/
theorem norm_read0 (x2 : (⟨S2x20480000, .i32⟩ : BufTy).Contents (Elt Ideal)) (e : Fin 20480000) :
    val_main_v8 (F := Ideal) x2 (Cert.GatherRows.colIdx e) = Cert.Agg.normWord (Cert.Agg.srcWord x2 e) := by
  have hi : idx_main_v8 (Cert.GatherRows.colIdx e) = ix1 e := by
    funext a
    refine Fin.ext ?_
    match a with
    | ⟨0, _⟩ => rfl
  rw [val_main_v8_apply, hi, val_main_v7_apply, val_main_v4_apply, val_main_v6_apply, val_main_v3_apply, val_main_v5_apply,
    val_main_c_apply, val_main_c_0_apply, src_read0]
  rfl

/-- The gathered feature of edge `e` is the feature of the node its source word names. -/
theorem gather_read0 (x0 : (⟨S1024x978, .f32⟩ : BufTy).Contents (Elt Ideal))
    (x2 : (⟨S2x20480000, .i32⟩ : BufTy).Contents (Elt Ideal)) (e : Fin 20480000) :
    val_main_v9 (F := Ideal) x0 x2 (ix1 e) = x0 (Cert.Agg.node (Cert.Agg.normWord (Cert.Agg.srcWord x2 e))) := by
  have hN : 0 < 1001472 := by omega
  unfold val_main_v9
  show Host.gather (Cert.GatherRows.flatDims 1001472 20480000 _) (val_main_v0 (F := Ideal) x0)
    (val_main_v8 (F := Ideal) x2) (ix1 e) = _
  rw [Cert.GatherRows.flat_gather_apply hN, norm_read0, val_main_v0_apply]
  congr 1
  funext a
  refine Fin.ext ?_
  match a with
  | ⟨0, _⟩ => rfl
  | ⟨1, _⟩ => rfl

/-- The scatter at flat node `m`: zero plus the sum, over the edges whose destination word is `m`, of the gathered
    feature times the weight. -/
theorem scatter_read0 (x0 : (⟨S1024x978, .f32⟩ : BufTy).Contents (Elt Ideal))
    (x2 : (⟨S2x20480000, .i32⟩ : BufTy).Contents (Elt Ideal)) (x4 : (⟨S_, .f32⟩ : BufTy).Contents (Elt Ideal))
    (m : Fin 1001472) :
    val_main_v16 (F := Ideal) x0 x2 x4 (ix1 m)
      = Ideal.ofBits .f32 0x00000000#32
        + ∑ e : Fin 20480000, if (Cert.Agg.dstWord x2 e).toInt = (m.val : Int)
            then x0 (Cert.Agg.node (Cert.Agg.normWord (Cert.Agg.srcWord x2 e))) * x4 ix0 else 0 := by
  have h1 : val_main_v16 (F := Ideal) x0 x2 x4
      = Host.scatterAdd (F := Ideal) (φ := .f32) scatter_S1001472_S20480000x1_S20480000_n_0_0_1 (val_main_v14 (F := Ideal))
          (val_main_v15 (F := Ideal) x2) (val_main_v11 (F := Ideal) x0 x2 x4) := rfl
  have h2 : Host.scatterAdd (F := Ideal) (φ := .f32) scatter_S1001472_S20480000x1_S20480000_n_0_0_1 (val_main_v14 (F := Ideal))
          (val_main_v15 (F := Ideal) x2) (val_main_v11 (F := Ideal) x0 x2 x4)
      = Ideal.hostScatterAdd scatter_S1001472_S20480000x1_S20480000_n_0_0_1 (val_main_v14 (F := Ideal))
          (val_main_v15 (F := Ideal) x2) (val_main_v11 (F := Ideal) x0 x2 x4) :=
    Ideal.hostScatterAdd_def (φ := .f32) scatter_S1001472_S20480000x1_S20480000_n_0_0_1 .single _ _ _
  have h3 : scatter_S1001472_S20480000x1_S20480000_n_0_0_1
      = Cert.Voxel.Ref.flatDims 1001472 20480000 scatter_S1001472_S20480000x1_S20480000_n_0_0_1_wf := rfl
  have hz : val_main_v14 (F := Ideal) (ix1 m) = Ideal.ofBits .f32 0x00000000#32 := by
    rw [val_main_v14_apply, val_main_cst_apply, Ideal.ofBits_def]
  have hs : ∀ e : Fin 20480000,
      (if (val_main_v15 (F := Ideal) x2 (Cert.Voxel.Ref.rowIdx e)).toInt = (m.val : Int)
        then val_main_v11 (F := Ideal) x0 x2 x4 (ix1 e) else 0)
      = (if (Cert.Agg.dstWord x2 e).toInt = (m.val : Int)
        then x0 (Cert.Agg.node (Cert.Agg.normWord (Cert.Agg.srcWord x2 e))) * x4 ix0 else 0) := by
    intro e
    rw [dst_read0, val_main_v11_apply, gather_read0, val_main_v10_apply, Ideal.mulf_def]
  rw [h1, h2, h3]
  exact (Cert.Voxel.Ref.flat_scatterAdd_apply _ _ _ _ m).trans
    (congrArg₂ (fun a c : EReal => a + c) hz (Finset.sum_congr rfl fun e _ => hs e))

/-- THE REFERENCE'S AGGREGATE of input 0 at `(r, k)` is `agg`. -/
theorem ref_agg0 (x0 : (⟨S1024x978, .f32⟩ : BufTy).Contents (Elt Ideal))
    (x2 : (⟨S2x20480000, .i32⟩ : BufTy).Contents (Elt Ideal)) (x4 x5 : (⟨S_, .f32⟩ : BufTy).Contents (Elt Ideal))
    (r : Fin 1024) (k : Fin 978) :
    val_main_v19 (F := Ideal) x0 x2 x4 x5 (ix2 r k) = Cert.Agg.agg x0 x2 (x4 ix0) (x5 ix0) r k := by
  have hi : idx_main_v19 (ix2 r k) = ix1 (Cert.Agg.flatOf r k) := by
    funext a
    refine Fin.ext ?_
    match a with
    | ⟨0, _⟩ => rfl
  rw [val_main_v19_apply, val_main_v18_apply, val_main_v17_apply, Ideal.addf_def, hi, scatter_read0]
  rfl

/-! ## Input 1 -/

/-- The reshaped slice of row 0 of the edge list at `e` is edge `e`'s source word. -/
theorem src_read1 (x2 : (⟨S2x20480000, .i32⟩ : BufTy).Contents (Elt Ideal)) (e : Fin 20480000) :
    val_main_v32 (F := Ideal) x2 (ix1 e) = Cert.Agg.srcWord x2 e := by
  rw [val_main_v32_apply, val_main_v31_apply]
  unfold Cert.Agg.srcWord
  congr 1
  funext a
  refine Fin.ext ?_
  match a with
  | ⟨0, _⟩ => rfl
  | ⟨1, _⟩ => exact Nat.mod_eq_of_lt e.isLt

/-- The reshaped slice of row 1 of the edge list, as a column, at `[e, 0]` is edge `e`'s destination word. -/
theorem dst_read1 (x2 : (⟨S2x20480000, .i32⟩ : BufTy).Contents (Elt Ideal)) (e : Fin 20480000) :
    val_main_v45 (F := Ideal) x2 (Cert.Voxel.Ref.rowIdx e) = Cert.Agg.dstWord x2 e := by
  rw [val_main_v45_apply, val_main_v43_apply, val_main_v42_apply]
  unfold Cert.Agg.dstWord
  congr 1
  funext a
  refine Fin.ext ?_
  match a with
  | ⟨0, _⟩ => rfl
  | ⟨1, _⟩ => exact Nat.mod_eq_of_lt e.isLt

/-- The start-index column at `[e, 0]` is the wrap-normalised source word. -/
theorem norm_read1 (x2 : (⟨S2x20480000, .i32⟩ : BufTy).Contents (Elt Ideal)) (e : Fin 20480000) :
    val_main_v38 (F := Ideal) x2 (Cert.GatherRows.colIdx e) = Cert.Agg.normWord (Cert.Agg.srcWord x2 e) := by
  have hi : idx_main_v38 (Cert.GatherRows.colIdx e) = ix1 e := by
    funext a
    refine Fin.ext ?_
    match a with
    | ⟨0, _⟩ => rfl
  rw [val_main_v38_apply, hi, val_main_v37_apply, val_main_v34_apply, val_main_v36_apply, val_main_v33_apply, val_main_v35_apply,
    val_main_c_1_apply, val_main_c_2_apply, src_read1]
  rfl

/-- The gathered feature of edge `e` is the feature of the node its source word names. -/
theorem gather_read1 (x1 : (⟨S1024x978, .f32⟩ : BufTy).Contents (Elt Ideal))
    (x2 : (⟨S2x20480000, .i32⟩ : BufTy).Contents (Elt Ideal)) (e : Fin 20480000) :
    val_main_v39 (F := Ideal) x1 x2 (ix1 e) = x1 (Cert.Agg.node (Cert.Agg.normWord (Cert.Agg.srcWord x2 e))) := by
  have hN : 0 < 1001472 := by omega
  unfold val_main_v39
  show Host.gather (Cert.GatherRows.flatDims 1001472 20480000 _) (val_main_v30 (F := Ideal) x1)
    (val_main_v38 (F := Ideal) x2) (ix1 e) = _
  rw [Cert.GatherRows.flat_gather_apply hN, norm_read1, val_main_v30_apply]
  congr 1
  funext a
  refine Fin.ext ?_
  match a with
  | ⟨0, _⟩ => rfl
  | ⟨1, _⟩ => rfl

/-- The scatter at flat node `m`: zero plus the sum, over the edges whose destination word is `m`, of the gathered
    feature times the weight. -/
theorem scatter_read1 (x1 : (⟨S1024x978, .f32⟩ : BufTy).Contents (Elt Ideal))
    (x2 : (⟨S2x20480000, .i32⟩ : BufTy).Contents (Elt Ideal)) (x4 : (⟨S_, .f32⟩ : BufTy).Contents (Elt Ideal))
    (m : Fin 1001472) :
    val_main_v46 (F := Ideal) x1 x2 x4 (ix1 m)
      = Ideal.ofBits .f32 0x00000000#32
        + ∑ e : Fin 20480000, if (Cert.Agg.dstWord x2 e).toInt = (m.val : Int)
            then x1 (Cert.Agg.node (Cert.Agg.normWord (Cert.Agg.srcWord x2 e))) * x4 ix0 else 0 := by
  have h1 : val_main_v46 (F := Ideal) x1 x2 x4
      = Host.scatterAdd (F := Ideal) (φ := .f32) scatter_S1001472_S20480000x1_S20480000_n_0_0_1 (val_main_v44 (F := Ideal))
          (val_main_v45 (F := Ideal) x2) (val_main_v41 (F := Ideal) x1 x2 x4) := rfl
  have h2 : Host.scatterAdd (F := Ideal) (φ := .f32) scatter_S1001472_S20480000x1_S20480000_n_0_0_1 (val_main_v44 (F := Ideal))
          (val_main_v45 (F := Ideal) x2) (val_main_v41 (F := Ideal) x1 x2 x4)
      = Ideal.hostScatterAdd scatter_S1001472_S20480000x1_S20480000_n_0_0_1 (val_main_v44 (F := Ideal))
          (val_main_v45 (F := Ideal) x2) (val_main_v41 (F := Ideal) x1 x2 x4) :=
    Ideal.hostScatterAdd_def (φ := .f32) scatter_S1001472_S20480000x1_S20480000_n_0_0_1 .single _ _ _
  have h3 : scatter_S1001472_S20480000x1_S20480000_n_0_0_1
      = Cert.Voxel.Ref.flatDims 1001472 20480000 scatter_S1001472_S20480000x1_S20480000_n_0_0_1_wf := rfl
  have hz : val_main_v44 (F := Ideal) (ix1 m) = Ideal.ofBits .f32 0x00000000#32 := by
    rw [val_main_v44_apply, val_main_cst_3_apply, Ideal.ofBits_def]
  have hs : ∀ e : Fin 20480000,
      (if (val_main_v45 (F := Ideal) x2 (Cert.Voxel.Ref.rowIdx e)).toInt = (m.val : Int)
        then val_main_v41 (F := Ideal) x1 x2 x4 (ix1 e) else 0)
      = (if (Cert.Agg.dstWord x2 e).toInt = (m.val : Int)
        then x1 (Cert.Agg.node (Cert.Agg.normWord (Cert.Agg.srcWord x2 e))) * x4 ix0 else 0) := by
    intro e
    rw [dst_read1, val_main_v41_apply, gather_read1, val_main_v40_apply, Ideal.mulf_def]
  rw [h1, h2, h3]
  exact (Cert.Voxel.Ref.flat_scatterAdd_apply _ _ _ _ m).trans
    (congrArg₂ (fun a c : EReal => a + c) hz (Finset.sum_congr rfl fun e _ => hs e))

/-- THE REFERENCE'S AGGREGATE of input 1 at `(r, k)` is `agg`. -/
theorem ref_agg1 (x1 : (⟨S1024x978, .f32⟩ : BufTy).Contents (Elt Ideal))
    (x2 : (⟨S2x20480000, .i32⟩ : BufTy).Contents (Elt Ideal)) (x4 x5 : (⟨S_, .f32⟩ : BufTy).Contents (Elt Ideal))
    (r : Fin 1024) (k : Fin 978) :
    val_main_v49 (F := Ideal) x1 x2 x4 x5 (ix2 r k) = Cert.Agg.agg x1 x2 (x4 ix0) (x5 ix0) r k := by
  have hi : idx_main_v49 (ix2 r k) = ix1 (Cert.Agg.flatOf r k) := by
    funext a
    refine Fin.ext ?_
    match a with
    | ⟨0, _⟩ => rfl
  rw [val_main_v49_apply, val_main_v48_apply, val_main_v47_apply, Ideal.addf_def, hi, scatter_read1]
  rfl

end Cert.RefAgg

end
-- ==== Proof.RefFinal.lean ====
/- The reference's whole result array: row r of the result is the specification's row function of row r of the two
   aggregated arrays, row r of the extra features and the shared weights. -/
import proofs.«165435_j22591527977030_2_alg».proof.Proof.RefRows2
import proofs.«165435_j22591527977030_2_alg».proof.Proof.RefAgg
import proofs.«165435_j22591527977030_2_alg».proof.Proof.Rows

noncomputable section

open scoped BigOperators

namespace Cert.RefFinal

open Cert.ReferenceIdeal Cert.ReferenceIdeal.Gen Cert.ReferenceIdeal.Read Idealize.ShloMosaic Idealize.ShloMosaic.ValueIdx

/-- The reference's result, as one array, is the row function applied to every row of the two aggregates. -/
theorem ref_result (x0 x1 : (⟨S1024x978, .f32⟩ : BufTy).Contents (Elt Ideal)) (x2 : (⟨S2x20480000, .i32⟩ : BufTy).Contents (Elt Ideal))
    (x3 : (⟨S1024x4, .f32⟩ : BufTy).Contents (Elt Ideal))
    (x4 x5 : (⟨S_, .f32⟩ : BufTy).Contents (Elt Ideal)) (x6 : (⟨S978x2048, .f32⟩ : BufTy).Contents (Elt Ideal))
    (x7 : (⟨S2048, .f32⟩ : BufTy).Contents (Elt Ideal)) (x8 : (⟨S2048x100, .f32⟩ : BufTy).Contents (Elt Ideal))
    (x9 : (⟨S100, .f32⟩ : BufTy).Contents (Elt Ideal)) (x10 : (⟨S5x4, .f32⟩ : BufTy).Contents (Elt Ideal))
    (x11 : (⟨S4, .f32⟩ : BufTy).Contents (Elt Ideal)) (x12 : (⟨S4x2, .f32⟩ : BufTy).Contents (Elt Ideal))
    (x13 : (⟨S2, .f32⟩ : BufTy).Contents (Elt Ideal)) :
    val_main_v93 (F := Ideal) x0 x1 x2 x3 x4 x5 x6 x7 x8 x9 x10 x11 x12 x13
      = Cert.Rows.rowsOut (Cert.Agg.agg x0 x2 (x4 ix0) (x5 ix0)) (Cert.Agg.agg x1 x2 (x4 ix0) (x5 ix0)) x3 x6 x7 x8 x9 x10 x11 x12 x13 := by
  funext i
  obtain ⟨r, j, rfl⟩ : ∃ (r : Fin 1024) (j : Fin 2), i = ix2 r j := ⟨i 0, i 1, eq_ix2 i⟩
  have ha : (fun k => val_main_v19 (F := Ideal) x0 x2 x4 x5 (ix2 r k)) = Cert.Agg.agg x0 x2 (x4 ix0) (x5 ix0) r :=
    funext fun k => Cert.RefAgg.ref_agg0 x0 x2 x4 x5 r k
  have hb : (fun k => val_main_v49 (F := Ideal) x1 x2 x4 x5 (ix2 r k)) = Cert.Agg.agg x1 x2 (x4 ix0) (x5 ix0) r :=
    funext fun k => Cert.RefAgg.ref_agg1 x1 x2 x4 x5 r k
  rw [Cert.RefRows.row x0 x1 x2 x3 x4 x5 x6 x7 x8 x9 x10 x11 x12 x13 r j, ha, hb]
  exact (Cert.Rows.rowsOut_apply _ _ x3 x6 x7 x8 x9 x10 x11 x12 x13 r j).symm

end Cert.RefFinal

end
-- ==== Proof.lean ====
/- The certificate of the graph-encoder kernel against its reference: both programs compute, for every batch row,
   the same function of the arguments on the extended reals.

   Each program first aggregates the two node-feature arrays over the edge list — for every node the sum, over the
   edges that end there, of the source node's feature, times a scalar weight, plus a scalar bias. The reference multiplies
   every gathered feature by the weight before summing, one input at a time; the kernel program gathers and sums both
   inputs at once as the two columns of one array and multiplies the sums. For real features and a real weight these
   agree, multiplication by a real distributing over a finite sum of reals: this is where the precondition is used.
   Then every batch row goes through the encoder, the squared correlation and the small predictor (Spec). The reference
   does so on whole arrays (RefRows1, RefRows2, RefFinal over the reference's run read one operation at a time); the kernel
   does so on blocks of 128 rows, its body stacking the two signals' blocks into 256 rows (KerPay), and its eight blocks
   tile the result (KerValue). Both result arrays are `Rows.rowsOut` of the two aggregates and the arguments.

   The three frame conjuncts are the generated frames (the reference's is its run with the result dropped); the ideal
   pass rewrote nothing, so the conjunct on it is trivial. -/
import proofs.«165435_j22591527977030_2_alg».proof.Defs
import proofs.«165435_j22591527977030_2_alg».proof.Proof.Gen.Kernel
import proofs.«165435_j22591527977030_2_alg».proof.Proof.Gen.Kernel.Skeleton
import proofs.«165435_j22591527977030_2_alg».proof.Proof.Gen.Kernel.Launch
import proofs.«165435_j22591527977030_2_alg».proof.Proof.Gen.Kernel.Points
import proofs.«165435_j22591527977030_2_alg».proof.Proof.Gen.Kernel.Frame
import proofs.«165435_j22591527977030_2_alg».proof.Proof.Gen.KernelIdeal
import proofs.«165435_j22591527977030_2_alg».proof.Proof.Gen.KernelIdeal.Skeleton
import proofs.«165435_j22591527977030_2_alg».proof.Proof.Gen.KernelIdeal.Launch
import proofs.«165435_j22591527977030_2_alg».proof.Proof.Gen.KernelIdeal.Points
import proofs.«165435_j22591527977030_2_alg».proof.Proof.Gen.KernelIdeal.Frame
import proofs.«165435_j22591527977030_2_alg».proof.Proof.Gen.ReferenceIdeal
import proofs.«165435_j22591527977030_2_alg».proof.Proof.Gen.KernelIdeal.Value
import proofs.«165435_j22591527977030_2_alg».proof.Proof.Gen.ReferenceIdeal.Run
import proofs.«165435_j22591527977030_2_alg».proof.Proof.Gen.ReferenceIdeal.Read
import proofs.«165435_j22591527977030_2_alg».proof.Proof.Gen.Pre_finite_inputs
import proofs.«165435_j22591527977030_2_alg».proof.Proof.Finite
import proofs.«165435_j22591527977030_2_alg».proof.Proof.KerFinal
import proofs.«165435_j22591527977030_2_alg».proof.Proof.RefFinal
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments, which hold reals where the aggregation multiplies, both programs end
    with `Rows.rowsOut` of the two aggregates and the arguments in their result arrays. -/
theorem algebraic : Cert.algebraic_KernelIdeal_ReferenceIdeal := by
  intro m ρ m' ρ' hpre hagree
  refine ⟨fun c => Cert.Rows.rowsOut
      (Cert.Agg.agg (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        ((m ((c.tc : Thread Cert.KernelIdeal.nD Cert.KernelIdeal.τ).loc Cert.KernelIdeal.main_arg4) : Cert.KernelIdeal.S_.Idx → EReal) ValueIdx.ix0)
        ((m ((c.tc : Thread Cert.KernelIdeal.nD Cert.KernelIdeal.τ).loc Cert.KernelIdeal.main_arg5) : Cert.KernelIdeal.S_.Idx → EReal) ValueIdx.ix0))
      (Cert.Agg.agg (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        ((m ((c.tc : Thread Cert.KernelIdeal.nD Cert.KernelIdeal.τ).loc Cert.KernelIdeal.main_arg4) : Cert.KernelIdeal.S_.Idx → EReal) ValueIdx.ix0)
        ((m ((c.tc : Thread Cert.KernelIdeal.nD Cert.KernelIdeal.τ).loc Cert.KernelIdeal.main_arg5) : Cert.KernelIdeal.S_.Idx → EReal) ValueIdx.ix0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩)
      (Cert.KernelIdeal.Value.run_blocks m ρ)
    obtain ⟨h0, h1, hw⟩ := Cert.Finite.reals_of_pre _ _ _ _ _ _ _ _ _ _ _ _ _ _ (hpre c)
    exact (Cert.KerValue.final m c).trans (Cert.KerFinal.G_eq m c h0 h1 hw)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13⟩ := hagree c
    rw [Cert.ReferenceIdeal.Read.val_main_v93_eq, Cert.RefFinal.ref_result, a0, a1, a2, a3, a4, a5, a6, a7, a8, a9, a10,
      a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
